-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S512x256 : Shape := ⟨2, ![512, 256]⟩
abbrev S512x1 : Shape := ⟨2, ![512, 1]⟩
abbrev S1x512 : Shape := ⟨2, ![1, 512]⟩
abbrev S512x512 : Shape := ⟨2, ![512, 512]⟩
abbrev S512 : Shape := ⟨1, ![512]⟩

abbrev nBuf : Space → Nat
  | .hbm => 21
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S8192x256, .bf16⟩
  | .hbm, ⟨13, _⟩ => ⟨S8192x1, .i32⟩
  | .hbm, ⟨14, _⟩ => ⟨S1x8192, .i32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v54 : BitVec 1 := Scalar.cmpi .eq arg1 c15_i32
  let v55 : BitVec 32 := Scalar.extui v54
  let c0_i32_26 : BitVec 32 := 0#32
  let v56 : BitVec 1 := Scalar.cmpi .ne v55 c0_i32_26
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  natLt_1_32 : 1 < 32
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reducesTo_S8192x1_S_d0_1 : S8192x1.ReducesTo [0, 1] S_
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .bf16 = 32 ∨ (Rect.block (s := S8192x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_v8) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S256x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x1, .i32⟩
  | .hbm, ⟨18, _⟩ => ⟨S1x8192, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .f32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_cst_7 : Ref sig .tc := ⟨.hbm, 50, rfl⟩
abbrev main_call0_v0 : Ref sig .tc := ⟨.hbm, 51, rfl⟩
abbrev main_call0_v1 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Entry.lean ====
/-
  What the region finds: the buffers' contents after the thirteen host operations that precede the call
  (row norms, the normalised features, the two reshapes of the labels), and each window's block at a grid
  point read off those contents.
-/
import proofs.«119381_j32710470926983_2_alg».proof.Proof.Gen.Kernel.Launch
import proofs.«119381_j32710470926983_2_alg».proof.Proof.Gen.Kernel.Skeleton
import proofs.«119381_j32710470926983_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: after the host operations before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Gen

end
-- ==== Proof.LibHalves.lean ====
import Idealize.SL.RA.TreeShare

/-!
# The shares of five windows of which the first two read one array

Windows 0 and 1 hold the two halves of the full share of their common array; the other windows hold theirs whole.
-/

namespace Idealize.SL.RA

/-- The share each of five windows holds of its array when windows 0 and 1 share one. -/
def sharedPair5 : Fin 5 → PosShare TreeShare := fun
  | 0 => fullShare.left
  | 1 => fullShare.right
  | _ => fullShare

end Idealize.SL.RA
-- ==== Proof.K.Launch.lean ====
/-
  The run of @main from a body obligation.

  @main is thirteen host operations (the row norms, the normalised features cast to bf16, two reshapes of the labels),
  ONE kernel region over a 16 x 16 grid, and five host operations (the sum of the region's output array, its division
  by the row count, the negation). The region's first two input windows read ONE array (the normalised features, as
  row blocks and as column blocks), so the buffers behind the windows' arrays are four for five windows: at the
  region's entry the shared array's points-to is split in its two halves, one per window, and each other array is
  held whole. The output array is held whole, so the host operations after the region may read it; they run within
  that array and the buffers that bypass the region.

  `run_main_of`: for ANY proof data of the region that reads its arrays off the contents the earlier host operations
  leave, holds the shared array in halves, owes nothing, meets the body obligation, and keeps an invariant made from
  (and giving back) the scratch buffers and the generator register — every weakly fair execution of @main terminates,
  the result buffer holds what the later host operations compute from the region's output array (`result_eq`: the
  negated mean), and both arguments are as launched.
-/
import proofs.«119381_j32710470926983_2_alg».proof.Proof.K.Entry
import proofs.«119381_j32710470926983_2_alg».proof.Proof.LibHalves
import Idealize.ShloMosaic.Lib.Pipeline.FrameSuffix
import Idealize.ShloMosaic.Lib.Pipeline.Kit

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The windows' arrays, one by one. -/
theorem arrays_open (c : Dev nD) (dat : Dat τ (Elt F) Unit ℕ (UR sig nD τ) ℕ cfg0 c) (hq : dat.q = sharedPair5)
    (A : (w : Fin cfg0.W) → Buf (Elt F) ((cfg0.win w).arr.view.loc (c : Thread nD τ))) :
    (dat.arrays A : sProp 𝕄) = iprop((((c : Thread nD τ).loc main_v8) ↦{fullShare.left} A 0) ∗ (((c : Thread nD τ).loc main_v8) ↦{fullShare.right} A 1)
      ∗ (((c : Thread nD τ).loc main_v9) ↦{fullShare} A 2) ∗ (((c : Thread nD τ).loc main_v10) ↦{fullShare} A 3) ∗ (((c : Thread nD τ).loc main_v11) ↦{fullShare} A 4)) := by
  unfold Pipeline.Dat.arrays Pipeline.Dat.share
  rw [bigSep_W0, hq, (arr_whole0 0).set_eq_univ, (arr_whole0 2).set_eq_univ, (arr_whole0 3).set_eq_univ, (arr_whole0 4).set_eq_univ]
  rfl

/-- The contents when the region is left: as it found them, the result array at `A4`. -/
def V1 (c : Dev nD) (A4 : Buf (Elt F) ((c : Thread nD τ).loc main_v11)) : Valuation τ sig (Elt F) :=
  Function.update (V0 m c) (Proc.devRef .tc main_v11) A4

/-- The buffers the lines after the region run within: the result array and the buffers that bypass the region. -/
def S1 : Finset (DevRef τ sig) :=
  (insert main_v11 (Pipeline.restRefs sig spec0)).map ⟨Proc.devRef (sig := sig) .tc, Proc.devRef_injective _⟩

theorem v11_not_rest : main_v11 ∉ Pipeline.restRefs sig spec0 := fun h =>
  (Finset.mem_sdiff.mp h).2 (Finset.mem_image.mpr ⟨4, Finset.mem_univ _, rfl⟩)

theorem ne_v11_of_rest {b : Ref sig .tc} (hb : b ∈ Pipeline.restRefs sig spec0) : b ≠ main_v11 := fun e => v11_not_rest (e ▸ hb)

theorem held_S1 (c : Dev nD) (W : Valuation τ sig (Elt F)) :
    (StableHlo.held (c : Thread nD τ) S1 W : sProp 𝕄)
      = iprop((((c : Thread nD τ).loc main_v11) ↦{fullShare} W (Proc.devRef .tc main_v11))
          ∗ Pipeline.unscopedRest spec0 c (fun b => W (Proc.devRef .tc b))) := by
  classical
  unfold StableHlo.held S1 Pipeline.unscopedRest
  rw [bigSep_map, bigSep_insert v11_not_rest]
  rfl

theorem mem_S1_v11 : Proc.devRef (τ := τ) .tc main_v11 ∈ S1 :=
  Finset.mem_map_of_mem _ (Finset.mem_insert_self _ _)

theorem mem_S1_of {b : Ref sig .tc} (hs : b.isScoped = false) (ha : ∀ w, (spec0 w).arr.view.ref ≠ b) :
    Proc.devRef (τ := τ) .tc b ∈ S1 :=
  Finset.mem_map_of_mem _ (Finset.mem_insert_of_mem (Pipeline.mem_restRefs_of b hs ha))

/-- The lines after the region touch the result array and bypassing buffers only. -/
theorem hostOps1_S1 : ∀ ops ∈ ([hostOps1] : List (List (HloOp τ sig (Elt F)))), ∀ op ∈ ops, op.bufs ⊆ S1 := by
  intro ops hops op hop
  simp only [List.mem_cons, List.mem_nil_iff, or_false] at hops
  subst hops
  simp only [List.mem_cons, List.mem_nil_iff, or_false] at hop
  rcases hop with rfl | rfl | rfl | rfl | rfl <;>
    simp only [StableHlo.nullary_bufs, StableHlo.unary_bufs, StableHlo.binary_bufs, Finset.insert_subset_iff, Finset.singleton_subset_iff] <;>
    (repeat' apply And.intro) <;>
    first | exact mem_S1_v11 | exact mem_S1_of rfl (by decide)

theorem hostOps1_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- A buffer that is the result of no line after the region is not written by them. -/
theorem not_written1 (b : Ref sig .tc) (hb : b ≠ main_cst_1 ∧ b ≠ main_v12 ∧ b ≠ main_cst_2 ∧ b ≠ main_v13 ∧ b ≠ main_v14) :
    ∀ op ∈ (hostOps1 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.binary_writes, StableHlo.nullary_writes, Finset.mem_singleton] <;>
    exact StableHlo.devRef_ne_of_ne ‹_›

/-- A buffer that is the result of no line before the region is not written by them. -/
theorem not_written0 (b : Ref sig .tc) (hb : b ≠ main_v0 ∧ b ≠ main_cst ∧ b ≠ main_v1 ∧ b ≠ main_v2 ∧ b ≠ main_v3 ∧ b ≠ main_cst_0 ∧ b ≠ main_v4
      ∧ b ≠ main_v5 ∧ b ≠ main_v6 ∧ b ≠ main_v7 ∧ b ≠ main_v8 ∧ b ≠ main_v9 ∧ b ≠ main_v10) :
    ∀ op ∈ (hostOps0 (F := F)), Proc.devRef .tc b ∉ op.writes := by
  obtain ⟨h0, h1, h2, h3, h4, h5, h6, h7, h8, h9, h10, h11, h12⟩ := hb
  intro op hop
  simp only [List.mem_cons, List.mem_nil_iff, or_false] at hop
  rcases hop with rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

theorem V1_v11 (c : Dev nD) (A4 : Buf (Elt F) ((c : Thread nD τ).loc main_v11)) :
    V1 m c A4 (Proc.devRef .tc main_v11) = A4 := by
  unfold V1; rw [Function.update_self]

theorem V1_of_ne (c : Dev nD) (A4 : Buf (Elt F) ((c : Thread nD τ).loc main_v11)) (b : Ref sig .tc) (hb : b ≠ main_v11) :
    V1 m c A4 (Proc.devRef .tc b) = V0 m c (Proc.devRef .tc b) := by
  unfold V1; rw [Function.update_of_ne (StableHlo.devRef_ne_of_ne hb)]

/-- At the region's exit the bypassing buffers are as the region found them. -/
theorem rest_exit (c : Dev nD) (A4 : Buf (Elt F) ((c : Thread nD τ).loc main_v11)) :
    (Pipeline.unscopedRest spec0 c (fun b => V1 m c A4 (Proc.devRef .tc b)) : sProp 𝕄) = Pipeline.unscopedRest spec0 c (V m c) := by
  unfold Pipeline.unscopedRest
  exact bigSep_congr fun b hb => by beta_reduce; rw [V1_of_ne m c A4 b (ne_v11_of_rest hb)]

theorem held_S1_exit (c : Dev nD) (A4 : Buf (Elt F) ((c : Thread nD τ).loc main_v11)) :
    (StableHlo.held (c : Thread nD τ) S1 (V1 m c A4) : sProp 𝕄)
      = iprop((((c : Thread nD τ).loc main_v11) ↦{fullShare} A4) ∗ Pipeline.unscopedRest spec0 c (V m c)) := by
  rw [held_S1, V1_v11, rest_exit]

theorem held_S1_after (c : Dev nD) (A4 : Buf (Elt F) ((c : Thread nD τ).loc main_v11)) :
    (StableHlo.held (c : Thread nD τ) S1 (StableHlo.after hostOps1 (V1 m c A4)) : sProp 𝕄)
      = iprop((((c : Thread nD τ).loc main_v11) ↦{fullShare} A4)
          ∗ Pipeline.unscopedRest spec0 c (fun b => StableHlo.after hostOps1 (V1 m c A4) (Proc.devRef .tc b))) := by
  rw [held_S1, StableHlo.after_of_forall_not_mem _ _ (not_written1 main_v11 (by decide)), V1_v11]

set_option backward.isDefEq.respectTransparency.types false in
/-- The lines after the region, run from the region's exit: the windows' arrays at `A` (the result's whole, so that
    the lines may read it) and the bypassing buffers as the region found them; they give the arrays back and leave
    the bypassing buffers at the lines' results. -/
theorem tail_run (𝒱₀ : Variants) (c : Dev nD) (dat : Dat τ (Elt F) Unit ℕ (UR sig nD τ) ℕ cfg0 c) (hq : dat.q = sharedPair5)
    (A : (w : Fin cfg0.W) → Buf (Elt F) ((cfg0.win w).arr.view.loc (c : Thread nD τ))) (Q' : PUnit → sProp 𝕄) :
    iprop((iprop(dat.arrays A ∗ Pipeline.unscopedRest spec0 c (fun b => StableHlo.after hostOps1 (V1 m c (A 4)) (Proc.devRef .tc b))) -∗ Q' ⟨⟩)
        ∗ boundary (c : Thread nD τ) ∗ dat.arrays A ∗ Pipeline.unscopedRest spec0 c (V m c))
      ⊢ wp frame (wpE (defs (F := F)) (Variants.lift 𝒱₀) (c : Thread nD τ) none) Set.univ (Pipeline.chain [StableHlo.seq hostOps1]) Q' := by
  classical
  have hseq := Pipeline.wp_seqs_then (pcfgs (F := F)) defs₀ 𝒱₀ c S1 [] [hostOps1] hostOps1_S1 hostOps1_fresh' (V1 m c (A 4)) (K := Q')
  rw [show ([hostOps1] : List (List (HloOp τ sig (Elt F)))).flatten = hostOps1 from by simp only [List.flatten_cons, List.flatten_nil, List.append_nil],
    Pipeline.chain_nil, wp_pure, held_S1_exit, held_S1_after] at hseq
  rw [arrays_open c dat hq A]
  iintro ⟨Hk, Hb, ⟨H0, H1, H2, H3, H4⟩, HZ⟩
  iapply hseq $$ [Hb H4 HZ]
  · isplitl [Hb]; · iexact Hb
    isplitl [H4] <;> iassumption
  iintro ⟨Hb, H4, HZ⟩
  imodintro
  iapply Hk
  isplitr [HZ]
  · isplitl [H0]; · iexact H0
    isplitl [H1]; · iexact H1
    isplitl [H2]; · iexact H2
    isplitl [H3]; · iexact H3
    iexact H4
  · iexact HZ

/-- The distinct buffers behind the windows' arrays, one by one. -/
theorem arrBufs_open (c : Dev nD) (W : (b : Ref sig .tc) → Buf (Elt F) ((c : Thread nD τ).loc b)) :
    (Pipeline.arrBufs spec0 c W : sProp 𝕄)
      = iprop((((c : Thread nD τ).loc main_v8) ↦{fullShare} W main_v8) ∗ (((c : Thread nD τ).loc main_v9) ↦{fullShare} W main_v9)
          ∗ (((c : Thread nD τ).loc main_v10) ↦{fullShare} W main_v10) ∗ (((c : Thread nD τ).loc main_v11) ↦{fullShare} W main_v11)) := by
  unfold Pipeline.arrBufs
  exact bigSep_eq_bigSepL_of_eq [main_v8, main_v9, main_v10, main_v11] (by decide) (by decide) _

/-- ENTRY: the four buffers behind the five windows' arrays, each whole, make the windows' arrays at their shares —
    the array the first two windows read split in its two halves. -/
theorem hsplit_of (c : Dev nD) (dat : Dat τ (Elt F) Unit ℕ (UR sig nD τ) ℕ cfg0 c) (hq : dat.q = sharedPair5)
    (hA : ∀ w, dat.A w = V m c (Pipeline.arrRef spec0 w)) :
    (Pipeline.arrBufs spec0 c (V m c) : sProp 𝕄) ⊢ dat.arrays (dat.arrAt · 0) := by
  have e0 : dat.arrAt 0 0 = V m c main_v8 := hA 0
  have e1 : dat.arrAt 1 0 = V m c main_v8 := hA 1
  have e2 : dat.arrAt 2 0 = V m c main_v9 := hA 2
  have e3 : dat.arrAt 3 0 = V m c main_v10 := hA 3
  have e4 : dat.arrAt 4 0 = V m c main_v11 := hA 4
  rw [arrBufs_open, arrays_open c dat hq]
  rw [e0, e1, e2, e3, e4]
  iintro ⟨H8, H9, H10, H11⟩
  ihave H8' := (pointsTo_share (PosShare.mem_left_op_right fullShare)).1 $$ H8
  icases H8' with ⟨H8l, H8r⟩
  isplitl [H8l]; · iexact H8l
  isplitl [H8r]; · iexact H8r
  isplitl [H9]; · iexact H9
  isplitl [H10]; · iexact H10
  iexact H11

set_option backward.isDefEq.respectTransparency.types false in
/-- THE RUN OF @main, for any proof data of the region that reads its arrays off the contents the host lines before
    it leave (`hA`), holds the array its first two windows share in halves (`hq`), owes nothing, meets the body
    obligation and keeps an invariant made from, and giving back, the scratch buffers and the generator register:
    every weakly fair execution terminates, the result is what the host lines after the region compute from the
    region's output array, and both arguments are as launched. -/
theorem run_main_of (dats : (p : Fin 1) → (c : Dev nD) → Dat τ (Elt F) Unit ℕ (UR sig nD τ) ℕ (cfgs p) c)
    (hA : ∀ c w, (dats 0 c).A w = V m c (Pipeline.arrRef spec0 w))
    (hq : ∀ c, (dats 0 c).q = sharedPair5)
    (howed : ∀ c t, (dats 0 c).owed t = 0)
    (hbody : ∀ c, Pipeline.BodyObligationLoose (dats 0 c) defs₀ Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c : Thread nD τ).loc main_v14)
          = StableHlo.after hostOps1 (V1 m c ((dats 0 c).arrAt 4 cfg0.N)) (Proc.devRef .tc main_v14)
        ∧ r.2.mem ((c : Thread nD τ).loc main_arg0) = m ((c : Thread nD τ).loc main_arg0)
        ∧ r.2.mem ((c : Thread nD τ).loc main_arg1) = m ((c : Thread nD τ).loc main_arg1)) := by
  classical
  exact Pipeline.θ_run_region_pf_tail (fun p => (cfgs p).toPCfg) (fun p => (cfgs p).toPCfg_adm) dats () cellOf_inj 0 winFacts₀0
    (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit_of m c (dats 0 c) (hq c) (hA c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
        (fun b => StableHlo.after hostOps1 (V1 m c ((dats 0 c).arrAt 4 cfg0.N)) (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m Variants.none c (dats 0 c) (hq c) _ Q')
    (QY := fun c s => ∀ b ∈ Pipeline.restRefs sig spec0,
      s.mem ((c : Thread nD τ).loc b) = StableHlo.after hostOps1 (V1 m c ((dats 0 c).arrAt 4 cfg0.N)) (Proc.devRef .tc b))
    (hY := fun c s' => by
      iintro ⟨-, HU, HSI⟩
      unfold Pipeline.unscopedRest
      imodintro
      iapply (pointsTo_read_all (Pipeline.restRefs sig spec0) (fun b => (c : Thread nD τ).loc b)
        (fun b => StableHlo.after hostOps1 (V1 m c ((dats 0 c).arrAt 4 cfg0.N)) (Proc.devRef .tc b)) s')
      isplitl [HU] <;> iassumption)
    (hQ := fun s h c => ⟨(h c).2.2 main_v14 (Pipeline.mem_restRefs_of main_v14 rfl (by decide)),
      ((h c).2.2 main_arg0 (Pipeline.mem_restRefs_of main_arg0 rfl (by decide))).trans
        ((StableHlo.after_of_forall_not_mem _ _ (not_written1 main_arg0 (by decide))).trans
          ((V1_of_ne m c _ main_arg0 (by decide)).trans
            (StableHlo.after_of_forall_not_mem (b := Proc.devRef .tc main_arg0) hostOps0 _ (not_written0 main_arg0 (by decide))))),
      ((h c).2.2 main_arg1 (Pipeline.mem_restRefs_of main_arg1 rfl (by decide))).trans
        ((StableHlo.after_of_forall_not_mem _ _ (not_written1 main_arg1 (by decide))).trans
          ((V1_of_ne m c _ main_arg1 (by decide)).trans
            (StableHlo.after_of_forall_not_mem (b := Proc.devRef .tc main_arg1) hostOps0 _ (not_written0 main_arg1 (by decide)))))⟩)

/-- info: 'Cert.Kernel.Gen.run_main_of' depends on axioms: [propext, Classical.choice, Quot.sound] -/
#guard_msgs in #print axioms run_main_of

/-- The result, computed: the negated mean of the region's output array. -/
theorem result_eq (c : Dev nD) (A4 : Buf (Elt F) ((c : Thread nD τ).loc main_v11)) :
    StableHlo.after hostOps1 (V1 m c A4) (Proc.devRef .tc main_v14)
      = Host.negf (Host.divf (Host.reduceAdd (A4 : (⟨S8192x1, .f32⟩ : BufTy).Contents (Elt F)) (constant S_ .f32 0x00000000#32) reducesTo_S8192x1_S_d0_1 h_S_)
          (constant S_ .f32 0x46000000#32)) := by
  after_results
  rw [V1_v11]

end Cert.Kernel.Gen

end
-- ==== Proof.K.Runs.lean ====
/-
  What the three cases of the kernel body share. The body branches twice on the column coordinate `j` of the
  grid point: at `j = 0` it zeroes the three per-row accumulators (positive-similarity sum, exponential sum,
  positive count) before adding the tile's row sums; at `j = 15` it divides and stores the row losses. On the
  16×16 grid walked row by row, `j = 0` at the points ≡ 0 (mod 16) and `j = 15` at the points ≡ 15 (mod 16).
-/
import proofs.«119381_j32710470926983_2_alg».proof.Proof.K.Entry

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The first branch: the column coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second branch: the column coordinate is the last one. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the last branch is not taken nothing is stored into the output's buffer, and it is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev VO0_4 : View sig .tc .vmem S512x1 .f32 := (Memref.whole cc0_stg4_0 : Memref sig .tc .vmem S512x1 .f32).view
abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The three accumulators: whole scoped buffers of the kernel's own. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev VS0_0 : View sig .tc .vmem S512x1 .f32 := scM0_0.view
abbrev VS0_1 : View sig .tc .vmem S512x1 .f32 := scM0_1.view
abbrev VS0_2 : View sig .tc .vmem S512x1 .f32 := scM0_2.view

/-- The class invariant with the accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.K.RunA.lean ====
/-
  The kernel body run whole in one of its three cases (which branches the grid point takes).
-/
import proofs.«119381_j32710470926983_2_alg».proof.Proof.K.Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run whole in this case: from the inputs' buffers at their contents, the accumulators and the
    output's buffer as the case finds them, to the same inputs, and each buffer the body stored into holding the
    pieces its stores wrote (found by the run). -/
noncomputable def kernelRun0_A (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S512x256 .bf16) (x1 : Vec F S512x256 .bf16) (x2 : Vec F S512x1 .i32) (x3 : Vec F S1x512 .i32) :
    Σ' (L4 : List (View.Piece (Elt F) S512x1 .f32)) (LS0 : List (View.Piece (Elt F) S512x1 .f32)) (LS1 : List (View.Piece (Elt F) S512x1 .f32)), { LS2 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__supcon_kernel_eq_skeleton]; unfold cc0__supcon_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Gen

end
-- ==== Proof.K.RunB.lean ====
/-
  The kernel body run whole in one of its three cases (which branches the grid point takes).
-/
import proofs.«119381_j32710470926983_2_alg».proof.Proof.K.RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run whole in this case: from the inputs' buffers at their contents, the accumulators and the
    output's buffer as the case finds them, to the same inputs, and each buffer the body stored into holding the
    pieces its stores wrote (found by the run). -/
noncomputable def kernelRun0_B (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i)
    (x0 : Vec F S512x256 .bf16) (x1 : Vec F S512x256 .bf16) (x2 : Vec F S512x1 .i32) (x3 : Vec F S1x512 .i32) (xs0 : Vec F S512x1 .f32) (xs1 : Vec F S512x1 .f32) (xs2 : Vec F S512x1 .f32) :
    Σ' (L4 : List (View.Piece (Elt F) S512x1 .f32)) (LS0 : List (View.Piece (Elt F) S512x1 .f32)) (LS1 : List (View.Piece (Elt F) S512x1 .f32)), { LS2 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__supcon_kernel_eq_skeleton]; unfold cc0__supcon_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Gen

end
-- ==== Proof.K.RunC.lean ====
/-
  The kernel body run whole in one of its three cases (which branches the grid point takes).
-/
import proofs.«119381_j32710470926983_2_alg».proof.Proof.K.RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run whole in this case: from the inputs' buffers at their contents, the accumulators and the
    output's buffer as the case finds them, to the same inputs, and each buffer the body stored into holding the
    pieces its stores wrote (found by the run). -/
noncomputable def kernelRun0_C (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S512x256 .bf16) (x1 : Vec F S512x256 .bf16) (x2 : Vec F S512x1 .i32) (x3 : Vec F S1x512 .i32) (xs0 : Vec F S512x1 .f32) (xs1 : Vec F S512x1 .f32) (xs2 : Vec F S512x1 .f32) :
    Σ' (L4 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9) K } := by
  refine ⟨?_, ?_, ?_, ?_, fun E K => ?run⟩
  case run =>
    simp only [cc0__supcon_kernel_eq_skeleton]; unfold cc0__supcon_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Gen

end
-- ==== Proof.K.Frame.lean ====
/-
  The kernel's frame data. After each grid point the three accumulators hold what the point's case leaves in
  them, over what the point before left (the first point of a row of the grid zeroes them first); the output's
  buffer holds the row losses after the last point of a row. The proof data names those contents point by
  point, and the body obligation is, at every point, the run of the point's case.
-/
import proofs.«119381_j32710470926983_2_alg».proof.Proof.K.RunC
import proofs.«119381_j32710470926983_2_alg».proof.Proof.LibHalves
import Idealize.ShloMosaic.Lib.Ring

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The cases at a grid point -/

/-- The first point of a grid row (`j = 0`). -/
noncomputable def ptA (c : Dev nD) (t : Fin cfg0.N) (h0 : t.val % 16 = 0) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t) (iblk m c 2 t) (iblk m c 3 t)
/-- A middle point of a grid row. -/
noncomputable def ptB (c : Dev nD) (t : Fin cfg0.N) (h0 : ¬t.val % 16 = 0) (h1 : ¬t.val % 16 = 15) (xs0 xs1 xs2 : Vec F S512x1 .f32) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) xs0 xs1 xs2
/-- The last point of a grid row (`j = 15`). -/
noncomputable def ptC (c : Dev nD) (t : Fin cfg0.N) (h0 : ¬t.val % 16 = 0) (h1 : t.val % 16 = 15) (xs0 xs1 xs2 : Vec F S512x1 .f32) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) xs0 xs1 xs2

/-- What a case leaves: the output's buffer (a placeholder where the case stores nothing into it), then the three
    accumulators, each the case's pieces read back. -/
noncomputable def valsA (c : Dev nD) (t : Fin cfg0.N) (h0 : t.val % 16 = 0) : Vec F S512x1 .f32 × Vec F S512x1 .f32 × Vec F S512x1 .f32 × Vec F S512x1 .f32 :=
  (VO0_4.read (Elt F) (VO0_4.writes (Elt F) VO0_4.junk (ptA m c t h0).1), VS0_0.read (Elt F) (VS0_0.writes (Elt F) VS0_0.junk (ptA m c t h0).2.1), VS0_1.read (Elt F) (VS0_1.writes (Elt F) VS0_1.junk (ptA m c t h0).2.2.1), VS0_2.read (Elt F) (VS0_2.writes (Elt F) VS0_2.junk (ptA m c t h0).2.2.2.1))
noncomputable def valsB (c : Dev nD) (t : Fin cfg0.N) (h0 : ¬t.val % 16 = 0) (h1 : ¬t.val % 16 = 15) (xs0 xs1 xs2 : Vec F S512x1 .f32) : Vec F S512x1 .f32 × Vec F S512x1 .f32 × Vec F S512x1 .f32 × Vec F S512x1 .f32 :=
  (VO0_4.read (Elt F) (VO0_4.writes (Elt F) VO0_4.junk (ptB m c t h0 h1 xs0 xs1 xs2).1), VS0_0.read (Elt F) (VS0_0.writes (Elt F) VS0_0.junk (ptB m c t h0 h1 xs0 xs1 xs2).2.1), VS0_1.read (Elt F) (VS0_1.writes (Elt F) VS0_1.junk (ptB m c t h0 h1 xs0 xs1 xs2).2.2.1), VS0_2.read (Elt F) (VS0_2.writes (Elt F) VS0_2.junk (ptB m c t h0 h1 xs0 xs1 xs2).2.2.2.1))
noncomputable def valsC (c : Dev nD) (t : Fin cfg0.N) (h0 : ¬t.val % 16 = 0) (h1 : t.val % 16 = 15) (xs0 xs1 xs2 : Vec F S512x1 .f32) : Vec F S512x1 .f32 × Vec F S512x1 .f32 × Vec F S512x1 .f32 × Vec F S512x1 .f32 :=
  (VO0_4.read (Elt F) (VO0_4.writes (Elt F) VO0_4.junk (ptC m c t h0 h1 xs0 xs1 xs2).1), VS0_0.read (Elt F) (VS0_0.writes (Elt F) VS0_0.junk (ptC m c t h0 h1 xs0 xs1 xs2).2.1), VS0_1.read (Elt F) (VS0_1.writes (Elt F) VS0_1.junk (ptC m c t h0 h1 xs0 xs1 xs2).2.2.1), VS0_2.read (Elt F) (VS0_2.writes (Elt F) VS0_2.junk (ptC m c t h0 h1 xs0 xs1 xs2).2.2.2.1))

/-! ## The pieces cover their buffers -/

theorem scoverA_0 (c : Dev nD) (t : Fin cfg0.N) (h0 : t.val % 16 = 0) (y : S512x1.Idx) : ∃ pc ∈ (ptA m c t h0).2.1, y ∈ pc.1.set :=
  View.cover_of_tiledL (ptA m c t h0).2.1 S512x1.size (by sl_kernel_rfl) y
theorem scoverA_1 (c : Dev nD) (t : Fin cfg0.N) (h0 : t.val % 16 = 0) (y : S512x1.Idx) : ∃ pc ∈ (ptA m c t h0).2.2.1, y ∈ pc.1.set :=
  View.cover_of_tiledL (ptA m c t h0).2.2.1 S512x1.size (by sl_kernel_rfl) y
theorem scoverA_2 (c : Dev nD) (t : Fin cfg0.N) (h0 : t.val % 16 = 0) (y : S512x1.Idx) : ∃ pc ∈ (ptA m c t h0).2.2.2.1, y ∈ pc.1.set :=
  View.cover_of_tiledL (ptA m c t h0).2.2.2.1 S512x1.size (by sl_kernel_rfl) y
theorem scoverB_0 (c : Dev nD) (t : Fin cfg0.N) (h0 : ¬t.val % 16 = 0) (h1 : ¬t.val % 16 = 15) (xs0 xs1 xs2 : Vec F S512x1 .f32) (y : S512x1.Idx) : ∃ pc ∈ (ptB m c t h0 h1 xs0 xs1 xs2).2.1, y ∈ pc.1.set :=
  View.cover_of_tiledL (ptB m c t h0 h1 xs0 xs1 xs2).2.1 S512x1.size (by sl_kernel_rfl) y
theorem scoverB_1 (c : Dev nD) (t : Fin cfg0.N) (h0 : ¬t.val % 16 = 0) (h1 : ¬t.val % 16 = 15) (xs0 xs1 xs2 : Vec F S512x1 .f32) (y : S512x1.Idx) : ∃ pc ∈ (ptB m c t h0 h1 xs0 xs1 xs2).2.2.1, y ∈ pc.1.set :=
  View.cover_of_tiledL (ptB m c t h0 h1 xs0 xs1 xs2).2.2.1 S512x1.size (by sl_kernel_rfl) y
theorem scoverB_2 (c : Dev nD) (t : Fin cfg0.N) (h0 : ¬t.val % 16 = 0) (h1 : ¬t.val % 16 = 15) (xs0 xs1 xs2 : Vec F S512x1 .f32) (y : S512x1.Idx) : ∃ pc ∈ (ptB m c t h0 h1 xs0 xs1 xs2).2.2.2.1, y ∈ pc.1.set :=
  View.cover_of_tiledL (ptB m c t h0 h1 xs0 xs1 xs2).2.2.2.1 S512x1.size (by sl_kernel_rfl) y
theorem coverC_4 (c : Dev nD) (t : Fin cfg0.N) (h0 : ¬t.val % 16 = 0) (h1 : t.val % 16 = 15) (xs0 xs1 xs2 : Vec F S512x1 .f32) (y : S512x1.Idx) : ∃ pc ∈ (ptC m c t h0 h1 xs0 xs1 xs2).1, y ∈ pc.1.set :=
  View.cover_of_tiledL (ptC m c t h0 h1 xs0 xs1 xs2).1 S512x1.size (by sl_kernel_rfl) y
theorem scoverC_0 (c : Dev nD) (t : Fin cfg0.N) (h0 : ¬t.val % 16 = 0) (h1 : t.val % 16 = 15) (xs0 xs1 xs2 : Vec F S512x1 .f32) (y : S512x1.Idx) : ∃ pc ∈ (ptC m c t h0 h1 xs0 xs1 xs2).2.1, y ∈ pc.1.set :=
  View.cover_of_tiledL (ptC m c t h0 h1 xs0 xs1 xs2).2.1 S512x1.size (by sl_kernel_rfl) y
theorem scoverC_1 (c : Dev nD) (t : Fin cfg0.N) (h0 : ¬t.val % 16 = 0) (h1 : t.val % 16 = 15) (xs0 xs1 xs2 : Vec F S512x1 .f32) (y : S512x1.Idx) : ∃ pc ∈ (ptC m c t h0 h1 xs0 xs1 xs2).2.2.1, y ∈ pc.1.set :=
  View.cover_of_tiledL (ptC m c t h0 h1 xs0 xs1 xs2).2.2.1 S512x1.size (by sl_kernel_rfl) y
theorem scoverC_2 (c : Dev nD) (t : Fin cfg0.N) (h0 : ¬t.val % 16 = 0) (h1 : t.val % 16 = 15) (xs0 xs1 xs2 : Vec F S512x1 .f32) (y : S512x1.Idx) : ∃ pc ∈ (ptC m c t h0 h1 xs0 xs1 xs2).2.2.2.1, y ∈ pc.1.set :=
  View.cover_of_tiledL (ptC m c t h0 h1 xs0 xs1 xs2).2.2.2.1 S512x1.size (by sl_kernel_rfl) y

/-! ## What the buffers hold after each point -/

/-- After the body at position `n`: the output's buffer and the three accumulators. The case the position selects,
    run over what the position before left in the accumulators. -/
def outsAt0 (c : Dev nD) : (n : ℕ) → n < cfg0.N → Vec F S512x1 .f32 × Vec F S512x1 .f32 × Vec F S512x1 .f32 × Vec F S512x1 .f32
  | 0, hn => valsA m c ⟨0, hn⟩ (Nat.zero_mod _)
  | n + 1, hn =>
    if h0 : (n + 1) % 16 = 0 then valsA m c ⟨n + 1, hn⟩ h0
    else if h1 : (n + 1) % 16 = 15 then
      valsC m c ⟨n + 1, hn⟩ h0 h1 (outsAt0 c n (Nat.lt_of_succ_lt hn)).2.1 (outsAt0 c n (Nat.lt_of_succ_lt hn)).2.2.1 (outsAt0 c n (Nat.lt_of_succ_lt hn)).2.2.2
    else
      valsB m c ⟨n + 1, hn⟩ h0 h1 (outsAt0 c n (Nat.lt_of_succ_lt hn)).2.1 (outsAt0 c n (Nat.lt_of_succ_lt hn)).2.2.1 (outsAt0 c n (Nat.lt_of_succ_lt hn)).2.2.2

/-- What the position before `t` left (meaningful for `t ≠ 0`). -/
def prevAt (c : Dev nD) (t : Fin cfg0.N) : Vec F S512x1 .f32 × Vec F S512x1 .f32 × Vec F S512x1 .f32 × Vec F S512x1 .f32 := outsAt0 m c (t.val - 1) (Nat.lt_of_le_of_lt (Nat.sub_le _ _) t.isLt)

theorem outsAt0_A (c : Dev nD) (t : Fin cfg0.N) (h0 : t.val % 16 = 0) : outsAt0 m c t.val t.isLt = valsA m c t h0 := by
  obtain ⟨n, hn⟩ := t
  cases n with
  | zero => rfl
  | succ n => exact dif_pos h0

theorem outsAt0_B (c : Dev nD) (t : Fin cfg0.N) (h0 : ¬t.val % 16 = 0) (h1 : ¬t.val % 16 = 15) :
    outsAt0 m c t.val t.isLt = valsB m c t h0 h1 (prevAt m c t).2.1 (prevAt m c t).2.2.1 (prevAt m c t).2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) :
    outsAt0 m c t.val t.isLt = valsC m c t h0 h1 (prevAt m c t).2.1 (prevAt m c t).2.2.1 (prevAt m c t).2.2.2 := by
  obtain ⟨n, hn⟩ := t
  cases n with
  | zero => exact absurd (Nat.zero_mod _) h0
  | succ n => exact (dif_neg h0).trans ((dif_pos h1).trans rfl)

/-- The accumulators owned at given contents, and the generator register at some state. -/
def accAt (c : Dev nD) (s0 s1 s2 : Vec F S512x1 .f32) : sProp 𝕄 :=
  iprop(iprop(owns (c : Thread nD τ) scM0_0 fullShare s0 ∗ owns (c : Thread nD τ) scM0_1 fullShare s1 ∗ owns (c : Thread nD τ) scM0_2 fullShare s2) ∗ (∃ r, prngReg c r))

/-- The region invariant before position `n`: before the first point the accumulators hold anything; afterwards
    what the point before left. -/
def PhiS (c : Dev nD) : (n : ℕ) → n ≤ cfg0.N → sProp 𝕄
  | 0, _ => Pipeline.ΦA spec0 c
  | n + 1, hn => accAt c (outsAt0 m c n hn).2.1 (outsAt0 m c n hn).2.2.1 (outsAt0 m c n hn).2.2.2

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = accAt c (outsAt0 m c n hn).2.1 (outsAt0 m c n hn).2.2.1 (outsAt0 m c n hn).2.2.2 := rfl
theorem PhiS_pos' (c : Dev nD) (n : ℕ) (h : n ≤ cfg0.N) (hz : n ≠ 0) :
    PhiS m c n h = accAt c (outsAt0 m c (n - 1) (Nat.lt_of_lt_of_le (Nat.sub_lt (Nat.pos_of_ne_zero hz) Nat.one_pos) h)).2.1
      (outsAt0 m c (n - 1) (Nat.lt_of_lt_of_le (Nat.sub_lt (Nat.pos_of_ne_zero hz) Nat.one_pos) h)).2.2.1
      (outsAt0 m c (n - 1) (Nat.lt_of_lt_of_le (Nat.sub_lt (Nat.pos_of_ne_zero hz) Nat.one_pos) h)).2.2.2 := by
  cases n with
  | zero => exact absurd rfl hz
  | succ n => rfl
theorem PhiS_pos (c : Dev nD) (t : Fin cfg0.N) (hz : t.val ≠ 0) :
    PhiS m c t.val (Nat.le_of_lt t.isLt) = accAt c (prevAt m c t).2.1 (prevAt m c t).2.2.1 (prevAt m c t).2.2.2 := by
  obtain ⟨n, hn⟩ := t
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q := Idealize.SL.RA.sharedPair5
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

end Cert.Kernel.Gen

end
-- ==== Proof.K.Body.lean ====
/-
  The body obligation: at every grid point the body, from the invariant and the windows' current buffers, runs
  to the invariant of the next point and the buffers as the proof data says — by the run of the point's case.
-/
import proofs.«119381_j32710470926983_2_alg».proof.Proof.K.Frame

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  by_cases h0 : t.val % 16 = 0
  ·
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4 t (fun h => by have := (hcond0_1 t).mp h; omega)) (noFlush0_4 t (fun h => by have := (hcond0_1 t).mp h; omega))]
    rw [outsAt0_A m c t h0]
    unfold valsA accAt; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩⟩
      iapply ((ptA m c t h0).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverA_0 m c t h0)
          isplitl [HS1]
          · unfold owns; iexists _; isplitr
            swap; · iexact HS1
            ipureintro; exact View.read_writes_of_cover _ _ _ _ _ (scoverA_1 m c t h0)
          unfold owns; iexists _; isplitr
          swap; · iexact HS2
          ipureintro; exact View.read_writes_of_cover _ _ _ _ _ (scoverA_2 m c t h0)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c t hz]; unfold accAt
      iintro ⟨⟨⟨HS0, HS1, HS2⟩, Hg⟩, Ho, ⟨%d0, H0⟩, ⟨%d1, H1⟩, ⟨%d2, H2⟩, ⟨%d3, H3⟩, ⟨%d4, H4⟩⟩
      iapply ((ptA m c t h0).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverA_0 m c t h0)
          isplitl [HS1]
          · unfold owns; iexists _; isplitr
            swap; · iexact HS1
            ipureintro; exact View.read_writes_of_cover _ _ _ _ _ (scoverA_1 m c t h0)
          unfold owns; iexists _; isplitr
          swap; · iexact HS2
          ipureintro; exact View.read_writes_of_cover _ _ _ _ _ (scoverA_2 m c t h0)
        iexact Hg
      isplitl [Ho]; · iexact Ho
      isplitl [H0]; · iexact H0
      isplitl [H1]; · iexact H1
      isplitl [H2]; · iexact H2
      isplitl [H3]; · iexact H3
      iexists _; iexact H4

  · by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold valsC accAt; (try dsimp only)
      have hz : t.val ≠ 0 := fun e => h0 (by rw [e])
      rw [PhiS_castSucc m c t, PhiS_pos m c t hz]; unfold accAt
      iintro ⟨⟨⟨HS0, HS1, HS2⟩, Hg⟩, Ho, ⟨%d0, H0⟩, ⟨%d1, H1⟩, ⟨%d2, H2⟩, ⟨%d3, H3⟩, ⟨%d4, H4⟩⟩
      iapply ((ptC m c t h0 h1 _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverC_0 m c t h0 h1 _ _ _)
          isplitl [HS1]
          · unfold owns; iexists _; isplitr
            swap; · iexact HS1
            ipureintro; exact View.read_writes_of_cover _ _ _ _ _ (scoverC_1 m c t h0 h1 _ _ _)
          unfold owns; iexists _; isplitr
          swap; · iexact HS2
          ipureintro; exact View.read_writes_of_cover _ _ _ _ _ (scoverC_2 m c t h0 h1 _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 m c t h0 h1 _ _ _)

    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold valsB accAt; (try dsimp only)
      have hz : t.val ≠ 0 := fun e => h0 (by rw [e])
      rw [PhiS_castSucc m c t, PhiS_pos m c t hz]; unfold accAt
      iintro ⟨⟨⟨HS0, HS1, HS2⟩, Hg⟩, Ho, ⟨%d0, H0⟩, ⟨%d1, H1⟩, ⟨%d2, H2⟩, ⟨%d3, H3⟩, ⟨%d4, H4⟩⟩
      iapply ((ptB m c t h0 h1 _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverB_0 m c t h0 h1 _ _ _)
          isplitl [HS1]
          · unfold owns; iexists _; isplitr
            swap; · iexact HS1
            ipureintro; exact View.read_writes_of_cover _ _ _ _ _ (scoverB_1 m c t h0 h1 _ _ _)
          unfold owns; iexists _; isplitr
          swap; · iexact HS2
          ipureintro; exact View.read_writes_of_cover _ _ _ _ _ (scoverB_2 m c t h0 h1 _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos' m c _ _ ht, PhiA0_eq]; unfold accAt
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 256 := N_0; omega)

end Cert.Kernel.Gen

end
-- ==== Proof.KI.Entry.lean ====
/-
  What the region finds: the buffers' contents after the thirteen host operations that precede the call
  (row norms, the normalised features, the two reshapes of the labels), and each window's block at a grid
  point read off those contents.
-/
import proofs.«119381_j32710470926983_2_alg».proof.Proof.Gen.KernelIdeal.Launch
import proofs.«119381_j32710470926983_2_alg».proof.Proof.Gen.KernelIdeal.Skeleton
import proofs.«119381_j32710470926983_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: after the host operations before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Gen

end
-- ==== Proof.KI.Runs.lean ====
/-
  What the three cases of the kernel body share. The body branches twice on the column coordinate `j` of the
  grid point: at `j = 0` it zeroes the three per-row accumulators (positive-similarity sum, exponential sum,
  positive count) before adding the tile's row sums; at `j = 15` it divides and stores the row losses. On the
  16×16 grid walked row by row, `j = 0` at the points ≡ 0 (mod 16) and `j = 15` at the points ≡ 15 (mod 16).
-/
import proofs.«119381_j32710470926983_2_alg».proof.Proof.KI.Entry

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The first branch: the column coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second branch: the column coordinate is the last one. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the last branch is not taken nothing is stored into the output's buffer, and it is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev VO0_4 : View sig .tc .vmem S512x1 .f32 := (Memref.whole cc0_stg4_0 : Memref sig .tc .vmem S512x1 .f32).view
abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The three accumulators: whole scoped buffers of the kernel's own. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev VS0_0 : View sig .tc .vmem S512x1 .f32 := scM0_0.view
abbrev VS0_1 : View sig .tc .vmem S512x1 .f32 := scM0_1.view
abbrev VS0_2 : View sig .tc .vmem S512x1 .f32 := scM0_2.view

/-- The class invariant with the accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KI.RunA.lean ====
/-
  The kernel body run whole in one of its three cases (which branches the grid point takes).
-/
import proofs.«119381_j32710470926983_2_alg».proof.Proof.KI.Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run whole in this case: from the inputs' buffers at their contents, the accumulators and the
    output's buffer as the case finds them, to the same inputs, and each buffer the body stored into holding the
    pieces its stores wrote (found by the run). -/
noncomputable def kernelRun0_A (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S512x256 .bf16) (x1 : Vec F S512x256 .bf16) (x2 : Vec F S512x1 .i32) (x3 : Vec F S1x512 .i32) :
    Σ' (L4 : List (View.Piece (Elt F) S512x1 .f32)) (LS0 : List (View.Piece (Elt F) S512x1 .f32)) (LS1 : List (View.Piece (Elt F) S512x1 .f32)), { LS2 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__supcon_kernel_eq_skeleton]; unfold cc0__supcon_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Gen

end
-- ==== Proof.KI.RunB.lean ====
/-
  The kernel body run whole in one of its three cases (which branches the grid point takes).
-/
import proofs.«119381_j32710470926983_2_alg».proof.Proof.KI.RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run whole in this case: from the inputs' buffers at their contents, the accumulators and the
    output's buffer as the case finds them, to the same inputs, and each buffer the body stored into holding the
    pieces its stores wrote (found by the run). -/
noncomputable def kernelRun0_B (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i)
    (x0 : Vec F S512x256 .bf16) (x1 : Vec F S512x256 .bf16) (x2 : Vec F S512x1 .i32) (x3 : Vec F S1x512 .i32) (xs0 : Vec F S512x1 .f32) (xs1 : Vec F S512x1 .f32) (xs2 : Vec F S512x1 .f32) :
    Σ' (L4 : List (View.Piece (Elt F) S512x1 .f32)) (LS0 : List (View.Piece (Elt F) S512x1 .f32)) (LS1 : List (View.Piece (Elt F) S512x1 .f32)), { LS2 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__supcon_kernel_eq_skeleton]; unfold cc0__supcon_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Gen

end
-- ==== Proof.KI.RunC.lean ====
/-
  The kernel body run whole in one of its three cases (which branches the grid point takes).
-/
import proofs.«119381_j32710470926983_2_alg».proof.Proof.KI.RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run whole in this case: from the inputs' buffers at their contents, the accumulators and the
    output's buffer as the case finds them, to the same inputs, and each buffer the body stored into holding the
    pieces its stores wrote (found by the run). -/
noncomputable def kernelRun0_C (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S512x256 .bf16) (x1 : Vec F S512x256 .bf16) (x2 : Vec F S512x1 .i32) (x3 : Vec F S1x512 .i32) (xs0 : Vec F S512x1 .f32) (xs1 : Vec F S512x1 .f32) (xs2 : Vec F S512x1 .f32) :
    Σ' (L4 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9) K } := by
  refine ⟨?_, ?_, ?_, ?_, fun E K => ?run⟩
  case run =>
    simp only [cc0__supcon_kernel_eq_skeleton]; unfold cc0__supcon_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Gen

end
-- ==== Proof.KI.Frame.lean ====
/-
  The kernel's frame data. After each grid point the three accumulators hold what the point's case leaves in
  them, over what the point before left (the first point of a row of the grid zeroes them first); the output's
  buffer holds the row losses after the last point of a row. The proof data names those contents point by
  point, and the body obligation is, at every point, the run of the point's case.
-/
import proofs.«119381_j32710470926983_2_alg».proof.Proof.KI.RunC
import proofs.«119381_j32710470926983_2_alg».proof.Proof.LibHalves
import Idealize.ShloMosaic.Lib.Ring

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The cases at a grid point -/

/-- The first point of a grid row (`j = 0`). -/
noncomputable def ptA (c : Dev nD) (t : Fin cfg0.N) (h0 : t.val % 16 = 0) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t) (iblk m c 2 t) (iblk m c 3 t)
/-- A middle point of a grid row. -/
noncomputable def ptB (c : Dev nD) (t : Fin cfg0.N) (h0 : ¬t.val % 16 = 0) (h1 : ¬t.val % 16 = 15) (xs0 xs1 xs2 : Vec F S512x1 .f32) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) xs0 xs1 xs2
/-- The last point of a grid row (`j = 15`). -/
noncomputable def ptC (c : Dev nD) (t : Fin cfg0.N) (h0 : ¬t.val % 16 = 0) (h1 : t.val % 16 = 15) (xs0 xs1 xs2 : Vec F S512x1 .f32) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) xs0 xs1 xs2

/-- What a case leaves: the output's buffer (a placeholder where the case stores nothing into it), then the three
    accumulators, each the case's pieces read back. -/
noncomputable def valsA (c : Dev nD) (t : Fin cfg0.N) (h0 : t.val % 16 = 0) : Vec F S512x1 .f32 × Vec F S512x1 .f32 × Vec F S512x1 .f32 × Vec F S512x1 .f32 :=
  (VO0_4.read (Elt F) (VO0_4.writes (Elt F) VO0_4.junk (ptA m c t h0).1), VS0_0.read (Elt F) (VS0_0.writes (Elt F) VS0_0.junk (ptA m c t h0).2.1), VS0_1.read (Elt F) (VS0_1.writes (Elt F) VS0_1.junk (ptA m c t h0).2.2.1), VS0_2.read (Elt F) (VS0_2.writes (Elt F) VS0_2.junk (ptA m c t h0).2.2.2.1))
noncomputable def valsB (c : Dev nD) (t : Fin cfg0.N) (h0 : ¬t.val % 16 = 0) (h1 : ¬t.val % 16 = 15) (xs0 xs1 xs2 : Vec F S512x1 .f32) : Vec F S512x1 .f32 × Vec F S512x1 .f32 × Vec F S512x1 .f32 × Vec F S512x1 .f32 :=
  (VO0_4.read (Elt F) (VO0_4.writes (Elt F) VO0_4.junk (ptB m c t h0 h1 xs0 xs1 xs2).1), VS0_0.read (Elt F) (VS0_0.writes (Elt F) VS0_0.junk (ptB m c t h0 h1 xs0 xs1 xs2).2.1), VS0_1.read (Elt F) (VS0_1.writes (Elt F) VS0_1.junk (ptB m c t h0 h1 xs0 xs1 xs2).2.2.1), VS0_2.read (Elt F) (VS0_2.writes (Elt F) VS0_2.junk (ptB m c t h0 h1 xs0 xs1 xs2).2.2.2.1))
noncomputable def valsC (c : Dev nD) (t : Fin cfg0.N) (h0 : ¬t.val % 16 = 0) (h1 : t.val % 16 = 15) (xs0 xs1 xs2 : Vec F S512x1 .f32) : Vec F S512x1 .f32 × Vec F S512x1 .f32 × Vec F S512x1 .f32 × Vec F S512x1 .f32 :=
  (VO0_4.read (Elt F) (VO0_4.writes (Elt F) VO0_4.junk (ptC m c t h0 h1 xs0 xs1 xs2).1), VS0_0.read (Elt F) (VS0_0.writes (Elt F) VS0_0.junk (ptC m c t h0 h1 xs0 xs1 xs2).2.1), VS0_1.read (Elt F) (VS0_1.writes (Elt F) VS0_1.junk (ptC m c t h0 h1 xs0 xs1 xs2).2.2.1), VS0_2.read (Elt F) (VS0_2.writes (Elt F) VS0_2.junk (ptC m c t h0 h1 xs0 xs1 xs2).2.2.2.1))

/-! ## The pieces cover their buffers -/

theorem scoverA_0 (c : Dev nD) (t : Fin cfg0.N) (h0 : t.val % 16 = 0) (y : S512x1.Idx) : ∃ pc ∈ (ptA m c t h0).2.1, y ∈ pc.1.set :=
  View.cover_of_tiledL (ptA m c t h0).2.1 S512x1.size (by sl_kernel_rfl) y
theorem scoverA_1 (c : Dev nD) (t : Fin cfg0.N) (h0 : t.val % 16 = 0) (y : S512x1.Idx) : ∃ pc ∈ (ptA m c t h0).2.2.1, y ∈ pc.1.set :=
  View.cover_of_tiledL (ptA m c t h0).2.2.1 S512x1.size (by sl_kernel_rfl) y
theorem scoverA_2 (c : Dev nD) (t : Fin cfg0.N) (h0 : t.val % 16 = 0) (y : S512x1.Idx) : ∃ pc ∈ (ptA m c t h0).2.2.2.1, y ∈ pc.1.set :=
  View.cover_of_tiledL (ptA m c t h0).2.2.2.1 S512x1.size (by sl_kernel_rfl) y
theorem scoverB_0 (c : Dev nD) (t : Fin cfg0.N) (h0 : ¬t.val % 16 = 0) (h1 : ¬t.val % 16 = 15) (xs0 xs1 xs2 : Vec F S512x1 .f32) (y : S512x1.Idx) : ∃ pc ∈ (ptB m c t h0 h1 xs0 xs1 xs2).2.1, y ∈ pc.1.set :=
  View.cover_of_tiledL (ptB m c t h0 h1 xs0 xs1 xs2).2.1 S512x1.size (by sl_kernel_rfl) y
theorem scoverB_1 (c : Dev nD) (t : Fin cfg0.N) (h0 : ¬t.val % 16 = 0) (h1 : ¬t.val % 16 = 15) (xs0 xs1 xs2 : Vec F S512x1 .f32) (y : S512x1.Idx) : ∃ pc ∈ (ptB m c t h0 h1 xs0 xs1 xs2).2.2.1, y ∈ pc.1.set :=
  View.cover_of_tiledL (ptB m c t h0 h1 xs0 xs1 xs2).2.2.1 S512x1.size (by sl_kernel_rfl) y
theorem scoverB_2 (c : Dev nD) (t : Fin cfg0.N) (h0 : ¬t.val % 16 = 0) (h1 : ¬t.val % 16 = 15) (xs0 xs1 xs2 : Vec F S512x1 .f32) (y : S512x1.Idx) : ∃ pc ∈ (ptB m c t h0 h1 xs0 xs1 xs2).2.2.2.1, y ∈ pc.1.set :=
  View.cover_of_tiledL (ptB m c t h0 h1 xs0 xs1 xs2).2.2.2.1 S512x1.size (by sl_kernel_rfl) y
theorem coverC_4 (c : Dev nD) (t : Fin cfg0.N) (h0 : ¬t.val % 16 = 0) (h1 : t.val % 16 = 15) (xs0 xs1 xs2 : Vec F S512x1 .f32) (y : S512x1.Idx) : ∃ pc ∈ (ptC m c t h0 h1 xs0 xs1 xs2).1, y ∈ pc.1.set :=
  View.cover_of_tiledL (ptC m c t h0 h1 xs0 xs1 xs2).1 S512x1.size (by sl_kernel_rfl) y
theorem scoverC_0 (c : Dev nD) (t : Fin cfg0.N) (h0 : ¬t.val % 16 = 0) (h1 : t.val % 16 = 15) (xs0 xs1 xs2 : Vec F S512x1 .f32) (y : S512x1.Idx) : ∃ pc ∈ (ptC m c t h0 h1 xs0 xs1 xs2).2.1, y ∈ pc.1.set :=
  View.cover_of_tiledL (ptC m c t h0 h1 xs0 xs1 xs2).2.1 S512x1.size (by sl_kernel_rfl) y
theorem scoverC_1 (c : Dev nD) (t : Fin cfg0.N) (h0 : ¬t.val % 16 = 0) (h1 : t.val % 16 = 15) (xs0 xs1 xs2 : Vec F S512x1 .f32) (y : S512x1.Idx) : ∃ pc ∈ (ptC m c t h0 h1 xs0 xs1 xs2).2.2.1, y ∈ pc.1.set :=
  View.cover_of_tiledL (ptC m c t h0 h1 xs0 xs1 xs2).2.2.1 S512x1.size (by sl_kernel_rfl) y
theorem scoverC_2 (c : Dev nD) (t : Fin cfg0.N) (h0 : ¬t.val % 16 = 0) (h1 : t.val % 16 = 15) (xs0 xs1 xs2 : Vec F S512x1 .f32) (y : S512x1.Idx) : ∃ pc ∈ (ptC m c t h0 h1 xs0 xs1 xs2).2.2.2.1, y ∈ pc.1.set :=
  View.cover_of_tiledL (ptC m c t h0 h1 xs0 xs1 xs2).2.2.2.1 S512x1.size (by sl_kernel_rfl) y

/-! ## What the buffers hold after each point -/

/-- After the body at position `n`: the output's buffer and the three accumulators. The case the position selects,
    run over what the position before left in the accumulators. -/
def outsAt0 (c : Dev nD) : (n : ℕ) → n < cfg0.N → Vec F S512x1 .f32 × Vec F S512x1 .f32 × Vec F S512x1 .f32 × Vec F S512x1 .f32
  | 0, hn => valsA m c ⟨0, hn⟩ (Nat.zero_mod _)
  | n + 1, hn =>
    if h0 : (n + 1) % 16 = 0 then valsA m c ⟨n + 1, hn⟩ h0
    else if h1 : (n + 1) % 16 = 15 then
      valsC m c ⟨n + 1, hn⟩ h0 h1 (outsAt0 c n (Nat.lt_of_succ_lt hn)).2.1 (outsAt0 c n (Nat.lt_of_succ_lt hn)).2.2.1 (outsAt0 c n (Nat.lt_of_succ_lt hn)).2.2.2
    else
      valsB m c ⟨n + 1, hn⟩ h0 h1 (outsAt0 c n (Nat.lt_of_succ_lt hn)).2.1 (outsAt0 c n (Nat.lt_of_succ_lt hn)).2.2.1 (outsAt0 c n (Nat.lt_of_succ_lt hn)).2.2.2

/-- What the position before `t` left (meaningful for `t ≠ 0`). -/
def prevAt (c : Dev nD) (t : Fin cfg0.N) : Vec F S512x1 .f32 × Vec F S512x1 .f32 × Vec F S512x1 .f32 × Vec F S512x1 .f32 := outsAt0 m c (t.val - 1) (Nat.lt_of_le_of_lt (Nat.sub_le _ _) t.isLt)

theorem outsAt0_A (c : Dev nD) (t : Fin cfg0.N) (h0 : t.val % 16 = 0) : outsAt0 m c t.val t.isLt = valsA m c t h0 := by
  obtain ⟨n, hn⟩ := t
  cases n with
  | zero => rfl
  | succ n => exact dif_pos h0

theorem outsAt0_B (c : Dev nD) (t : Fin cfg0.N) (h0 : ¬t.val % 16 = 0) (h1 : ¬t.val % 16 = 15) :
    outsAt0 m c t.val t.isLt = valsB m c t h0 h1 (prevAt m c t).2.1 (prevAt m c t).2.2.1 (prevAt m c t).2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) :
    outsAt0 m c t.val t.isLt = valsC m c t h0 h1 (prevAt m c t).2.1 (prevAt m c t).2.2.1 (prevAt m c t).2.2.2 := by
  obtain ⟨n, hn⟩ := t
  cases n with
  | zero => exact absurd (Nat.zero_mod _) h0
  | succ n => exact (dif_neg h0).trans ((dif_pos h1).trans rfl)

/-- The accumulators owned at given contents, and the generator register at some state. -/
def accAt (c : Dev nD) (s0 s1 s2 : Vec F S512x1 .f32) : sProp 𝕄 :=
  iprop(iprop(owns (c : Thread nD τ) scM0_0 fullShare s0 ∗ owns (c : Thread nD τ) scM0_1 fullShare s1 ∗ owns (c : Thread nD τ) scM0_2 fullShare s2) ∗ (∃ r, prngReg c r))

/-- The region invariant before position `n`: before the first point the accumulators hold anything; afterwards
    what the point before left. -/
def PhiS (c : Dev nD) : (n : ℕ) → n ≤ cfg0.N → sProp 𝕄
  | 0, _ => Pipeline.ΦA spec0 c
  | n + 1, hn => accAt c (outsAt0 m c n hn).2.1 (outsAt0 m c n hn).2.2.1 (outsAt0 m c n hn).2.2.2

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = accAt c (outsAt0 m c n hn).2.1 (outsAt0 m c n hn).2.2.1 (outsAt0 m c n hn).2.2.2 := rfl
theorem PhiS_pos' (c : Dev nD) (n : ℕ) (h : n ≤ cfg0.N) (hz : n ≠ 0) :
    PhiS m c n h = accAt c (outsAt0 m c (n - 1) (Nat.lt_of_lt_of_le (Nat.sub_lt (Nat.pos_of_ne_zero hz) Nat.one_pos) h)).2.1
      (outsAt0 m c (n - 1) (Nat.lt_of_lt_of_le (Nat.sub_lt (Nat.pos_of_ne_zero hz) Nat.one_pos) h)).2.2.1
      (outsAt0 m c (n - 1) (Nat.lt_of_lt_of_le (Nat.sub_lt (Nat.pos_of_ne_zero hz) Nat.one_pos) h)).2.2.2 := by
  cases n with
  | zero => exact absurd rfl hz
  | succ n => rfl
theorem PhiS_pos (c : Dev nD) (t : Fin cfg0.N) (hz : t.val ≠ 0) :
    PhiS m c t.val (Nat.le_of_lt t.isLt) = accAt c (prevAt m c t).2.1 (prevAt m c t).2.2.1 (prevAt m c t).2.2.2 := by
  obtain ⟨n, hn⟩ := t
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q := Idealize.SL.RA.sharedPair5
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

end Cert.KernelIdeal.Gen

end
-- ==== Proof.KI.Pieces.lean ====
/-
  What each case of the body leaves, as values: every buffer the body stores into is covered by its last store, so
  it holds that store's payload — the accumulator plus the tile's row sums, over zero at the first point of a grid
  row — and, at the last point of a grid row, the output's buffer holds the row losses computed from the three
  accumulators just updated. Hence, by induction on the grid point, closed forms for the accumulators after every
  point.
-/
import proofs.«119381_j32710470926983_2_alg».proof.Proof.KI.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- The three accumulators after the tile at point `t` is added to `s`: the positive-similarity sum, -/
def acc0 (c : Dev nD) (t : Fin cfg0.N) (s : Vec F S512x1 .f32) : Vec F S512x1 .f32 :=
  k0_pay1 (k0_pay12 (grid0.coords t) (iblk m c 0 t) (iblk m c 1 t) (iblk m c 2 t) (iblk m c 3 t) s)
/-- the exponential sum, -/
def acc1 (c : Dev nD) (t : Fin cfg0.N) (s : Vec F S512x1 .f32) : Vec F S512x1 .f32 :=
  k0_pay2 (k0_pay11 (grid0.coords t) (iblk m c 0 t) (iblk m c 1 t)) s
/-- the positive count. -/
def acc2 (c : Dev nD) (t : Fin cfg0.N) (s : Vec F S512x1 .f32) : Vec F S512x1 .f32 :=
  k0_pay3 (k0_pay10 (grid0.coords t) (iblk m c 2 t) (iblk m c 3 t)) s

theorem valsB_acc (c : Dev nD) (t : Fin cfg0.N) (h0 : ¬t.val % 16 = 0) (h1 : ¬t.val % 16 = 15) (xs0 xs1 xs2 : Vec F S512x1 .f32) :
    (valsB m c t h0 h1 xs0 xs1 xs2).2 = (acc0 m c t xs0, acc1 m c t xs1, acc2 m c t xs2) := by
  unfold valsB acc0 acc1 acc2; dsimp only
  rw [View.read_writes_eq_canon _ _ _ (scoverB_0 m c t h0 h1 xs0 xs1 xs2), View.read_writes_eq_canon _ _ _ (scoverB_1 m c t h0 h1 xs0 xs1 xs2),
    View.read_writes_eq_canon _ _ _ (scoverB_2 m c t h0 h1 xs0 xs1 xs2)]
  unfold ptB kernelRun0_B; dsimp only
  sl_unfold_words
  rw [View.canon_unit_zero hz2, View.canon_unit_zero hz2, View.canon_unit_zero hz2]
  simp only [View.readCov_unit_zero (S := S512x1) _ hz2, View.readAt_eq_ld, (hs0_0 t).read_unread, (hs0_1 t).read_unread, (hs0_2 t).read_unread, (hs0_3 t).read_unread, (Memref.isWhole_whole _).read_unread, View.ld_unit_zero (S := S512x256) hz2, View.ld_unit_zero (S := S512x1) hz2, View.ld_unit_zero (S := S1x512) hz2]

theorem valsA_acc (c : Dev nD) (t : Fin cfg0.N) (h0 : t.val % 16 = 0) :
    (valsA m c t h0).2 = (acc0 m c t k0_pay5, acc1 m c t k0_pay6, acc2 m c t k0_pay7) := by
  unfold valsA acc0 acc1 acc2; dsimp only
  rw [View.read_writes_eq_canon _ _ _ (scoverA_0 m c t h0), View.read_writes_eq_canon _ _ _ (scoverA_1 m c t h0),
    View.read_writes_eq_canon _ _ _ (scoverA_2 m c t h0)]
  unfold ptA kernelRun0_A; dsimp only
  sl_unfold_words
  rw [View.canon_cons_unit_zero (S := S512x1) hz2, View.canon_cons_unit_zero (S := S512x1) hz2, View.canon_cons_unit_zero (S := S512x1) hz2]
  simp only [View.readCov_unit_zero (S := S512x1) _ hz2, View.readAt_eq_ld, (hs0_0 t).read_unread, (hs0_1 t).read_unread, (hs0_2 t).read_unread, (hs0_3 t).read_unread, (Memref.isWhole_whole _).read_unread, View.ld_unit_zero (S := S512x256) hz2, View.ld_unit_zero (S := S512x1) hz2, View.ld_unit_zero (S := S1x512) hz2]

theorem valsC_acc (c : Dev nD) (t : Fin cfg0.N) (h0 : ¬t.val % 16 = 0) (h1 : t.val % 16 = 15) (xs0 xs1 xs2 : Vec F S512x1 .f32) :
    (valsC m c t h0 h1 xs0 xs1 xs2).2 = (acc0 m c t xs0, acc1 m c t xs1, acc2 m c t xs2) := by
  unfold valsC acc0 acc1 acc2; dsimp only
  rw [View.read_writes_eq_canon _ _ _ (scoverC_0 m c t h0 h1 xs0 xs1 xs2), View.read_writes_eq_canon _ _ _ (scoverC_1 m c t h0 h1 xs0 xs1 xs2),
    View.read_writes_eq_canon _ _ _ (scoverC_2 m c t h0 h1 xs0 xs1 xs2)]
  unfold ptC kernelRun0_C; dsimp only
  sl_unfold_words
  rw [View.canon_unit_zero hz2, View.canon_unit_zero hz2, View.canon_unit_zero hz2]
  simp only [View.readCov_unit_zero (S := S512x1) _ hz2, View.readAt_eq_ld, (hs0_0 t).read_unread, (hs0_1 t).read_unread, (hs0_2 t).read_unread, (hs0_3 t).read_unread, (Memref.isWhole_whole _).read_unread, View.ld_unit_zero (S := S512x256) hz2, View.ld_unit_zero (S := S512x1) hz2, View.ld_unit_zero (S := S1x512) hz2]

/-- At the last point of a grid row the output's buffer holds the row losses of the accumulators just updated. -/
theorem valsC_out (c : Dev nD) (t : Fin cfg0.N) (h0 : ¬t.val % 16 = 0) (h1 : t.val % 16 = 15) (xs0 xs1 xs2 : Vec F S512x1 .f32) :
    (valsC m c t h0 h1 xs0 xs1 xs2).1 = k0_pay4 (acc2 m c t xs2) (acc0 m c t xs0) (acc2 m c t xs2) (acc1 m c t xs1) := by
  unfold valsC acc0 acc1 acc2; dsimp only
  rw [View.read_writes_eq_canon _ _ _ (coverC_4 m c t h0 h1 xs0 xs1 xs2)]
  unfold ptC kernelRun0_C; dsimp only
  sl_unfold_words
  rw [View.canon_unit_zero hz2]
  simp only [View.readCov_unit_zero (S := S512x1) _ hz2, View.readAt_eq_ld, (hs0_0 t).read_unread, (hs0_1 t).read_unread, (hs0_2 t).read_unread, (hs0_3 t).read_unread, (Memref.isWhole_whole _).read_unread, View.ld_unit_zero (S := S512x256) hz2, View.ld_unit_zero (S := S512x1) hz2, View.ld_unit_zero (S := S1x512) hz2]

/-! ## The accumulators after every point, in closed form -/

/-- The accumulators after position `n`: over zero at the first point of a grid row, else over the position before. -/
def accsAt (c : Dev nD) : (n : ℕ) → n < cfg0.N → Vec F S512x1 .f32 × Vec F S512x1 .f32 × Vec F S512x1 .f32
  | 0, hn => (acc0 m c ⟨0, hn⟩ k0_pay5, acc1 m c ⟨0, hn⟩ k0_pay6, acc2 m c ⟨0, hn⟩ k0_pay7)
  | n + 1, hn =>
    if (n + 1) % 16 = 0 then (acc0 m c ⟨n + 1, hn⟩ k0_pay5, acc1 m c ⟨n + 1, hn⟩ k0_pay6, acc2 m c ⟨n + 1, hn⟩ k0_pay7)
    else (acc0 m c ⟨n + 1, hn⟩ (accsAt c n (Nat.lt_of_succ_lt hn)).1, acc1 m c ⟨n + 1, hn⟩ (accsAt c n (Nat.lt_of_succ_lt hn)).2.1,
      acc2 m c ⟨n + 1, hn⟩ (accsAt c n (Nat.lt_of_succ_lt hn)).2.2)

theorem outsAt_accs (c : Dev nD) : ∀ (n : ℕ) (h : n < cfg0.N), (outsAt0 m c n h).2 = accsAt m c n h
  | 0, h => by rw [outsAt0_A m c ⟨0, h⟩ (Nat.zero_mod _), valsA_acc]; rfl
  | n + 1, h => by
    by_cases h0 : (n + 1) % 16 = 0
    · rw [outsAt0_A m c ⟨n + 1, h⟩ h0, valsA_acc]
      show _ = if (n + 1) % 16 = 0 then _ else _
      rw [if_pos h0]
    · have ih := outsAt_accs c n (Nat.lt_of_succ_lt h)
      have hprev : (prevAt m c ⟨n + 1, h⟩).2 = accsAt m c n (Nat.lt_of_succ_lt h) := ih
      by_cases h1 : (n + 1) % 16 = 15
      · rw [outsAt0_C m c ⟨n + 1, h⟩ h0 h1, valsC_acc]
        show _ = if (n + 1) % 16 = 0 then _ else _
        rw [if_neg h0, ← hprev]
      · rw [outsAt0_B m c ⟨n + 1, h⟩ h0 h1, valsB_acc]
        show _ = if (n + 1) % 16 = 0 then _ else _
        rw [if_neg h0, ← hprev]

/-- The accumulators after a point that is not the first of its grid row, over those of the point before. -/
theorem accsAt_succ (c : Dev nD) (n : ℕ) (h : n + 1 < cfg0.N) (h0 : ¬(n + 1) % 16 = 0) :
    accsAt m c (n + 1) h = (acc0 m c ⟨n + 1, h⟩ (accsAt m c n (Nat.lt_of_succ_lt h)).1, acc1 m c ⟨n + 1, h⟩ (accsAt m c n (Nat.lt_of_succ_lt h)).2.1,
      acc2 m c ⟨n + 1, h⟩ (accsAt m c n (Nat.lt_of_succ_lt h)).2.2) := by
  show (if (n + 1) % 16 = 0 then _ else _) = _
  rw [if_neg h0]

/-- The accumulators after the first point of a grid row. -/
theorem accsAt_first (c : Dev nD) (t : Fin cfg0.N) (h0 : t.val % 16 = 0) :
    accsAt m c t.val t.isLt = (acc0 m c t k0_pay5, acc1 m c t k0_pay6, acc2 m c t k0_pay7) := by
  obtain ⟨n, hn⟩ := t
  cases n with
  | zero => rfl
  | succ n => show (if (n + 1) % 16 = 0 then _ else _) = _; rw [if_pos h0]

/-- What the output's buffer holds after the last point of a grid row. -/
theorem out_last (c : Dev nD) (t : Fin cfg0.N) (h1 : t.val % 16 = 15) :
    (outsAt0 m c t.val t.isLt).1 = k0_pay4 (accsAt m c t.val t.isLt).2.2 (accsAt m c t.val t.isLt).1 (accsAt m c t.val t.isLt).2.2 (accsAt m c t.val t.isLt).2.1 := by
  have h0 : ¬t.val % 16 = 0 := by omega
  have e := outsAt_accs m c t.val t.isLt
  rw [outsAt0_C m c t h0 h1] at e ⊢
  rw [valsC_acc] at e
  rw [valsC_out, ← e]

end Cert.KernelIdeal.Gen

end
-- ==== Proof.KI.PayMathA.lean ====
import proofs.«119381_j32710470926983_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-!
# The kernel's three zeroing payloads and its finalisation, read at a row

At the extended reals every operation of these payloads is pointwise, so each reads at a row as the scalar expression.
-/

/-- The first accumulator's reset: the zero word at every row. -/
theorem pay5_apply (r : Fin 512) : k0_pay5 (F := Ideal) (ix2 r (0 : Fin 1)) = Ideal.ofBits .f32 0x00000000#32 := by
  unfold k0_pay5
  rw [shapeCast_self]
  rfl

/-- The second accumulator's reset: the zero word at every row. -/
theorem pay6_apply (r : Fin 512) : k0_pay6 (F := Ideal) (ix2 r (0 : Fin 1)) = Ideal.ofBits .f32 0x00000000#32 := by
  unfold k0_pay6
  rw [shapeCast_self]
  rfl

/-- The third accumulator's reset: the zero word at every row. -/
theorem pay7_apply (r : Fin 512) : k0_pay7 (F := Ideal) (ix2 r (0 : Fin 1)) = Ideal.ofBits .f32 0x00000000#32 := by
  unfold k0_pay7
  rw [shapeCast_self]
  rfl

/-- The finalisation at a row: the positive sum minus the count times the logarithm of the shifted denominator,
    divided by the count floored at one. -/
theorem pay4_apply (v57 v60 v61 v62 : Vec Ideal S512x1 .f32) (r : Fin 512) :
    k0_pay4 (F := Ideal) v57 v60 v61 v62 (ix2 r (0 : Fin 1))
      = Ideal.div (v60 (ix2 r (0 : Fin 1)) - v61 (ix2 r (0 : Fin 1)) * Ideal.log (v62 (ix2 r (0 : Fin 1)) + Ideal.ofBits .f32 0x358637BD#32))
          (max (Ideal.ofBits .f32 0x3F800000#32) (v57 (ix2 r (0 : Fin 1)))) := rfl

end Cert.KernelIdeal.Pay

end
-- ==== Proof.LibKeepdims.lean ====
/-
  Two layout reads every `keepdims` reduction along the last axis meets, in the style of the value library's small-shape
  lemmas: a length-`a` vector viewed as an `a × 1` column, and an `a × 1` column spread over `b` lanes.
  With them a row statistic (a sum, a mean, a reciprocal deviation) computed once per row is read, at any entry of the
  row, as that row's value.
-/
import Idealize.ShloMosaic.Lib.Pipeline.Value
import Idealize.ShloMosaic.Lib.ValueIdx
import Idealize.ShloMosaic.Lib.ValueLayout

namespace Idealize.ShloMosaic.ValueIdx

variable {α : Type}

/-- An `[a]` array cast to a column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KI.PayMathB.lean ====
import proofs.«119381_j32710470926983_2_alg».proof.Proof.Gen.KernelIdeal.Skeleton
import proofs.«119381_j32710470926983_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-!
# The kernel's three running sums, read at a row

Each adds to the value carried in, at every row, the sum of a 512 × 512 tile along its second axis: the lane reduction
with a zero accumulator read as a finite sum, then viewed as a column.
-/

/-- A 512 × 512 tile summed along its second axis into a zero accumulator and viewed as a column reads, at row `r`,
    the sum of the tile's row `r`. -/
theorem rowSum_apply (src : FVec Ideal S512x512 .f32) (r : Fin 512) :
    shapeCast S512x1 (multiReduction (F := Ideal) .add [1] S512 src 0x00000000#32 reduces_S512x512_S512 (.inl rfl) rfl)
        shapeCasts_S512_S512x1 (ix2 r (0 : Fin 1))
      = ∑ q : Fin 512, src (ix2 r q) := by
  refine (shapeCast_a_a1_apply _ shapeCasts_S512_S512x1 r (0 : Fin 1)).trans ?_
  refine (Ideal.multiReduction_add_single src 0x00000000#32 reduces_S512x512_S512 (.inl rfl) rfl (ix1 r)).trans ?_
  refine Finset.sum_congr rfl fun q _ => congrArg src ?_
  funext a
  match a with
  | ⟨0, _⟩ => exact Fin.ext rfl
  | ⟨1, _⟩ => exact Fin.ext rfl

/-- The denominator's running sum at a row. -/
theorem pay2_apply (v31 : FVec Ideal S512x512 .f32) (v40 : Vec Ideal S512x1 .f32) (r : Fin 512) :
    k0_pay2 (F := Ideal) v31 v40 (ix2 r (0 : Fin 1)) = v40 (ix2 r (0 : Fin 1)) + ∑ q : Fin 512, v31 (ix2 r q) := by
  unfold k0_pay2
  rw [shapeCast_self]
  exact congrArg (v40 (ix2 r (0 : Fin 1)) + ·) (rowSum_apply v31 r)

/-- The positive count's running sum at a row. -/
theorem pay3_apply (v29 : FVec Ideal S512x512 .f32) (v47 : Vec Ideal S512x1 .f32) (r : Fin 512) :
    k0_pay3 (F := Ideal) v29 v47 (ix2 r (0 : Fin 1)) = v47 (ix2 r (0 : Fin 1)) + ∑ q : Fin 512, v29 (ix2 r q) := by
  unfold k0_pay3
  rw [shapeCast_self]
  exact congrArg (v47 (ix2 r (0 : Fin 1)) + ·) (rowSum_apply v29 r)

/-- The positive similarities' running sum at a row. -/
theorem pay12_apply (i : grid0.Coords) (v3 v5 : Vec Ideal S512x256 .bf16) (v10 : Vec Ideal S512x1 .i32)
    (v12 : Vec Ideal S1x512 .i32) (v32 : Vec Ideal S512x1 .f32) (r : Fin 512) :
    k0_pay12 (F := Ideal) i v3 v5 v10 v12 v32 (ix2 r (0 : Fin 1))
      = v32 (ix2 r (0 : Fin 1)) + ∑ q : Fin 512, k0_pay10 (F := Ideal) i v10 v12 (ix2 r q) * k0_pay8 (F := Ideal) v3 v5 (ix2 r q) := by
  unfold k0_pay12
  exact congrArg (v32 (ix2 r (0 : Fin 1)) + ·) (rowSum_apply (mulf (k0_pay10 (F := Ideal) i v10 v12) (k0_pay8 (F := Ideal) v3 v5)) r)

/-- The same as it is stored: the identity view of the running sum. -/
theorem pay1_pay12_apply (i : grid0.Coords) (v3 v5 : Vec Ideal S512x256 .bf16) (v10 : Vec Ideal S512x1 .i32)
    (v12 : Vec Ideal S1x512 .i32) (v32 : Vec Ideal S512x1 .f32) (r : Fin 512) :
    k0_pay1 (F := Ideal) (k0_pay12 (F := Ideal) i v3 v5 v10 v12 v32) (ix2 r (0 : Fin 1))
      = v32 (ix2 r (0 : Fin 1)) + ∑ q : Fin 512, k0_pay10 (F := Ideal) i v10 v12 (ix2 r q) * k0_pay8 (F := Ideal) v3 v5 (ix2 r q) := by
  unfold k0_pay1
  rw [shapeCast_self]
  exact pay12_apply i v3 v5 v10 v12 v32 r

end Cert.KernelIdeal.Pay

end
-- ==== Proof.KI.PayMathC.lean ====
import proofs.«119381_j32710470926983_2_alg».proof.Proof.Gen.KernelIdeal.Skeleton
import proofs.«119381_j32710470926983_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-!
# The kernel's masks and exponentials, read at an entry of the 512 × 512 tile
-/

/-- A one-bit word widened to 32 bits and converted to a float is one when the bit is set and zero when not. -/
theorem sitofp_setWidth_bit (c : BitVec 1) :
    FloatOps.sitofp (F := Ideal) .f32 (c.setWidth 32) = if c = 1#1 then (1 : EReal) else 0 := by
  rcases BitVec.eq_zero_or_eq_one c with h | h
  · subst h
    have e : (BitVec.setWidth 32 (0#1)).toInt = 0 := by decide
    show (((BitVec.setWidth 32 (0#1)).toInt : ℝ) : EReal) = _
    rw [e, if_neg (by decide)]
    simp
  · subst h
    have e : (BitVec.setWidth 32 (1#1)).toInt = 1 := by decide
    show (((BitVec.setWidth 32 (1#1)).toInt : ℝ) : EReal) = _
    rw [e, if_pos rfl]
    simp

/-- The equality comparison of two words is the set bit exactly when they are equal. -/
theorem cmpi_eq_one_iff {w : Nat} (a b : BitVec w) : IntOp.cmpi .eq a b = 1#1 ↔ a = b := by
  show BitVec.ofBool (a == b) = 1#1 ↔ a = b
  by_cases h : a = b
  · subst h
    rw [beq_self_eq_true]
    exact ⟨fun _ => rfl, fun _ => by decide⟩
  · rw [beq_eq_false_iff_ne.mpr h]
    exact ⟨fun h' => absurd h' (by decide), fun h' => absurd h' h⟩

/-- The comparison of two words, widened and converted: one when they are equal, zero when not. -/
theorem sitofp_cmpi_eq {w : Nat} (a b : BitVec w) :
    FloatOps.sitofp (F := Ideal) .f32 ((IntOp.cmpi .eq a b).setWidth 32) = if a = b then (1 : EReal) else 0 := by
  rw [sitofp_setWidth_bit]
  by_cases h : a = b
  · rw [if_pos h, if_pos ((cmpi_eq_one_iff a b).mpr h)]
  · rw [if_neg h, if_neg (fun h' => h ((cmpi_eq_one_iff a b).mp h'))]

/-- Naturals below 2^32 are told apart by their 32-bit words. -/
theorem ofNat32_eq_iff {a b : Nat} (ha : a < 4294967296) (hb : b < 4294967296) :
    BitVec.ofNat 32 a = BitVec.ofNat 32 b ↔ a = b := by
  constructor
  · intro h
    have h' := congrArg BitVec.toNat h
    rw [BitVec.toNat_ofNat, BitVec.toNat_ofNat] at h'
    omega
  · rintro rfl; rfl

/-- A select between two vectors on a scalar bit, read at an index, selects between the entries. -/
theorem scalarSelect_apply {ι α : Type} (c : BitVec 1) (A B : ι → α) (j : ι) :
    (Scalar.select c A B) j = Scalar.select c (A j) (B j) := by
  unfold Scalar.select
  split <;> rfl

/-- A select on the equality comparison of two words is the `if` on their equality. -/
theorem scalarSelect_cmpi_eq {α : Type} {w : Nat} (a b : BitVec w) (A B : α) :
    Scalar.select (Scalar.cmpi .eq a b) A B = if a = b then A else B := by
  unfold Scalar.select
  by_cases h : a = b
  · rw [if_pos h]; exact if_pos ((cmpi_eq_one_iff a b).mpr h)
  · rw [if_neg h]; exact if_neg (fun h' => h ((cmpi_eq_one_iff a b).mp h'))

/-- The identity matrix of the tile: the two coordinate vectors compared, widened and converted. -/
theorem diag_apply (r q : Fin 512) :
    (sitofp (F := Ideal) .f32 (extui 32 (cmpi .eq (iota .tc S512x512 32 [0] iota_S512x512_d0_w32)
        (iota .tc S512x512 32 [1] iota_S512x512_d1_w32)) natLt_1_32) : FVec Ideal S512x512 .f32) (ix2 r q)
      = if r = q then (1 : EReal) else 0 := by
  show FloatOps.sitofp (F := Ideal) .f32 ((IntOp.cmpi .eq (iota .tc S512x512 32 [0] iota_S512x512_d0_w32 (ix2 r q))
      (iota .tc S512x512 32 [1] iota_S512x512_d1_w32 (ix2 r q))).setWidth 32) = _
  rw [iota_single_apply, iota_single_apply, sitofp_cmpi_eq]
  show (if BitVec.ofNat 32 r.val = BitVec.ofNat 32 q.val then (1 : EReal) else 0) = _
  have hr : r.val < 4294967296 := by have := r.isLt; omega
  have hq : q.val < 4294967296 := by have := q.isLt; omega
  by_cases h : r = q
  · rw [if_pos h, if_pos (by rw [h])]
  · rw [if_neg h, if_neg (fun h' => h (Fin.ext ((ofNat32_eq_iff hr hq).mp h')))]

/-- The off-diagonal mask at an entry: one minus the identity matrix on the tiles of the grid's diagonal, one minus
    zero elsewhere. -/
theorem pay9_apply (i : grid0.Coords) (r q : Fin 512) :
    k0_pay9 (F := Ideal) i (ix2 r q)
      = Ideal.ofBits .f32 0x3F800000#32
        - (if (i 0).val = (i 1).val then (if r = q then (1 : EReal) else 0) else Ideal.ofBits .f32 0x00000000#32) := by
  unfold k0_pay9
  refine congrArg (Ideal.ofBits .f32 0x3F800000#32 - ·) ?_
  refine (scalarSelect_apply _ _ _ (ix2 r q)).trans ?_
  rw [diag_apply]
  have h0 : (i 0).val < 4294967296 := by have : (i 0).val < 16 := (i 0).isLt; omega
  have h1 : (i 1).val < 4294967296 := by have : (i 1).val < 16 := (i 1).isLt; omega
  refine (scalarSelect_cmpi_eq _ _ _ _).trans ?_
  by_cases hg : (i 0).val = (i 1).val
  · rw [if_pos hg, if_pos ((ofNat32_eq_iff h0 h1).mpr hg)]
  · rw [if_neg hg, if_neg (fun h' => hg ((ofNat32_eq_iff h0 h1).mp h'))]
    rfl

/-- The same with the zero word read as the number zero. -/
theorem pay9_apply' (i : grid0.Coords) (r q : Fin 512) :
    k0_pay9 (F := Ideal) i (ix2 r q)
      = Ideal.ofBits .f32 0x3F800000#32 - (if (i 0).val = (i 1).val then (if r = q then (1 : EReal) else 0) else 0) := by
  rw [pay9_apply, Ideal.ofBits_zero_f32]

/-- The positives' mask at an entry: the labels of the row and of the column agree, times the off-diagonal mask. -/
theorem pay10_apply (i : grid0.Coords) (v10 : Vec Ideal S512x1 .i32) (v12 : Vec Ideal S1x512 .i32) (r q : Fin 512) :
    k0_pay10 (F := Ideal) i v10 v12 (ix2 r q)
      = (if v10 (ix2 r (0 : Fin 1)) = v12 (ix2 (0 : Fin 1) q) then (1 : EReal) else 0) * k0_pay9 (F := Ideal) i (ix2 r q) := by
  unfold k0_pay10
  rw [shapeCast_self, shapeCast_self]
  refine congrArg (· * k0_pay9 (F := Ideal) i (ix2 r q)) ?_
  show FloatOps.sitofp (F := Ideal) .f32 ((IntOp.cmpi .eq (broadcastTo S512x512 v10 broadcasts_S512x1_S512x512 (ix2 r q))
      (broadcastTo S512x512 v12 broadcasts_S1x512_S512x512 (ix2 r q))).setWidth 32) = _
  rw [broadcastTo_a1_ab_apply, broadcastTo_1b_ab_apply, sitofp_cmpi_eq]

/-- The exponentials off the diagonal at an entry. -/
theorem pay11_apply (i : grid0.Coords) (v3 v5 : Vec Ideal S512x256 .bf16) (r q : Fin 512) :
    k0_pay11 (F := Ideal) i v3 v5 (ix2 r q)
      = Ideal.exp (k0_pay8 (F := Ideal) v3 v5 (ix2 r q)) * k0_pay9 (F := Ideal) i (ix2 r q) := rfl

end Cert.KernelIdeal.Pay

end
-- ==== Proof.KI.PayMathD.lean ====
import proofs.«119381_j32710470926983_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-!
# The logits tile, read at an entry

The matrix product contracts the last axes of both operands into a zero accumulator: at entry (r, q) it is the sum over
the 256 features of the products of row r of the first operand and row q of the second; the tile is that sum times
the inverse temperature, the named constant of the certificate's table.
-/

/-- The left operand's index at an output entry: its row is the entry's row … -/
theorem lhs_0 (j : S512x512.Idx) (k : dot_S512x256_S512x256_S512x512_1_1_0_0_n_n.contr.Idx) :
    (dot_S512x256_S512x256_S512x512_1_1_0_0_n_n.lhsIdx j k 0).val = (j 0).val := by
  unfold DotDims.lhsIdx
  rw [dif_neg (show ¬(0 : Fin S512x256.rank) ∈ dot_S512x256_S512x256_S512x512_1_1_0_0_n_n.lhsBatch by decide), dif_pos (show (0 : Fin S512x256.rank) ∈ dot_S512x256_S512x256_S512x512_1_1_0_0_n_n.lhsNonContracting by decide)]
  rfl
/-- … and its column the contraction position. -/
theorem lhs_1 (j : S512x512.Idx) (k : dot_S512x256_S512x256_S512x512_1_1_0_0_n_n.contr.Idx) :
    (dot_S512x256_S512x256_S512x512_1_1_0_0_n_n.lhsIdx j k 1).val = (k ⟨0, by decide⟩).val :=
  dot_S512x256_S512x256_S512x512_1_1_0_0_n_n.lhsIdx_val_of_single rfl j k
/-- The right operand's index at an output entry: its row is the entry's column … -/
theorem rhs_0 (j : S512x512.Idx) (k : dot_S512x256_S512x256_S512x512_1_1_0_0_n_n.contr.Idx) :
    (dot_S512x256_S512x256_S512x512_1_1_0_0_n_n.rhsIdx j k 0).val = (j 1).val := by
  unfold DotDims.rhsIdx
  rw [dif_neg (show ¬(0 : Fin S512x256.rank) ∈ dot_S512x256_S512x256_S512x512_1_1_0_0_n_n.rhsBatch by decide), dif_pos (show (0 : Fin S512x256.rank) ∈ dot_S512x256_S512x256_S512x512_1_1_0_0_n_n.rhsNonContracting by decide)]
  rfl
/-- … and its column the contraction position. -/
theorem rhs_1 (j : S512x512.Idx) (k : dot_S512x256_S512x256_S512x512_1_1_0_0_n_n.contr.Idx) :
    (dot_S512x256_S512x256_S512x512_1_1_0_0_n_n.rhsIdx j k 1).val = (k ⟨0, by decide⟩).val :=
  dot_S512x256_S512x256_S512x512_1_1_0_0_n_n.rhsIdx_val_of_single rfl j k

/-- The matrix product into the zero accumulator at entry (r, q): the sum over the features of row r times row q. -/
theorem matmul_tile_apply (a b : FVec Ideal S512x256 .bf16) (r q : Fin 512) :
    (matmul dot_S512x256_S512x256_S512x512_1_1_0_0_n_n none a b (constant (F := Ideal) S512x512 .f32 0x00000000#32) : FVec Ideal S512x512 .f32) (ix2 r q)
      = ∑ k : Fin 256, a (ix2 r k) * b (ix2 q k) := by
  refine (Ideal.matmul_constant_zero_apply dot_S512x256_S512x256_S512x512_1_1_0_0_n_n none a b (ix2 r q)).trans ?_
  rw [← Equiv.sum_comp (contrEquiv1 dot_S512x256_S512x256_S512x512_1_1_0_0_n_n 256 rfl rfl).symm]
  refine Finset.sum_congr rfl fun k _ => ?_
  have hk := contrEquiv1_symm_val dot_S512x256_S512x256_S512x512_1_1_0_0_n_n 256 rfl rfl k
  have el : dot_S512x256_S512x256_S512x512_1_1_0_0_n_n.lhsIdx (ix2 r q) ((contrEquiv1 dot_S512x256_S512x256_S512x512_1_1_0_0_n_n 256 rfl rfl).symm k) = ix2 r k := funext fun c => Fin.ext (by
    match c with
    | ⟨0, _⟩ => exact lhs_0 _ _
    | ⟨1, _⟩ => exact (lhs_1 _ _).trans hk)
  have er : dot_S512x256_S512x256_S512x512_1_1_0_0_n_n.rhsIdx (ix2 r q) ((contrEquiv1 dot_S512x256_S512x256_S512x512_1_1_0_0_n_n 256 rfl rfl).symm k) = ix2 q k := funext fun c => Fin.ext (by
    match c with
    | ⟨0, _⟩ => exact rhs_0 _ _
    | ⟨1, _⟩ => exact (rhs_1 _ _).trans hk)
  rw [el, er]

/-- The named constant is the table's value: the reciprocal of the temperature. -/
theorem inv_temp_eq :
    Named.named (F := Ideal) κ "inv_temp" (φ := .f32) 0x41649249#32 = ((134217728 / 9395241 : ℝ) : EReal) :=
  IdealRules.named_const.ideal_named_scalar _ _ _ _ rfl

/-- The logits tile at entry (r, q). -/
theorem pay8_apply (v3 v5 : Vec Ideal S512x256 .bf16) (r q : Fin 512) :
    k0_pay8 (F := Ideal) v3 v5 (ix2 r q)
      = (∑ k : Fin 256, v3 (ix2 r k) * v5 (ix2 q k)) * ((134217728 / 9395241 : ℝ) : EReal) := by
  unfold k0_pay8
  rw [shapeCast_self, shapeCast_self]
  exact congrArg₂ (· * ·) (matmul_tile_apply v3 v5 r q) inv_temp_eq

end Cert.KernelIdeal.Pay

end
-- ==== Proof.KI.PayMath.lean ====
/-
  The kernel body's arithmetic read at an index, at the extended reals: the zeroing and finalisation payloads, the
  three running sums, the masks and exponentials, and the logits tile.
-/
import proofs.«119381_j32710470926983_2_alg».proof.Proof.KI.PayMathA
import proofs.«119381_j32710470926983_2_alg».proof.Proof.KI.PayMathB
import proofs.«119381_j32710470926983_2_alg».proof.Proof.KI.PayMathC
import proofs.«119381_j32710470926983_2_alg».proof.Proof.KI.PayMathD
-- ==== Proof.KI.Found.lean ====
import proofs.«119381_j32710470926983_2_alg».proof.Proof.KI.Entry
import Idealize.ShloMosaic.Lib.Pipeline.Value
import Idealize.ShloMosaic.Lib.ValueIdx
import Idealize.ShloMosaic.Lib.ValueLayout

/-!
# What the region finds in its operand arrays, and each window's block read off them

Before the call the host has written the normalised features and two reshapes of the labels. Neither
argument array is written by a host operation, so each is found as launched. The label column
[8192, 1] and the label row [1, 8192] hold, at row (or column) `R`, label `R`: a reshape keeps the
row-major position, and the position of `(R, 0)` in [8192, 1] and of `(0, R)` in [1, 8192] is `R`.

The grid is 16 × 16; point `t` has coordinates `(I, J)` with `t = 16 I + J`. A block's coordinate along
an axis is the block index times the block size plus the coordinate inside the block. The first feature
window and the label column move with `I` (rows `512 I … 512 I + 511`), the second feature window and
the label row with `J` (rows, respectively columns, `512 J … 512 J + 511`).
-/

set_option maxRecDepth 16384

noncomputable section

namespace Cert.KernelIdeal.Found

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## The argument arrays: no host operation writes them -/

/-- The feature matrix is found as launched. -/
theorem V_arg0 : (V m c main_arg0 : S8192x256.Idx → EReal) = m ((c : Thread nD τ).loc main_arg0) := by
  dsimp only [Gen.V, Gen.V0, Gen.hostOps0]
  after_results

/-- The labels are found as launched. -/
theorem V_arg1 : (V m c main_arg1 : S8192.Idx → BitVec 32) = m ((c : Thread nD τ).loc main_arg1) := by
  dsimp only [Gen.V, Gen.V0, Gen.hostOps0]
  after_results

/-! ## The two reshapes of the labels -/

/-- The label column is the reshape of the labels to [8192, 1]. -/
theorem V_v9 : (V m c main_v9 : S8192x1.Idx → BitVec 32)
    = shapeCast S8192x1 (m ((c : Thread nD τ).loc main_arg1)) shapeCasts_S8192_S8192x1 := by
  dsimp only [Gen.V, Gen.V0, Gen.hostOps0]
  after_results
  rfl

/-- The label row is the reshape of the labels to [1, 8192]. -/
theorem V_v10 : (V m c main_v10 : S1x8192.Idx → BitVec 32)
    = shapeCast S1x8192 (m ((c : Thread nD τ).loc main_arg1)) shapeCasts_S8192_S1x8192 := by
  dsimp only [Gen.V, Gen.V0, Gen.hostOps0]
  after_results
  rfl

/-- The label column at row `R` is label `R`: position `R * 1 + 0` of [8192, 1] is position `R` of [8192]. -/
theorem V_v9_apply (R : Fin 8192) (z : Fin 1) :
    (V m c main_v9 : S8192x1.Idx → BitVec 32) (ix2 R z) = m ((c : Thread nD τ).loc main_arg1) (ix1 R) := by
  rw [V_v9]
  refine shapeCast_apply _ shapeCasts_S8192_S8192x1 _ _ ?_
  have hz : z.val = 0 := by omega
  rw [Shape.rowMajor_val_two, Shape.rowMajor_val_one]
  show R.val = R.val * 1 + z.val
  omega

/-- The label row at column `R` is label `R`: position `0 * 8192 + R` of [1, 8192] is position `R` of [8192]. -/
theorem V_v10_apply (z : Fin 1) (R : Fin 8192) :
    (V m c main_v10 : S1x8192.Idx → BitVec 32) (ix2 z R) = m ((c : Thread nD τ).loc main_arg1) (ix1 R) := by
  rw [V_v10]
  exact shapeCast_a_1a_apply _ shapeCasts_S8192_S1x8192 z R

/-! ## The index maps over the grid -/

/-- The printed index maps in closed form, decided once over the 256 grid points: windows 0 and 2 take the
    first grid coordinate as their row-block index, windows 1 and 3 the second (window 3 as its column-block
    index); the other block index is zero. The point's number is `16 I + J`. -/
theorem idx_facts : ∀ t : Fin cfg0.N,
    win0_0.index t (0 : Fin 2) = (grid0.coords t (0 : Fin 2)).val ∧ win0_0.index t (1 : Fin 2) = 0
  ∧ win0_1.index t (0 : Fin 2) = (grid0.coords t (1 : Fin 2)).val ∧ win0_1.index t (1 : Fin 2) = 0
  ∧ win0_2.index t (0 : Fin 2) = (grid0.coords t (0 : Fin 2)).val ∧ win0_2.index t (1 : Fin 2) = 0
  ∧ win0_3.index t (0 : Fin 2) = 0 ∧ win0_3.index t (1 : Fin 2) = (grid0.coords t (1 : Fin 2)).val
  ∧ t.val = 16 * (grid0.coords t (0 : Fin 2)).val + (grid0.coords t (1 : Fin 2)).val
  ∧ (grid0.coords t (0 : Fin 2)).val < 16 ∧ (grid0.coords t (1 : Fin 2)).val < 16 :=
  (by decide +kernel : ∀ t : Fin grid0.N, _)

/-- The point's number from its coordinates, and the coordinates' bounds. -/
theorem coords_facts (t : Fin cfg0.N) :
    t.val = 16 * (grid0.coords t (0 : Fin 2)).val + (grid0.coords t (1 : Fin 2)).val
  ∧ (grid0.coords t (0 : Fin 2)).val < 16 ∧ (grid0.coords t (1 : Fin 2)).val < 16 :=
  (idx_facts t).2.2.2.2.2.2.2.2

/-! ## The blocks -/

/-- The first feature window's block at `(I, J)`: rows `512 I + r` of the normalised features. -/
theorem iblk0_apply (t : Fin cfg0.N) (r : Fin 512) (k : Fin 256) (R : Fin 8192)
    (hR : R.val = 512 * (grid0.coords t (0 : Fin 2)).val + r.val) :
    (iblk m c 0 t : S512x256.Idx → EReal) (ix2 r k) = (V m c main_v8 : S8192x256.Idx → EReal) (ix2 R k) := by
  obtain ⟨e0, e1, -⟩ := idx_facts t
  unfold iblk
  rw [View.read_apply]
  show (V m c main_v8 : S8192x256.Idx → EReal) _ = (V m c main_v8 : S8192x256.Idx → EReal) _
  refine congrArg (V m c main_v8 : S8192x256.Idx → EReal) ?_
  funext a
  apply Fin.ext
  match a with
  | ⟨0, _⟩ => show win0_0.index t (0 : Fin 2) * 512 + 1 * r.val = R.val; rw [e0, hR]; omega
  | ⟨1, _⟩ => show win0_0.index t (1 : Fin 2) * 256 + 1 * k.val = k.val; rw [e1]; omega

/-- The second feature window's block at `(I, J)`: rows `512 J + q` of the normalised features. -/
theorem iblk1_apply (t : Fin cfg0.N) (q : Fin 512) (k : Fin 256) (Q : Fin 8192)
    (hQ : Q.val = 512 * (grid0.coords t (1 : Fin 2)).val + q.val) :
    (iblk m c 1 t : S512x256.Idx → EReal) (ix2 q k) = (V m c main_v8 : S8192x256.Idx → EReal) (ix2 Q k) := by
  obtain ⟨-, -, e0, e1, -⟩ := idx_facts t
  unfold iblk
  rw [View.read_apply]
  show (V m c main_v8 : S8192x256.Idx → EReal) _ = (V m c main_v8 : S8192x256.Idx → EReal) _
  refine congrArg (V m c main_v8 : S8192x256.Idx → EReal) ?_
  funext a
  apply Fin.ext
  match a with
  | ⟨0, _⟩ => show win0_1.index t (0 : Fin 2) * 512 + 1 * q.val = Q.val; rw [e0, hQ]; omega
  | ⟨1, _⟩ => show win0_1.index t (1 : Fin 2) * 256 + 1 * k.val = k.val; rw [e1]; omega

/-- The label column's block at `(I, J)`: rows `512 I + r` of the label column. -/
theorem iblk2_apply (t : Fin cfg0.N) (r : Fin 512) (z : Fin 1) (R : Fin 8192)
    (hR : R.val = 512 * (grid0.coords t (0 : Fin 2)).val + r.val) :
    (iblk m c 2 t : S512x1.Idx → BitVec 32) (ix2 r z) = (V m c main_v9 : S8192x1.Idx → BitVec 32) (ix2 R z) := by
  obtain ⟨-, -, -, -, e0, e1, -⟩ := idx_facts t
  unfold iblk
  rw [View.read_apply]
  show (V m c main_v9 : S8192x1.Idx → BitVec 32) _ = (V m c main_v9 : S8192x1.Idx → BitVec 32) _
  refine congrArg (V m c main_v9 : S8192x1.Idx → BitVec 32) ?_
  funext a
  apply Fin.ext
  match a with
  | ⟨0, _⟩ => show win0_2.index t (0 : Fin 2) * 512 + 1 * r.val = R.val; rw [e0, hR]; omega
  | ⟨1, _⟩ => show win0_2.index t (1 : Fin 2) * 1 + 1 * z.val = z.val; rw [e1]; omega

/-- The label row's block at `(I, J)`: columns `512 J + q` of the label row. -/
theorem iblk3_apply (t : Fin cfg0.N) (z : Fin 1) (q : Fin 512) (Q : Fin 8192)
    (hQ : Q.val = 512 * (grid0.coords t (1 : Fin 2)).val + q.val) :
    (iblk m c 3 t : S1x512.Idx → BitVec 32) (ix2 z q) = (V m c main_v10 : S1x8192.Idx → BitVec 32) (ix2 z Q) := by
  obtain ⟨-, -, -, -, -, -, e0, e1, -⟩ := idx_facts t
  unfold iblk
  rw [View.read_apply]
  show (V m c main_v10 : S1x8192.Idx → BitVec 32) _ = (V m c main_v10 : S1x8192.Idx → BitVec 32) _
  refine congrArg (V m c main_v10 : S1x8192.Idx → BitVec 32) ?_
  funext a
  apply Fin.ext
  match a with
  | ⟨0, _⟩ => show win0_3.index t (0 : Fin 2) * 1 + 1 * z.val = z.val; rw [e0]; omega
  | ⟨1, _⟩ => show win0_3.index t (1 : Fin 2) * 512 + 1 * q.val = Q.val; rw [e1, hQ]; omega

/-- The label column's block in terms of the labels. -/
theorem iblk2_label (t : Fin cfg0.N) (r : Fin 512) (z : Fin 1) (R : Fin 8192)
    (hR : R.val = 512 * (grid0.coords t (0 : Fin 2)).val + r.val) :
    (iblk m c 2 t : S512x1.Idx → BitVec 32) (ix2 r z) = m ((c : Thread nD τ).loc main_arg1) (ix1 R) := by
  rw [iblk2_apply m c t r z R hR, V_v9_apply]

/-- The label row's block in terms of the labels. -/
theorem iblk3_label (t : Fin cfg0.N) (z : Fin 1) (q : Fin 512) (Q : Fin 8192)
    (hQ : Q.val = 512 * (grid0.coords t (1 : Fin 2)).val + q.val) :
    (iblk m c 3 t : S1x512.Idx → BitVec 32) (ix2 z q) = m ((c : Thread nD τ).loc main_arg1) (ix1 Q) := by
  rw [iblk3_apply m c t z q Q hQ, V_v10_apply]

end Cert.KernelIdeal.Found

end
-- ==== Proof.LibBlockChain.lean ====
/-
  A sum over 8192 terms accumulated in 16 consecutive blocks of 512. The blocks are taken in order and
  each block's sum is added to the running total; since addition on the extended reals is commutative
  and associative, the final total is the sum over all 8192 terms, whatever the terms are.
-/
import Mathlib
import Idealize.ShloMosaic.PureOps.Ideal
import Idealize.ShloMosaic.PureOps.Ideal.Laws

noncomputable section

namespace Cert.BlockChain

open Idealize.ShloMosaic

/-- The sum of the terms of block J: the 512 terms numbered 512 * J + q. -/
def blockSum (g : Fin 8192 → EReal) (J : Fin 16) : EReal :=
  ∑ q : Fin 512, g ⟨512 * J.val + q.val, by have := J.isLt; have := q.isLt; omega⟩

/-- The running total after blocks 0 … n, started from z. -/
def accChain (z : EReal) (g : Fin 8192 → EReal) : (n : ℕ) → n < 16 → EReal
  | 0, h => z + blockSum g ⟨0, h⟩
  | n + 1, h => accChain z g n (Nat.lt_of_succ_lt h) + blockSum g ⟨n + 1, h⟩

/-- The unfolding equation of a block's sum. -/
theorem blockSum_eq (g : Fin 8192 → EReal) (J : Fin 16) :
    blockSum g J = ∑ q : Fin 512, g ⟨512 * J.val + q.val, by have := J.isLt; have := q.isLt; omega⟩ := rfl

/-- The running total after the first block. -/
theorem accChain_zero (z : EReal) (g : Fin 8192 → EReal) (h : 0 < 16) :
    accChain z g 0 h = z + blockSum g ⟨0, h⟩ := rfl

/-- The running total after one more block. -/
theorem accChain_succ (z : EReal) (g : Fin 8192 → EReal) (n : ℕ) (h : n + 1 < 16) :
    accChain z g (n + 1) h = accChain z g n (Nat.lt_of_succ_lt h) + blockSum g ⟨n + 1, h⟩ := rfl

/-- The running total after blocks 0 … n is the start plus the sum of those blocks' sums. -/
theorem accChain_eq (z : EReal) (g : Fin 8192 → EReal) : ∀ (n : ℕ) (h : n < 16),
    accChain z g n h
      = z + ∑ J : Fin (n + 1), blockSum g ⟨J.val, Nat.lt_of_lt_of_le J.isLt (Nat.succ_le_of_lt h)⟩
  | 0, h => by
    rw [accChain_zero, Fin.sum_univ_one]
    rfl
  | n + 1, h => by
    rw [accChain_succ, accChain_eq z g n, add_assoc]
    congr 1
    exact (Fin.sum_univ_castSucc
      (fun J : Fin (n + 1 + 1) => blockSum g ⟨J.val, Nat.lt_of_lt_of_le J.isLt (Nat.succ_le_of_lt h)⟩)).symm

/-- A term number below 8192 is a block number below 16 and a place below 512 in the block. -/
def blockEquiv : Fin 16 × Fin 512 ≃ Fin 8192 where
  toFun p := ⟨512 * p.1.val + p.2.val, by have := p.1.isLt; have := p.2.isLt; omega⟩
  invFun j := (⟨j.val / 512, by have := j.isLt; omega⟩, ⟨j.val % 512, by omega⟩)
  left_inv p := by
    have h1 := p.1.isLt
    have h2 := p.2.isLt
    refine Prod.ext (Fin.ext ?_) (Fin.ext ?_)
    · show (512 * p.1.val + p.2.val) / 512 = p.1.val
      omega
    · show (512 * p.1.val + p.2.val) % 512 = p.2.val
      omega
  right_inv j := by
    refine Fin.ext ?_
    show 512 * (j.val / 512) + j.val % 512 = j.val
    omega

/-- The sixteen blocks' sums add up to the sum over all terms. -/
theorem sum_blockSum (g : Fin 8192 → EReal) : ∑ J : Fin 16, blockSum g J = ∑ j : Fin 8192, g j := by
  rw [← Equiv.sum_comp blockEquiv g, Fintype.sum_prod_type]
  rfl

/-- The running total after all sixteen blocks is the start plus the sum over all terms. -/
theorem accChain_last_add (z : EReal) (g : Fin 8192 → EReal) (h : 15 < 16) :
    accChain z g 15 h = z + ∑ j : Fin 8192, g j := by
  rw [accChain_eq, ← sum_blockSum]

/-- Started from zero, the running total after all sixteen blocks is the sum over all terms. -/
theorem accChain_last (g : Fin 8192 → EReal) (h : 15 < 16) :
    accChain 0 g 15 h = ∑ j : Fin 8192, g j := by
  rw [accChain_last_add, zero_add]

/-- The same started from the zero pattern of the 32-bit floats, which denotes zero. -/
theorem accChain_last_ofBits (g : Fin 8192 → EReal) (h : 15 < 16) :
    accChain (Ideal.ofBits .f32 0x00000000#32) g 15 h = ∑ j : Fin 8192, g j := by
  rw [Ideal.ofBits_zero_f32, accChain_last]

end Cert.BlockChain

end
-- ==== Proof.Spec.lean ====
import Idealize.ShloMosaic.PureOps.Ideal

/-!
# The supervised-contrastive loss, as one function of the feature matrix and the labels

Rows are normalised by their Euclidean norm (floored at a tiny positive constant); the similarity of rows
`i` and `j` is the dot product of the normalised rows times the inverse temperature; a pair is positive when
the labels agree and `i ≠ j`. For each row: the sum of the positive similarities, minus the number of
positives times the logarithm of the sum of exponentials of the similarities to the OTHER rows (plus a
small constant), divided by the number of positives floored at one. The loss is minus the mean over rows.
Everything is stated on the extended reals with the textbook operations.
-/

noncomputable section

namespace Cert.Spec

open Idealize.ShloMosaic

/-- The floor of a row's norm. -/
def epsN : EReal := Ideal.ofBits .f32 0x2B8CBCCC#32
/-- The constant added under the logarithm. -/
def epsL : EReal := Ideal.ofBits .f32 0x358637BD#32
/-- One, as the float pattern. -/
def one : EReal := Ideal.ofBits .f32 0x3F800000#32
/-- Zero, as the float pattern. -/
def zero : EReal := Ideal.ofBits .f32 0x00000000#32
/-- The number of rows, as the float pattern. -/
def nRows : EReal := Ideal.ofBits .f32 0x46000000#32
/-- The inverse temperature: the reciprocal of the temperature's binary value. -/
def invT : EReal := ((134217728 / 9395241 : ℝ) : EReal)

variable (x : Fin 8192 → Fin 256 → EReal) (l : Fin 8192 → BitVec 32)

/-- The floored Euclidean norm of row `i`. -/
def nrm (i : Fin 8192) : EReal := max (Ideal.sqrt (zero + ∑ k : Fin 256, x i k * x i k)) epsN
/-- The normalised features. -/
def fn (i : Fin 8192) (k : Fin 256) : EReal := Ideal.div (x i k) (nrm x i)
/-- The cosine similarity of rows `i`, `j`. -/
def dot (i j : Fin 8192) : EReal := ∑ k : Fin 256, fn x i k * fn x j k
/-- The similarity scaled by the inverse temperature. -/
def lg (i j : Fin 8192) : EReal := dot x i j * invT
/-- Labels agree: one or zero. -/
def same (i j : Fin 8192) : EReal := if l i = l j then 1 else 0
/-- Off the diagonal: one minus the identity matrix. -/
def off (i j : Fin 8192) : EReal := one - (if i = j then 1 else 0)
/-- Positive pairs. -/
def pos (i j : Fin 8192) : EReal := same l i j * off i j
/-- The sum of the positive similarities of row `i`. -/
def spos (i : Fin 8192) : EReal := ∑ j : Fin 8192, pos l i j * lg x i j
/-- The sum of exponentials over the other rows. -/
def den (i : Fin 8192) : EReal := ∑ j : Fin 8192, Ideal.exp (lg x i j) * off i j
/-- The number of positives of row `i`. -/
def cnt (i : Fin 8192) : EReal := ∑ j : Fin 8192, pos l i j
/-- The mean log-probability of the positives of row `i`. -/
def rowLoss (i : Fin 8192) : EReal :=
  Ideal.div (spos x l i - cnt l i * Ideal.log (den x i + epsL)) (max one (cnt l i))
/-- The loss. -/
def loss : EReal := -(Ideal.div (zero + ∑ i : Fin 8192, rowLoss x l i) nRows)

end Cert.Spec

end
-- ==== Proof.KI.Row.lean ====
/-
  Along one row of the grid the three accumulators of a matrix row are the sums, block of 512 columns after
  block, of that row's summands: after the point in column `J` they hold the chain of the first `J + 1` block sums
  over zero, and after the last column the whole sums over the 8192 columns.
-/
import proofs.«119381_j32710470926983_2_alg».proof.Proof.KI.Pieces
import proofs.«119381_j32710470926983_2_alg».proof.Proof.KI.PayMath
import proofs.«119381_j32710470926983_2_alg».proof.Proof.KI.Found
import proofs.«119381_j32710470926983_2_alg».proof.Proof.LibBlockChain
import proofs.«119381_j32710470926983_2_alg».proof.Proof.Spec

set_option maxRecDepth 16384

noncomputable section

namespace Cert.KernelIdeal.Row

open Idealize.ShloMosaic Idealize.ShloMosaic.TcCoe Idealize.SL.Sem Idealize.ShloMosaic.ValueIdx
open Idealize.ShloMosaic.Pipeline (Dat)
open Cert.KernelIdeal Cert.KernelIdeal.Gen Cert.BlockChain

variable (m : (ℓ : Loc nD τ sig) → Buf (Elt Ideal) ℓ)

theorem accChain_cast (z : EReal) (g : Fin 8192 → EReal) {n n' : ℕ} (e : n = n') (h : n < 16) (h' : n' < 16) :
    accChain z g n h = accChain z g n' h' := by subst e; rfl

theorem blockSum_cast (g : Fin 8192 → EReal) {J J' : Fin 16} (e : J.val = J'.val) : blockSum g J = blockSum g J' := by
  rw [Fin.ext e]

/-- The step of one accumulator: the tile at point `t` adds to row `r` of the accumulator the block sum, over the
    point's column block, of the summands of matrix row `R = 512·I + r`. -/
abbrev StepOf (c : Dev nD) (acc : Fin cfg0.N → Vec Ideal S512x1 .f32 → Vec Ideal S512x1 .f32) (g : Fin 8192 → Fin 8192 → EReal) : Prop :=
  ∀ (t : Fin cfg0.N) (r : Fin 512) (R : Fin 8192) (_ : R.val = 512 * (grid0.coords t (0 : Fin 2)).val + r.val)
    (hJ : (grid0.coords t (1 : Fin 2)).val < 16) (s : Vec Ideal S512x1 .f32),
    acc t s (ix2 r (0 : Fin 1)) = s (ix2 r (0 : Fin 1)) + blockSum (g R) ⟨(grid0.coords t (1 : Fin 2)).val, hJ⟩

variable (c : Dev nD) (g0 g1 g2 : Fin 8192 → Fin 8192 → EReal)

set_option maxHeartbeats 1600000 in
theorem accs_row (hs0 : StepOf c (acc0 m c) g0) (hs1 : StepOf c (acc1 m c) g1) (hs2 : StepOf c (acc2 m c) g2) :
    ∀ (n : ℕ) (hn : n < cfg0.N) (r : Fin 512) (R : Fin 8192) (_ : R.val = 512 * (n / 16) + r.val),
      (accsAt m c n hn).1 (ix2 r (0 : Fin 1)) = accChain Cert.Spec.zero (g0 R) (n % 16) (Nat.mod_lt _ (by decide))
      ∧ (accsAt m c n hn).2.1 (ix2 r (0 : Fin 1)) = accChain Cert.Spec.zero (g1 R) (n % 16) (Nat.mod_lt _ (by decide))
      ∧ (accsAt m c n hn).2.2 (ix2 r (0 : Fin 1)) = accChain Cert.Spec.zero (g2 R) (n % 16) (Nat.mod_lt _ (by decide)) := by
  intro n
  induction n with
  | zero =>
    intro hn r R hR
    obtain ⟨ht, hI, hJ⟩ := Cert.KernelIdeal.Found.coords_facts (⟨0, hn⟩ : Fin cfg0.N)
    have hc0 : (grid0.coords (⟨0, hn⟩ : Fin cfg0.N) (0 : Fin 2)).val = 0 := by dsimp only at ht; omega
    have hc1 : (grid0.coords (⟨0, hn⟩ : Fin cfg0.N) (1 : Fin 2)).val = 0 := by dsimp only at ht; omega
    have hR' : R.val = 512 * (grid0.coords (⟨0, hn⟩ : Fin cfg0.N) (0 : Fin 2)).val + r.val := by rw [hc0]; omega
    rw [accsAt_first m c ⟨0, hn⟩ (Nat.zero_mod _)]
    dsimp only
    rw [hs0 _ r R hR' hJ, hs1 _ r R hR' hJ, hs2 _ r R hR' hJ, Cert.KernelIdeal.Pay.pay5_apply, Cert.KernelIdeal.Pay.pay6_apply, Cert.KernelIdeal.Pay.pay7_apply]
    refine ⟨?_, ?_, ?_⟩ <;>
    · rw [accChain_cast _ _ (Nat.zero_mod 16) _ (by decide), accChain_zero]
      exact congrArg _ (blockSum_cast _ hc1)
  | succ n ih =>
    intro hn r R hR
    obtain ⟨ht, hI, hJ⟩ := Cert.KernelIdeal.Found.coords_facts (⟨n + 1, hn⟩ : Fin cfg0.N)
    have hc0 : (grid0.coords (⟨n + 1, hn⟩ : Fin cfg0.N) (0 : Fin 2)).val = (n + 1) / 16 := by dsimp only at ht; omega
    have hc1 : (grid0.coords (⟨n + 1, hn⟩ : Fin cfg0.N) (1 : Fin 2)).val = (n + 1) % 16 := by dsimp only at ht; omega
    have hR' : R.val = 512 * (grid0.coords (⟨n + 1, hn⟩ : Fin cfg0.N) (0 : Fin 2)).val + r.val := by rw [hc0]; exact hR
    by_cases h0 : (n + 1) % 16 = 0
    · rw [accsAt_first m c ⟨n + 1, hn⟩ h0]
      dsimp only
      rw [hs0 _ r R hR' hJ, hs1 _ r R hR' hJ, hs2 _ r R hR' hJ, Cert.KernelIdeal.Pay.pay5_apply, Cert.KernelIdeal.Pay.pay6_apply, Cert.KernelIdeal.Pay.pay7_apply]
      refine ⟨?_, ?_, ?_⟩ <;>
      · rw [accChain_cast _ _ h0 _ (by decide), accChain_zero]
        exact congrArg _ (blockSum_cast _ (by dsimp only; omega))
    · have hRn : R.val = 512 * (n / 16) + r.val := by omega
      obtain ⟨i0, i1, i2⟩ := ih (Nat.lt_of_succ_lt hn) r R hRn
      have hm : n % 16 + 1 < 16 := by omega
      rw [accsAt_succ m c n hn h0]
      dsimp only
      rw [hs0 _ r R hR' hJ, hs1 _ r R hR' hJ, hs2 _ r R hR' hJ, i0, i1, i2]
      refine ⟨?_, ?_, ?_⟩ <;>
      · rw [accChain_cast _ _ (show (n + 1) % 16 = n % 16 + 1 by omega) _ hm, accChain_succ]
        exact congrArg _ (blockSum_cast _ (by dsimp only; omega))

/-- After the last point of a grid row the accumulators hold the whole sums over the 8192 columns. -/
theorem accs_last (hs0 : StepOf c (acc0 m c) g0) (hs1 : StepOf c (acc1 m c) g1) (hs2 : StepOf c (acc2 m c) g2)
    (n : ℕ) (hn : n < cfg0.N) (h15 : n % 16 = 15) (r : Fin 512) (R : Fin 8192) (hR : R.val = 512 * (n / 16) + r.val) :
    (accsAt m c n hn).1 (ix2 r (0 : Fin 1)) = ∑ j : Fin 8192, g0 R j
    ∧ (accsAt m c n hn).2.1 (ix2 r (0 : Fin 1)) = ∑ j : Fin 8192, g1 R j
    ∧ (accsAt m c n hn).2.2 (ix2 r (0 : Fin 1)) = ∑ j : Fin 8192, g2 R j := by
  obtain ⟨a0, a1, a2⟩ := accs_row m c g0 g1 g2 hs0 hs1 hs2 n hn r R hR
  refine ⟨a0.trans ?_, a1.trans ?_, a2.trans ?_⟩ <;>
  · rw [accChain_cast _ _ h15 _ (by decide)]
    exact accChain_last_ofBits _ _

end Cert.KernelIdeal.Row

end
-- ==== Proof.RefRead.lean ====
import proofs.«119381_j32710470926983_2_alg».proof.Defs
import proofs.«119381_j32710470926983_2_alg».proof.Proof.Gen.ReferenceIdeal.Read
-- ==== Proof.RefConsts.lean ====
import proofs.«119381_j32710470926983_2_alg».proof.Proof.Spec

/-!
# The float constants of the reference, as the extended reals their patterns denote

One is 1; the temperature's pattern denotes the rational 9395241 / 134217728; the two small
constants (the floor of a norm and the constant under the logarithm) denote positive reals.
-/

noncomputable section

namespace Cert.RefValue

open Idealize.ShloMosaic

/-- The pattern of 1.0 denotes 1. -/
theorem one_eq : Cert.Spec.one = 1 := by
  unfold Cert.Spec.one
  simp [Ideal.ofBits, Ideal.ieee, -EReal.coe_mul]; norm_num

/-- The pattern of 0.0 denotes 0. -/
theorem zero_eq : Cert.Spec.zero = 0 := by
  unfold Cert.Spec.zero
  simp [Ideal.ofBits, Ideal.ieee]

/-- The temperature's pattern denotes 9395241 / 134217728. -/
theorem temp_eq : Ideal.ofBits .f32 0x3D8F5C29#32 = ((9395241 / 134217728 : ℝ) : EReal) := by
  simp [Ideal.ofBits, Ideal.ieee, -EReal.coe_mul]; norm_num

/-- The floor of a norm is a positive real. -/
theorem epsN_pos : ∃ e : ℝ, 0 < e ∧ Cert.Spec.epsN = (e : EReal) := by
  unfold Cert.Spec.epsN
  refine ⟨_, ?_, by simp [Ideal.ofBits, Ideal.ieee, -EReal.coe_mul]; rfl⟩
  positivity

/-- The constant under the logarithm is a positive real. -/
theorem epsL_pos : ∃ e : ℝ, 0 < e ∧ Cert.Spec.epsL = (e : EReal) := by
  unfold Cert.Spec.epsL
  refine ⟨_, ?_, by simp [Ideal.ofBits, Ideal.ieee, -EReal.coe_mul]; rfl⟩
  positivity

end Cert.RefValue

end
-- ==== Proof.RefFeat.lean ====
import proofs.«119381_j32710470926983_2_alg».proof.Proof.RefRead
import proofs.«119381_j32710470926983_2_alg».proof.Proof.RefConsts

/-!
# The reference's feature stages, index by index

Read at a row and a column, the reference's stages are the specification's primitives: the floored norm
of a row, the normalised features, the similarity of two rows (the transposed operand read at the
swapped index), and the similarity divided by the temperature, which is its product with the inverse
temperature because the temperature's pattern denotes a nonzero real.
-/

noncomputable section

namespace Cert.RefValue

open Cert Cert.ReferenceIdeal Cert.ReferenceIdeal.Read Idealize.ShloMosaic Idealize.ShloMosaic.ValueIdx

/-- The feature matrix by row and column. -/
abbrev X (x0 : (⟨S8192x256, .f32⟩ : BufTy).Contents (Elt Ideal)) : Fin 8192 → Fin 256 → EReal :=
  fun i k => x0 (ix2 i k)

/-- The labels by row. -/
abbrev Lb (x1 : (⟨S8192, .i32⟩ : BufTy).Contents (Elt Ideal)) : Fin 8192 → BitVec 32 :=
  fun i => x1 (ix1 i)

variable (x0 : (⟨S8192x256, .f32⟩ : BufTy).Contents (Elt Ideal))

/-- The sum of squares of row i, from the zero pattern. -/
theorem sumsq_at (i : Fin 8192) :
    val_main_v1 (F := Ideal) x0 (ix1 i) = Spec.zero + ∑ k : Fin 256, X x0 i k * X x0 i k := by
  rw [val_main_v1_apply, val_main_cst_apply]
  show Ideal.ofBits .f32 0x00000000#32 + _ = Ideal.ofBits .f32 0x00000000#32 + _
  refine congrArg (_ + ·) (Finset.sum_congr rfl fun k _ => ?_)
  have e : idx_main_v1 (ix1 i) k = ix2 i k :=
    funext fun a => by match a with | ⟨0, _⟩ => rfl | ⟨1, _⟩ => rfl
  rw [val_main_v0_apply, e]
  rfl

/-- The floored norm of row i, in its column form. -/
theorem nrm_at (i : Fin 8192) (z : Fin 1) :
    val_main_v5 (F := Ideal) x0 (ix2 i z) = Spec.nrm (X x0) i := by
  have e : idx_main_v2 (ix2 i z) = ix1 i :=
    funext fun a => by match a with | ⟨0, _⟩ => rfl
  rw [val_main_v5_apply, val_main_v3_apply, val_main_v2_apply, val_main_v4_apply, val_main_cst_0_apply,
    e, sumsq_at]
  rfl

/-- The normalised feature at row i, column k. -/
theorem fn_at (i : Fin 8192) (k : Fin 256) :
    val_main_v7 (F := Ideal) x0 (ix2 i k) = Spec.fn (X x0) i k := by
  have e : idx_main_v6 (ix2 i k) = ix2 i (⟨0, Nat.one_pos⟩ : Fin 1) :=
    funext fun a => by match a with | ⟨0, _⟩ => rfl | ⟨1, _⟩ => rfl
  rw [val_main_v7_apply, val_main_v6_apply, e, nrm_at]
  rfl

/-- The transposed normalised features: at (k, j) the feature at row j, column k. -/
theorem fnT_at (k : Fin 256) (j : Fin 8192) :
    val_main_v8 (F := Ideal) x0 (ix2 k j) = Spec.fn (X x0) j k := by
  have e : idx_main_v8 (ix2 k j) = ix2 j k :=
    funext fun a => by match a with | ⟨0, _⟩ => rfl | ⟨1, _⟩ => rfl
  rw [val_main_v8_apply, e, fn_at]

/-- The similarity of rows i and j. -/
theorem dot_at (i j : Fin 8192) :
    val_main_v9 (F := Ideal) x0 (ix2 i j) = Spec.dot (X x0) i j := by
  rw [val_main_v9_apply]
  unfold Spec.dot
  refine Finset.sum_congr rfl fun k _ => ?_
  have el : lidx_main_v9 (ix2 i j) k = ix2 i k :=
    funext fun a => by match a with | ⟨0, _⟩ => rfl | ⟨1, _⟩ => rfl
  have er : ridx_main_v9 (ix2 i j) k = ix2 k j :=
    funext fun a => by match a with | ⟨0, _⟩ => rfl | ⟨1, _⟩ => rfl
  rw [el, er, fn_at, fnT_at]

/-- The similarity divided by the temperature is the similarity times the inverse temperature. -/
theorem lg_at (i j : Fin 8192) :
    val_main_v11 (F := Ideal) x0 (ix2 i j) = Spec.lg (X x0) i j := by
  rw [val_main_v11_apply, val_main_v10_apply, val_main_cst_1_apply, dot_at]
  show Ideal.div (Spec.dot (X x0) i j) (Ideal.ofBits .f32 0x3D8F5C29#32) = _
  rw [temp_eq, Ideal.div_coe (by norm_num)]
  unfold Spec.lg Spec.invT
  congr 2
  norm_num

end Cert.RefValue

end
-- ==== Proof.KI.FoundFeat.lean ====
import proofs.«119381_j32710470926983_2_alg».proof.Proof.KI.Found
import proofs.«119381_j32710470926983_2_alg».proof.Proof.RefFeat
import proofs.«119381_j32710470926983_2_alg».proof.Proof.Spec

/-!
# The feature windows' blocks are blocks of the normalised features

The host operations before the call square the features, sum each row from zero, take the square root,
floor it at the tiny positive constant, and divide each feature by its row's floored norm; the last
operation narrows the float format, which on the extended reals is the identity. These are, operation for
operation, the first stages of the reference, so the array the two feature windows read is the
specification's normalised feature matrix `fn` of the launched features. With the block reads, an entry
`(r, k)` of the first window's block at grid point `(I, J)` is `fn (512 I + r) k`, and an entry `(q, k)` of
the second window's is `fn (512 J + q) k`.
-/

set_option maxRecDepth 16384

noncomputable section

namespace Cert.KernelIdeal.Found

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-- The launched feature matrix by row and column. -/
abbrev X0 : Fin 8192 → Fin 256 → EReal := fun i k => m ((c : Thread nD τ).loc main_arg0) (ix2 i k)

/-- The launched labels by row. -/
abbrev L0 : Fin 8192 → BitVec 32 := fun i => m ((c : Thread nD τ).loc main_arg1) (ix1 i)

/-- The array the feature windows read is the reference's normalised-feature stage of the launched features:
    the same operations in the same order, and the narrowing of the format is the identity. -/
theorem V_v8 : (V m c main_v8 : S8192x256.Idx → EReal)
    = Cert.ReferenceIdeal.Read.val_main_v7 (F := Ideal) (m ((c : Thread nD τ).loc main_arg0)) := by
  dsimp only [Gen.V, Gen.V0, Gen.hostOps0]
  after_results
  rfl

/-- At row `R`, column `k`, it is the feature divided by the floored norm of its row. -/
theorem V_v8_apply (R : Fin 8192) (k : Fin 256) :
    (V m c main_v8 : S8192x256.Idx → EReal) (ix2 R k)
      = Cert.Spec.fn (fun i k => m ((c : Thread nD τ).loc main_arg0) (ix2 i k)) R k := by
  rw [V_v8]
  exact Cert.RefValue.fn_at _ R k

/-- The first feature window's block at `(I, J)`, entry `(r, k)`: the normalised feature at row `512 I + r`. -/
theorem iblk0_fn (t : Fin cfg0.N) (r : Fin 512) (k : Fin 256) (R : Fin 8192)
    (hR : R.val = 512 * (grid0.coords t (0 : Fin 2)).val + r.val) :
    (iblk m c 0 t : S512x256.Idx → EReal) (ix2 r k)
      = Cert.Spec.fn (fun i k => m ((c : Thread nD τ).loc main_arg0) (ix2 i k)) R k := by
  rw [iblk0_apply m c t r k R hR, V_v8_apply]

/-- The second feature window's block at `(I, J)`, entry `(q, k)`: the normalised feature at row `512 J + q`. -/
theorem iblk1_fn (t : Fin cfg0.N) (q : Fin 512) (k : Fin 256) (Q : Fin 8192)
    (hQ : Q.val = 512 * (grid0.coords t (1 : Fin 2)).val + q.val) :
    (iblk m c 1 t : S512x256.Idx → EReal) (ix2 q k)
      = Cert.Spec.fn (fun i k => m ((c : Thread nD τ).loc main_arg0) (ix2 i k)) Q k := by
  rw [iblk1_apply m c t q k Q hQ, V_v8_apply]

end Cert.KernelIdeal.Found

end
-- ==== Proof.KI.StepTile.lean ====
import proofs.«119381_j32710470926983_2_alg».proof.Proof.KI.PayMath
import proofs.«119381_j32710470926983_2_alg».proof.Proof.KI.FoundFeat
import proofs.«119381_j32710470926983_2_alg».proof.Proof.LibBlockChain
import proofs.«119381_j32710470926983_2_alg».proof.Proof.Spec

/-!
# One tile's contribution to the three running sums

At the grid point with coordinates (I, J) the body works on the 512 × 512 tile whose entry (r, q) pairs row
R = 512 I + r with row Q = 512 J + q. Two such rows are equal exactly when I = J and r = q, so the tile's
off-diagonal mask is the specification's; its label mask compares the labels of R and Q; its logits are the
scaled similarities of R and Q. Each running sum therefore grows, at row r, by the sum over block J of the
specification's terms of row R.
-/

set_option maxRecDepth 16384

noncomputable section

namespace Cert.KernelIdeal.Step

open Cert Cert.KernelIdeal Cert.KernelIdeal.Gen Cert.KernelIdeal.Pay Cert.KernelIdeal.Found
open Idealize.ShloMosaic Idealize.ShloMosaic.TcCoe Idealize.SL.Sem Idealize.ShloMosaic.ValueIdx

variable (m : (ℓ : Loc nD τ sig) → Buf (Elt Ideal) ℓ) (c : Dev nD)

/-- Rows 512 I + r and 512 J + q are the same row exactly when I = J and r = q. -/
theorem row_eq_iff {I J : ℕ} (r q : Fin 512) (R Q : Fin 8192)
    (hR : R.val = 512 * I + r.val) (hQ : Q.val = 512 * J + q.val) : R = Q ↔ I = J ∧ r = q := by
  have hr := r.isLt
  have hq := q.isLt
  constructor
  · intro h
    have hv : R.val = Q.val := congrArg Fin.val h
    exact ⟨by omega, Fin.ext (by omega)⟩
  · rintro ⟨h1, h2⟩
    exact Fin.ext (by rw [hR, hQ, h1, h2])

/-- The tile's logits at (r, q): the scaled similarity of rows R and Q. -/
theorem tile_lg (t : Fin cfg0.N) (r q : Fin 512) (R Q : Fin 8192)
    (hR : R.val = 512 * (grid0.coords t (0 : Fin 2)).val + r.val)
    (hQ : Q.val = 512 * (grid0.coords t (1 : Fin 2)).val + q.val) :
    k0_pay8 (F := Ideal) (iblk m c 0 t) (iblk m c 1 t) (ix2 r q) = Spec.lg (X0 m c) R Q := by
  rw [pay8_apply]
  unfold Spec.lg Spec.dot Spec.invT
  refine congrArg (· * ((134217728 / 9395241 : ℝ) : EReal)) (Finset.sum_congr rfl fun k _ => ?_)
  rw [iblk0_fn m c t r k R hR, iblk1_fn m c t q k Q hQ]

/-- The tile's off-diagonal mask at (r, q): off the diagonal of rows R and Q. -/
theorem tile_off (t : Fin cfg0.N) (r q : Fin 512) (R Q : Fin 8192)
    (hR : R.val = 512 * (grid0.coords t (0 : Fin 2)).val + r.val)
    (hQ : Q.val = 512 * (grid0.coords t (1 : Fin 2)).val + q.val) :
    k0_pay9 (F := Ideal) (grid0.coords t) (ix2 r q) = Spec.off R Q := by
  rw [pay9_apply']
  unfold Spec.off Spec.one
  refine congrArg (Ideal.ofBits .f32 0x3F800000#32 - ·) ?_
  have hiff := row_eq_iff r q R Q hR hQ
  by_cases hRQ : R = Q
  · obtain ⟨h1, h2⟩ := hiff.mp hRQ
    rw [if_pos hRQ, if_pos h1, if_pos h2]
  · rw [if_neg hRQ]
    by_cases h1 : (grid0.coords t (0 : Fin 2)).val = (grid0.coords t (1 : Fin 2)).val
    · rw [if_pos h1, if_neg (fun h2 => hRQ (hiff.mpr ⟨h1, h2⟩))]
    · rw [if_neg h1]

/-- The tile's positive-pair mask at (r, q): the positive-pair mask of rows R and Q. -/
theorem tile_pos (t : Fin cfg0.N) (r q : Fin 512) (R Q : Fin 8192)
    (hR : R.val = 512 * (grid0.coords t (0 : Fin 2)).val + r.val)
    (hQ : Q.val = 512 * (grid0.coords t (1 : Fin 2)).val + q.val) :
    k0_pay10 (F := Ideal) (grid0.coords t) (iblk m c 2 t) (iblk m c 3 t) (ix2 r q) = Spec.pos (L0 m c) R Q := by
  rw [pay10_apply, tile_off t r q R Q hR hQ, iblk2_label m c t r (0 : Fin 1) R hR,
    iblk3_label m c t (0 : Fin 1) q Q hQ]
  rfl

/-- The tile's exponentials off the diagonal at (r, q). -/
theorem tile_exp (t : Fin cfg0.N) (r q : Fin 512) (R Q : Fin 8192)
    (hR : R.val = 512 * (grid0.coords t (0 : Fin 2)).val + r.val)
    (hQ : Q.val = 512 * (grid0.coords t (1 : Fin 2)).val + q.val) :
    k0_pay11 (F := Ideal) (grid0.coords t) (iblk m c 0 t) (iblk m c 1 t) (ix2 r q)
      = Ideal.exp (Spec.lg (X0 m c) R Q) * Spec.off R Q := by
  rw [pay11_apply, tile_lg m c t r q R Q hR hQ, tile_off t r q R Q hR hQ]

/-- The row of the second grid coordinate's block at place q. -/
abbrev colRow (t : Fin cfg0.N) (q : Fin 512) : Fin 8192 :=
  ⟨512 * (grid0.coords t (1 : Fin 2)).val + q.val, by
    have := (coords_facts t).2.2; have := q.isLt; omega⟩

/-- The positive-similarity sum's payload after the tile: the sum carried in plus block J of row R's terms. -/
theorem pay1_step (t : Fin cfg0.N) (r : Fin 512) (R : Fin 8192)
    (hR : R.val = 512 * (grid0.coords t (0 : Fin 2)).val + r.val) (s : Vec Ideal S512x1 .f32) :
    k0_pay1 (F := Ideal) (k0_pay12 (grid0.coords t) (iblk m c 0 t) (iblk m c 1 t) (iblk m c 2 t) (iblk m c 3 t) s)
        (ix2 r (0 : Fin 1))
      = s (ix2 r (0 : Fin 1))
        + BlockChain.blockSum (fun j => Spec.pos (L0 m c) R j * Spec.lg (X0 m c) R j)
            ⟨(grid0.coords t (1 : Fin 2)).val, (coords_facts t).2.2⟩ := by
  rw [pay1_pay12_apply, BlockChain.blockSum_eq]
  refine congrArg (s (ix2 r (0 : Fin 1)) + ·) (Finset.sum_congr rfl fun q _ => ?_)
  rw [tile_pos m c t r q R (colRow t q) hR rfl, tile_lg m c t r q R (colRow t q) hR rfl]

/-- The exponential sum's payload after the tile: the sum carried in plus block J of row R's terms. -/
theorem pay2_step (t : Fin cfg0.N) (r : Fin 512) (R : Fin 8192)
    (hR : R.val = 512 * (grid0.coords t (0 : Fin 2)).val + r.val) (s : Vec Ideal S512x1 .f32) :
    k0_pay2 (F := Ideal) (k0_pay11 (grid0.coords t) (iblk m c 0 t) (iblk m c 1 t)) s (ix2 r (0 : Fin 1))
      = s (ix2 r (0 : Fin 1))
        + BlockChain.blockSum (fun j => Ideal.exp (Spec.lg (X0 m c) R j) * Spec.off R j)
            ⟨(grid0.coords t (1 : Fin 2)).val, (coords_facts t).2.2⟩ := by
  rw [pay2_apply, BlockChain.blockSum_eq]
  refine congrArg (s (ix2 r (0 : Fin 1)) + ·) (Finset.sum_congr rfl fun q _ => ?_)
  rw [tile_exp m c t r q R (colRow t q) hR rfl]

/-- The positive count's payload after the tile: the count carried in plus block J of row R's terms. -/
theorem pay3_step (t : Fin cfg0.N) (r : Fin 512) (R : Fin 8192)
    (hR : R.val = 512 * (grid0.coords t (0 : Fin 2)).val + r.val) (s : Vec Ideal S512x1 .f32) :
    k0_pay3 (F := Ideal) (k0_pay10 (grid0.coords t) (iblk m c 2 t) (iblk m c 3 t)) s (ix2 r (0 : Fin 1))
      = s (ix2 r (0 : Fin 1))
        + BlockChain.blockSum (fun j => Spec.pos (L0 m c) R j)
            ⟨(grid0.coords t (1 : Fin 2)).val, (coords_facts t).2.2⟩ := by
  rw [pay3_apply, BlockChain.blockSum_eq]
  refine congrArg (s (ix2 r (0 : Fin 1)) + ·) (Finset.sum_congr rfl fun q _ => ?_)
  rw [tile_pos m c t r q R (colRow t q) hR rfl]

end Cert.KernelIdeal.Step

end
-- ==== Proof.KI.Step.lean ====
import proofs.«119381_j32710470926983_2_alg».proof.Proof.KI.Pieces
import proofs.«119381_j32710470926983_2_alg».proof.Proof.KI.StepTile

/-!
# One grid point's step of the three accumulators

The accumulators after the tile at a grid point are the payloads of the running sums, so each grows, at
row r, by the sum over block J of the specification's terms of row R = 512 I + r.
-/

set_option maxRecDepth 16384

noncomputable section

namespace Cert.KernelIdeal.Step

open Cert Cert.KernelIdeal Cert.KernelIdeal.Gen Cert.KernelIdeal.Found
open Idealize.ShloMosaic Idealize.ShloMosaic.TcCoe Idealize.SL.Sem Idealize.ShloMosaic.ValueIdx

variable (m : (ℓ : Loc nD τ sig) → Buf (Elt Ideal) ℓ) (c : Dev nD)

/-- The positive-similarity sum after the tile: the sum carried in plus block J of row R's terms. -/
theorem acc0_step (t : Fin cfg0.N) (r : Fin 512) (R : Fin 8192)
    (hR : R.val = 512 * (grid0.coords t (0 : Fin 2)).val + r.val) (s : Vec Ideal S512x1 .f32) :
    acc0 (F := Ideal) m c t s (ix2 r (0 : Fin 1))
      = s (ix2 r (0 : Fin 1))
        + BlockChain.blockSum (fun j => Spec.pos (L0 m c) R j * Spec.lg (X0 m c) R j)
            ⟨(grid0.coords t (1 : Fin 2)).val, (coords_facts t).2.2⟩ :=
  pay1_step m c t r R hR s

/-- The exponential sum after the tile: the sum carried in plus block J of row R's terms. -/
theorem acc1_step (t : Fin cfg0.N) (r : Fin 512) (R : Fin 8192)
    (hR : R.val = 512 * (grid0.coords t (0 : Fin 2)).val + r.val) (s : Vec Ideal S512x1 .f32) :
    acc1 (F := Ideal) m c t s (ix2 r (0 : Fin 1))
      = s (ix2 r (0 : Fin 1))
        + BlockChain.blockSum (fun j => Ideal.exp (Spec.lg (X0 m c) R j) * Spec.off R j)
            ⟨(grid0.coords t (1 : Fin 2)).val, (coords_facts t).2.2⟩ :=
  pay2_step m c t r R hR s

/-- The positive count after the tile: the count carried in plus block J of row R's terms. -/
theorem acc2_step (t : Fin cfg0.N) (r : Fin 512) (R : Fin 8192)
    (hR : R.val = 512 * (grid0.coords t (0 : Fin 2)).val + r.val) (s : Vec Ideal S512x1 .f32) :
    acc2 (F := Ideal) m c t s (ix2 r (0 : Fin 1))
      = s (ix2 r (0 : Fin 1))
        + BlockChain.blockSum (fun j => Spec.pos (L0 m c) R j)
            ⟨(grid0.coords t (1 : Fin 2)).val, (coords_facts t).2.2⟩ :=
  pay3_step m c t r R hR s

end Cert.KernelIdeal.Step

end
-- ==== Proof.KI.OutBlock.lean ====
/-
  The output window of the call: the array of per-row losses, 8192 × 1, written back in blocks of 512 rows.
  The block of grid point (i, j) is block i of the rows; it is written back at the last point of each grid row,
  j = 15. Here: the printed index map decided over the grid, when an index of the array lies in a point's block,
  that the written-back blocks cover the array, and where a block's local index lands in the array.
-/
import proofs.«119381_j32710470926983_2_alg».proof.Proof.KI.Entry
import Idealize.ShloMosaic.Lib.Pipeline.Value
import Idealize.ShloMosaic.Lib.ValueIdx

noncomputable section

namespace Cert.KernelIdeal.OutBlock

open Cert.KernelIdeal Cert.KernelIdeal.Gen Idealize.ShloMosaic Idealize.ShloMosaic.TcCoe Idealize.ShloMosaic.ValueIdx Idealize.SL.Sem

/-- The printed index map of the output window, decided over the grid: the block index is (first grid coordinate, 0);
    a point's number is sixteen times its first coordinate plus its second; both coordinates are below sixteen. -/
theorem idx4 : ∀ t : Fin cfg0.N, win0_4.index t (0 : Fin 2) = (grid0.coords t (0 : Fin 2)).val
    ∧ win0_4.index t (1 : Fin 2) = 0
    ∧ t.val = 16 * (grid0.coords t (0 : Fin 2)).val + (grid0.coords t (1 : Fin 2)).val
    ∧ (grid0.coords t (0 : Fin 2)).val < 16
    ∧ (grid0.coords t (1 : Fin 2)).val < 16 :=
  (by decide +kernel : ∀ t : Fin grid0.N, _)

/-- An index of the array is in point `t`'s block iff each coordinate is in the block's range on its axis. -/
theorem mem_blk4 (t : Fin cfg0.N) (i : S8192x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v11).slice (win0_4.rect t)).set ↔ _
  rw [View.set_slice_whole, Rect.mem_set_unit]
  exact Iff.rfl

/-- Every index of the array is in the block of a point at which the window is written back: row `R` is in the block of
    the last point of grid row `R / 512`. -/
theorem cover4 : ∀ i : S8192x1.Idx, ∃ t : Fin cfg0.N, (cfg0.win 4).flush t = true ∧ i ∈ ((cfg0.win 4).blk t).view.set := by
  intro i
  have hi0 : (i 0).val < 8192 := (i 0).isLt
  have hi1 : (i 1).val < 1 := (i 1).isLt
  have hN : cfg0.N = 256 := N_0
  obtain ⟨t, ht⟩ : ∃ t : Fin cfg0.N, t.val = 16 * ((i 0).val / 512) + 15 := ⟨⟨16 * ((i 0).val / 512) + 15, by rw [hN]; omega⟩, rfl⟩
  obtain ⟨e0, e1, e2, e3, e4⟩ := idx4 t
  refine ⟨t, (flush0_4 t).mpr (by omega), ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1 ≤ (i 1).val ∧ (i 1).val < win0_4.index t (1 : Fin 2) * 1 + 1; omega

/-- Where a block's local index lands: local row `r` of point `t`'s block is row 512 · (first grid coordinate) + `r` of
    the array. -/
theorem emb4 (t : Fin cfg0.N) (r : Fin 512) (z : Fin 1) (R : Fin 8192)
    (hR : R.val = 512 * (grid0.coords t (0 : Fin 2)).val + r.val) :
    ((cfg0.win 4).blk t).view.emb (ix2 r z) = (ix2 R z : S8192x1.Idx) := by
  obtain ⟨e0, e1, e2, e3, e4⟩ := idx4 t
  funext a
  apply Fin.ext
  match a with
  | ⟨0, _⟩ => show win0_4.index t (0 : Fin 2) * 512 + 1 * r.val = R.val; omega
  | ⟨1, _⟩ => show win0_4.index t (1 : Fin 2) * 1 + 1 * z.val = z.val; omega

end Cert.KernelIdeal.OutBlock

end
-- ==== Proof.KI.Launch.lean ====
/-
  The run of @main from a body obligation.

  @main is thirteen host operations (the row norms, the normalised features cast to bf16, two reshapes of the labels),
  ONE kernel region over a 16 x 16 grid, and five host operations (the sum of the region's output array, its division
  by the row count, the negation). The region's first two input windows read ONE array (the normalised features, as
  row blocks and as column blocks), so the buffers behind the windows' arrays are four for five windows: at the
  region's entry the shared array's points-to is split in its two halves, one per window, and each other array is
  held whole. The output array is held whole, so the host operations after the region may read it; they run within
  that array and the buffers that bypass the region.

  `run_main_of`: for ANY proof data of the region that reads its arrays off the contents the earlier host operations
  leave, holds the shared array in halves, owes nothing, meets the body obligation, and keeps an invariant made from
  (and giving back) the scratch buffers and the generator register — every weakly fair execution of @main terminates,
  the result buffer holds what the later host operations compute from the region's output array (`result_eq`: the
  negated mean), and both arguments are as launched.
-/
import proofs.«119381_j32710470926983_2_alg».proof.Proof.KI.Entry
import proofs.«119381_j32710470926983_2_alg».proof.Proof.LibHalves
import Idealize.ShloMosaic.Lib.Pipeline.FrameSuffix
import Idealize.ShloMosaic.Lib.Pipeline.Kit

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The windows' arrays, one by one. -/
theorem arrays_open (c : Dev nD) (dat : Dat τ (Elt F) Unit ℕ (UR sig nD τ) ℕ cfg0 c) (hq : dat.q = sharedPair5)
    (A : (w : Fin cfg0.W) → Buf (Elt F) ((cfg0.win w).arr.view.loc (c : Thread nD τ))) :
    (dat.arrays A : sProp 𝕄) = iprop((((c : Thread nD τ).loc main_v8) ↦{fullShare.left} A 0) ∗ (((c : Thread nD τ).loc main_v8) ↦{fullShare.right} A 1)
      ∗ (((c : Thread nD τ).loc main_v9) ↦{fullShare} A 2) ∗ (((c : Thread nD τ).loc main_v10) ↦{fullShare} A 3) ∗ (((c : Thread nD τ).loc main_v11) ↦{fullShare} A 4)) := by
  unfold Pipeline.Dat.arrays Pipeline.Dat.share
  rw [bigSep_W0, hq, (arr_whole0 0).set_eq_univ, (arr_whole0 2).set_eq_univ, (arr_whole0 3).set_eq_univ, (arr_whole0 4).set_eq_univ]
  rfl

/-- The contents when the region is left: as it found them, the result array at `A4`. -/
def V1 (c : Dev nD) (A4 : Buf (Elt F) ((c : Thread nD τ).loc main_v11)) : Valuation τ sig (Elt F) :=
  Function.update (V0 m c) (Proc.devRef .tc main_v11) A4

/-- The buffers the lines after the region run within: the result array and the buffers that bypass the region. -/
def S1 : Finset (DevRef τ sig) :=
  (insert main_v11 (Pipeline.restRefs sig spec0)).map ⟨Proc.devRef (sig := sig) .tc, Proc.devRef_injective _⟩

theorem v11_not_rest : main_v11 ∉ Pipeline.restRefs sig spec0 := fun h =>
  (Finset.mem_sdiff.mp h).2 (Finset.mem_image.mpr ⟨4, Finset.mem_univ _, rfl⟩)

theorem ne_v11_of_rest {b : Ref sig .tc} (hb : b ∈ Pipeline.restRefs sig spec0) : b ≠ main_v11 := fun e => v11_not_rest (e ▸ hb)

theorem held_S1 (c : Dev nD) (W : Valuation τ sig (Elt F)) :
    (StableHlo.held (c : Thread nD τ) S1 W : sProp 𝕄)
      = iprop((((c : Thread nD τ).loc main_v11) ↦{fullShare} W (Proc.devRef .tc main_v11))
          ∗ Pipeline.unscopedRest spec0 c (fun b => W (Proc.devRef .tc b))) := by
  classical
  unfold StableHlo.held S1 Pipeline.unscopedRest
  rw [bigSep_map, bigSep_insert v11_not_rest]
  rfl

theorem mem_S1_v11 : Proc.devRef (τ := τ) .tc main_v11 ∈ S1 :=
  Finset.mem_map_of_mem _ (Finset.mem_insert_self _ _)

theorem mem_S1_of {b : Ref sig .tc} (hs : b.isScoped = false) (ha : ∀ w, (spec0 w).arr.view.ref ≠ b) :
    Proc.devRef (τ := τ) .tc b ∈ S1 :=
  Finset.mem_map_of_mem _ (Finset.mem_insert_of_mem (Pipeline.mem_restRefs_of b hs ha))

/-- The lines after the region touch the result array and bypassing buffers only. -/
theorem hostOps1_S1 : ∀ ops ∈ ([hostOps1] : List (List (HloOp τ sig (Elt F)))), ∀ op ∈ ops, op.bufs ⊆ S1 := by
  intro ops hops op hop
  simp only [List.mem_cons, List.mem_nil_iff, or_false] at hops
  subst hops
  simp only [List.mem_cons, List.mem_nil_iff, or_false] at hop
  rcases hop with rfl | rfl | rfl | rfl | rfl <;>
    simp only [StableHlo.nullary_bufs, StableHlo.unary_bufs, StableHlo.binary_bufs, Finset.insert_subset_iff, Finset.singleton_subset_iff] <;>
    (repeat' apply And.intro) <;>
    first | exact mem_S1_v11 | exact mem_S1_of rfl (by decide)

theorem hostOps1_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- A buffer that is the result of no line after the region is not written by them. -/
theorem not_written1 (b : Ref sig .tc) (hb : b ≠ main_cst_1 ∧ b ≠ main_v12 ∧ b ≠ main_cst_2 ∧ b ≠ main_v13 ∧ b ≠ main_v14) :
    ∀ op ∈ (hostOps1 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.binary_writes, StableHlo.nullary_writes, Finset.mem_singleton] <;>
    exact StableHlo.devRef_ne_of_ne ‹_›

/-- A buffer that is the result of no line before the region is not written by them. -/
theorem not_written0 (b : Ref sig .tc) (hb : b ≠ main_v0 ∧ b ≠ main_cst ∧ b ≠ main_v1 ∧ b ≠ main_v2 ∧ b ≠ main_v3 ∧ b ≠ main_cst_0 ∧ b ≠ main_v4
      ∧ b ≠ main_v5 ∧ b ≠ main_v6 ∧ b ≠ main_v7 ∧ b ≠ main_v8 ∧ b ≠ main_v9 ∧ b ≠ main_v10) :
    ∀ op ∈ (hostOps0 (F := F)), Proc.devRef .tc b ∉ op.writes := by
  obtain ⟨h0, h1, h2, h3, h4, h5, h6, h7, h8, h9, h10, h11, h12⟩ := hb
  intro op hop
  simp only [List.mem_cons, List.mem_nil_iff, or_false] at hop
  rcases hop with rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

theorem V1_v11 (c : Dev nD) (A4 : Buf (Elt F) ((c : Thread nD τ).loc main_v11)) :
    V1 m c A4 (Proc.devRef .tc main_v11) = A4 := by
  unfold V1; rw [Function.update_self]

theorem V1_of_ne (c : Dev nD) (A4 : Buf (Elt F) ((c : Thread nD τ).loc main_v11)) (b : Ref sig .tc) (hb : b ≠ main_v11) :
    V1 m c A4 (Proc.devRef .tc b) = V0 m c (Proc.devRef .tc b) := by
  unfold V1; rw [Function.update_of_ne (StableHlo.devRef_ne_of_ne hb)]

/-- At the region's exit the bypassing buffers are as the region found them. -/
theorem rest_exit (c : Dev nD) (A4 : Buf (Elt F) ((c : Thread nD τ).loc main_v11)) :
    (Pipeline.unscopedRest spec0 c (fun b => V1 m c A4 (Proc.devRef .tc b)) : sProp 𝕄) = Pipeline.unscopedRest spec0 c (V m c) := by
  unfold Pipeline.unscopedRest
  exact bigSep_congr fun b hb => by beta_reduce; rw [V1_of_ne m c A4 b (ne_v11_of_rest hb)]

theorem held_S1_exit (c : Dev nD) (A4 : Buf (Elt F) ((c : Thread nD τ).loc main_v11)) :
    (StableHlo.held (c : Thread nD τ) S1 (V1 m c A4) : sProp 𝕄)
      = iprop((((c : Thread nD τ).loc main_v11) ↦{fullShare} A4) ∗ Pipeline.unscopedRest spec0 c (V m c)) := by
  rw [held_S1, V1_v11, rest_exit]

theorem held_S1_after (c : Dev nD) (A4 : Buf (Elt F) ((c : Thread nD τ).loc main_v11)) :
    (StableHlo.held (c : Thread nD τ) S1 (StableHlo.after hostOps1 (V1 m c A4)) : sProp 𝕄)
      = iprop((((c : Thread nD τ).loc main_v11) ↦{fullShare} A4)
          ∗ Pipeline.unscopedRest spec0 c (fun b => StableHlo.after hostOps1 (V1 m c A4) (Proc.devRef .tc b))) := by
  rw [held_S1, StableHlo.after_of_forall_not_mem _ _ (not_written1 main_v11 (by decide)), V1_v11]

set_option backward.isDefEq.respectTransparency.types false in
/-- The lines after the region, run from the region's exit: the windows' arrays at `A` (the result's whole, so that
    the lines may read it) and the bypassing buffers as the region found them; they give the arrays back and leave
    the bypassing buffers at the lines' results. -/
theorem tail_run (𝒱₀ : Variants) (c : Dev nD) (dat : Dat τ (Elt F) Unit ℕ (UR sig nD τ) ℕ cfg0 c) (hq : dat.q = sharedPair5)
    (A : (w : Fin cfg0.W) → Buf (Elt F) ((cfg0.win w).arr.view.loc (c : Thread nD τ))) (Q' : PUnit → sProp 𝕄) :
    iprop((iprop(dat.arrays A ∗ Pipeline.unscopedRest spec0 c (fun b => StableHlo.after hostOps1 (V1 m c (A 4)) (Proc.devRef .tc b))) -∗ Q' ⟨⟩)
        ∗ boundary (c : Thread nD τ) ∗ dat.arrays A ∗ Pipeline.unscopedRest spec0 c (V m c))
      ⊢ wp frame (wpE (defs (F := F)) (Variants.lift 𝒱₀) (c : Thread nD τ) none) Set.univ (Pipeline.chain [StableHlo.seq hostOps1]) Q' := by
  classical
  have hseq := Pipeline.wp_seqs_then (pcfgs (F := F)) defs₀ 𝒱₀ c S1 [] [hostOps1] hostOps1_S1 hostOps1_fresh' (V1 m c (A 4)) (K := Q')
  rw [show ([hostOps1] : List (List (HloOp τ sig (Elt F)))).flatten = hostOps1 from by simp only [List.flatten_cons, List.flatten_nil, List.append_nil],
    Pipeline.chain_nil, wp_pure, held_S1_exit, held_S1_after] at hseq
  rw [arrays_open c dat hq A]
  iintro ⟨Hk, Hb, ⟨H0, H1, H2, H3, H4⟩, HZ⟩
  iapply hseq $$ [Hb H4 HZ]
  · isplitl [Hb]; · iexact Hb
    isplitl [H4] <;> iassumption
  iintro ⟨Hb, H4, HZ⟩
  imodintro
  iapply Hk
  isplitr [HZ]
  · isplitl [H0]; · iexact H0
    isplitl [H1]; · iexact H1
    isplitl [H2]; · iexact H2
    isplitl [H3]; · iexact H3
    iexact H4
  · iexact HZ

/-- The distinct buffers behind the windows' arrays, one by one. -/
theorem arrBufs_open (c : Dev nD) (W : (b : Ref sig .tc) → Buf (Elt F) ((c : Thread nD τ).loc b)) :
    (Pipeline.arrBufs spec0 c W : sProp 𝕄)
      = iprop((((c : Thread nD τ).loc main_v8) ↦{fullShare} W main_v8) ∗ (((c : Thread nD τ).loc main_v9) ↦{fullShare} W main_v9)
          ∗ (((c : Thread nD τ).loc main_v10) ↦{fullShare} W main_v10) ∗ (((c : Thread nD τ).loc main_v11) ↦{fullShare} W main_v11)) := by
  unfold Pipeline.arrBufs
  exact bigSep_eq_bigSepL_of_eq [main_v8, main_v9, main_v10, main_v11] (by decide) (by decide) _

/-- ENTRY: the four buffers behind the five windows' arrays, each whole, make the windows' arrays at their shares —
    the array the first two windows read split in its two halves. -/
theorem hsplit_of (c : Dev nD) (dat : Dat τ (Elt F) Unit ℕ (UR sig nD τ) ℕ cfg0 c) (hq : dat.q = sharedPair5)
    (hA : ∀ w, dat.A w = V m c (Pipeline.arrRef spec0 w)) :
    (Pipeline.arrBufs spec0 c (V m c) : sProp 𝕄) ⊢ dat.arrays (dat.arrAt · 0) := by
  have e0 : dat.arrAt 0 0 = V m c main_v8 := hA 0
  have e1 : dat.arrAt 1 0 = V m c main_v8 := hA 1
  have e2 : dat.arrAt 2 0 = V m c main_v9 := hA 2
  have e3 : dat.arrAt 3 0 = V m c main_v10 := hA 3
  have e4 : dat.arrAt 4 0 = V m c main_v11 := hA 4
  rw [arrBufs_open, arrays_open c dat hq]
  rw [e0, e1, e2, e3, e4]
  iintro ⟨H8, H9, H10, H11⟩
  ihave H8' := (pointsTo_share (PosShare.mem_left_op_right fullShare)).1 $$ H8
  icases H8' with ⟨H8l, H8r⟩
  isplitl [H8l]; · iexact H8l
  isplitl [H8r]; · iexact H8r
  isplitl [H9]; · iexact H9
  isplitl [H10]; · iexact H10
  iexact H11

set_option backward.isDefEq.respectTransparency.types false in
/-- THE RUN OF @main, for any proof data of the region that reads its arrays off the contents the host lines before
    it leave (`hA`), holds the array its first two windows share in halves (`hq`), owes nothing, meets the body
    obligation and keeps an invariant made from, and giving back, the scratch buffers and the generator register:
    every weakly fair execution terminates, the result is what the host lines after the region compute from the
    region's output array, and both arguments are as launched. -/
theorem run_main_of (dats : (p : Fin 1) → (c : Dev nD) → Dat τ (Elt F) Unit ℕ (UR sig nD τ) ℕ (cfgs p) c)
    (hA : ∀ c w, (dats 0 c).A w = V m c (Pipeline.arrRef spec0 w))
    (hq : ∀ c, (dats 0 c).q = sharedPair5)
    (howed : ∀ c t, (dats 0 c).owed t = 0)
    (hbody : ∀ c, Pipeline.BodyObligationLoose (dats 0 c) defs₀ Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c : Thread nD τ).loc main_v14)
          = StableHlo.after hostOps1 (V1 m c ((dats 0 c).arrAt 4 cfg0.N)) (Proc.devRef .tc main_v14)
        ∧ r.2.mem ((c : Thread nD τ).loc main_arg0) = m ((c : Thread nD τ).loc main_arg0)
        ∧ r.2.mem ((c : Thread nD τ).loc main_arg1) = m ((c : Thread nD τ).loc main_arg1)) := by
  classical
  exact Pipeline.θ_run_region_pf_tail (fun p => (cfgs p).toPCfg) (fun p => (cfgs p).toPCfg_adm) dats () cellOf_inj 0 winFacts₀0
    (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit_of m c (dats 0 c) (hq c) (hA c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
        (fun b => StableHlo.after hostOps1 (V1 m c ((dats 0 c).arrAt 4 cfg0.N)) (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m Variants.none c (dats 0 c) (hq c) _ Q')
    (QY := fun c s => ∀ b ∈ Pipeline.restRefs sig spec0,
      s.mem ((c : Thread nD τ).loc b) = StableHlo.after hostOps1 (V1 m c ((dats 0 c).arrAt 4 cfg0.N)) (Proc.devRef .tc b))
    (hY := fun c s' => by
      iintro ⟨-, HU, HSI⟩
      unfold Pipeline.unscopedRest
      imodintro
      iapply (pointsTo_read_all (Pipeline.restRefs sig spec0) (fun b => (c : Thread nD τ).loc b)
        (fun b => StableHlo.after hostOps1 (V1 m c ((dats 0 c).arrAt 4 cfg0.N)) (Proc.devRef .tc b)) s')
      isplitl [HU] <;> iassumption)
    (hQ := fun s h c => ⟨(h c).2.2 main_v14 (Pipeline.mem_restRefs_of main_v14 rfl (by decide)),
      ((h c).2.2 main_arg0 (Pipeline.mem_restRefs_of main_arg0 rfl (by decide))).trans
        ((StableHlo.after_of_forall_not_mem _ _ (not_written1 main_arg0 (by decide))).trans
          ((V1_of_ne m c _ main_arg0 (by decide)).trans
            (StableHlo.after_of_forall_not_mem (b := Proc.devRef .tc main_arg0) hostOps0 _ (not_written0 main_arg0 (by decide))))),
      ((h c).2.2 main_arg1 (Pipeline.mem_restRefs_of main_arg1 rfl (by decide))).trans
        ((StableHlo.after_of_forall_not_mem _ _ (not_written1 main_arg1 (by decide))).trans
          ((V1_of_ne m c _ main_arg1 (by decide)).trans
            (StableHlo.after_of_forall_not_mem (b := Proc.devRef .tc main_arg1) hostOps0 _ (not_written0 main_arg1 (by decide)))))⟩)

/-- info: 'Cert.KernelIdeal.Gen.run_main_of' depends on axioms: [propext, Classical.choice, Quot.sound] -/
#guard_msgs in #print axioms run_main_of

/-- The result, computed: the negated mean of the region's output array. -/
theorem result_eq (c : Dev nD) (A4 : Buf (Elt F) ((c : Thread nD τ).loc main_v11)) :
    StableHlo.after hostOps1 (V1 m c A4) (Proc.devRef .tc main_v14)
      = Host.negf (Host.divf (Host.reduceAdd (A4 : (⟨S8192x1, .f32⟩ : BufTy).Contents (Elt F)) (constant S_ .f32 0x00000000#32) reducesTo_S8192x1_S_d0_1 h_S_)
          (constant S_ .f32 0x46000000#32)) := by
  after_results
  rw [V1_v11]

end Cert.KernelIdeal.Gen

end
-- ==== Proof.KI.Body.lean ====
/-
  The body obligation: at every grid point the body, from the invariant and the windows' current buffers, runs
  to the invariant of the next point and the buffers as the proof data says — by the run of the point's case.
-/
import proofs.«119381_j32710470926983_2_alg».proof.Proof.KI.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  by_cases h0 : t.val % 16 = 0
  ·
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4 t (fun h => by have := (hcond0_1 t).mp h; omega)) (noFlush0_4 t (fun h => by have := (hcond0_1 t).mp h; omega))]
    rw [outsAt0_A m c t h0]
    unfold valsA accAt; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩⟩
      iapply ((ptA m c t h0).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverA_0 m c t h0)
          isplitl [HS1]
          · unfold owns; iexists _; isplitr
            swap; · iexact HS1
            ipureintro; exact View.read_writes_of_cover _ _ _ _ _ (scoverA_1 m c t h0)
          unfold owns; iexists _; isplitr
          swap; · iexact HS2
          ipureintro; exact View.read_writes_of_cover _ _ _ _ _ (scoverA_2 m c t h0)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c t hz]; unfold accAt
      iintro ⟨⟨⟨HS0, HS1, HS2⟩, Hg⟩, Ho, ⟨%d0, H0⟩, ⟨%d1, H1⟩, ⟨%d2, H2⟩, ⟨%d3, H3⟩, ⟨%d4, H4⟩⟩
      iapply ((ptA m c t h0).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverA_0 m c t h0)
          isplitl [HS1]
          · unfold owns; iexists _; isplitr
            swap; · iexact HS1
            ipureintro; exact View.read_writes_of_cover _ _ _ _ _ (scoverA_1 m c t h0)
          unfold owns; iexists _; isplitr
          swap; · iexact HS2
          ipureintro; exact View.read_writes_of_cover _ _ _ _ _ (scoverA_2 m c t h0)
        iexact Hg
      isplitl [Ho]; · iexact Ho
      isplitl [H0]; · iexact H0
      isplitl [H1]; · iexact H1
      isplitl [H2]; · iexact H2
      isplitl [H3]; · iexact H3
      iexists _; iexact H4

  · by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold valsC accAt; (try dsimp only)
      have hz : t.val ≠ 0 := fun e => h0 (by rw [e])
      rw [PhiS_castSucc m c t, PhiS_pos m c t hz]; unfold accAt
      iintro ⟨⟨⟨HS0, HS1, HS2⟩, Hg⟩, Ho, ⟨%d0, H0⟩, ⟨%d1, H1⟩, ⟨%d2, H2⟩, ⟨%d3, H3⟩, ⟨%d4, H4⟩⟩
      iapply ((ptC m c t h0 h1 _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverC_0 m c t h0 h1 _ _ _)
          isplitl [HS1]
          · unfold owns; iexists _; isplitr
            swap; · iexact HS1
            ipureintro; exact View.read_writes_of_cover _ _ _ _ _ (scoverC_1 m c t h0 h1 _ _ _)
          unfold owns; iexists _; isplitr
          swap; · iexact HS2
          ipureintro; exact View.read_writes_of_cover _ _ _ _ _ (scoverC_2 m c t h0 h1 _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 m c t h0 h1 _ _ _)

    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold valsB accAt; (try dsimp only)
      have hz : t.val ≠ 0 := fun e => h0 (by rw [e])
      rw [PhiS_castSucc m c t, PhiS_pos m c t hz]; unfold accAt
      iintro ⟨⟨⟨HS0, HS1, HS2⟩, Hg⟩, Ho, ⟨%d0, H0⟩, ⟨%d1, H1⟩, ⟨%d2, H2⟩, ⟨%d3, H3⟩, ⟨%d4, H4⟩⟩
      iapply ((ptB m c t h0 h1 _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverB_0 m c t h0 h1 _ _ _)
          isplitl [HS1]
          · unfold owns; iexists _; isplitr
            swap; · iexact HS1
            ipureintro; exact View.read_writes_of_cover _ _ _ _ _ (scoverB_1 m c t h0 h1 _ _ _)
          unfold owns; iexists _; isplitr
          swap; · iexact HS2
          ipureintro; exact View.read_writes_of_cover _ _ _ _ _ (scoverB_2 m c t h0 h1 _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos' m c _ _ ht, PhiA0_eq]; unfold accAt
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 256 := N_0; omega)

end Cert.KernelIdeal.Gen

end
-- ==== Proof.KI.Tail.lean ====
import proofs.«119381_j32710470926983_2_alg».proof.Proof.Gen.KernelIdeal
import proofs.«119381_j32710470926983_2_alg».proof.Proof.Spec
import Idealize.ShloMosaic.PureOps.Ideal.Laws
import Idealize.ShloMosaic.Lib.ValueIdx

/-!
# The operations after the kernel's call, as a value

The column of row losses is summed over both of its axes from the zero pattern, divided by the number
of rows and negated. The sum over the index set of an 8192 by 1 array is the sum over its 8192 rows.
When the column holds the rows' losses the result is the loss.
-/

noncomputable section

namespace Cert.KITail

open Cert Cert.KernelIdeal Cert.KernelIdeal.Facts₀ Cert.KernelIdeal.Facts Idealize.ShloMosaic Idealize.ShloMosaic.ValueIdx

variable [Cert.KernelIdeal.Facts]

/-- The sum of the column over both axes, from the zero pattern, is the zero pattern plus the sum over the rows. -/
theorem reduce_at (o : (⟨S8192x1, .f32⟩ : BufTy).Contents (Elt Ideal)) (u : S_.Idx) :
    Host.reduceAdd (F := Ideal) o (constant (F := Ideal) S_ .f32 0x00000000#32) reducesTo_S8192x1_S_d0_1 h_S_ u
      = Spec.zero + ∑ i : Fin 8192, o (ix2 i 0) := by
  simp only [Host.reduceAdd, Ideal.hostReduceAdd_def]
  rw [Ideal.hostReduceAdd_total reducesTo_S8192x1_S_d0_1 (fun b => b.elim0)]
  refine congrArg₂ (· + ·) rfl ?_
  rw [sum_idx2]
  exact Finset.sum_congr rfl fun a _ => Fin.sum_univ_one _

/-- The operations after the call: minus the mean of the column. -/
theorem tail_value (o : (⟨S8192x1, .f32⟩ : BufTy).Contents (Elt Ideal)) :
    Host.negf (F := Ideal) (Host.divf
        (Host.reduceAdd o (constant (F := Ideal) S_ .f32 0x00000000#32) reducesTo_S8192x1_S_d0_1 h_S_)
        (constant (F := Ideal) S_ .f32 0x46000000#32))
      = fun _ => -(Ideal.div (Spec.zero + ∑ i : Fin 8192, o (ix2 i 0)) Spec.nRows) := by
  funext u
  show -(Ideal.div (Host.reduceAdd (F := Ideal) o (constant (F := Ideal) S_ .f32 0x00000000#32)
    reducesTo_S8192x1_S_d0_1 h_S_ u) (Ideal.ofBits .f32 0x46000000#32)) = _
  rw [reduce_at]
  rfl

/-- When the column holds the rows' losses, the operations after the call give the loss. -/
theorem tail_loss (o : (⟨S8192x1, .f32⟩ : BufTy).Contents (Elt Ideal))
    (x : Fin 8192 → Fin 256 → EReal) (l : Fin 8192 → BitVec 32)
    (ho : ∀ i : Fin 8192, o (ix2 i 0) = Spec.rowLoss x l i) :
    Host.negf (F := Ideal) (Host.divf
        (Host.reduceAdd o (constant (F := Ideal) S_ .f32 0x00000000#32) reducesTo_S8192x1_S_d0_1 h_S_)
        (constant (F := Ideal) S_ .f32 0x46000000#32))
      = fun _ => Spec.loss x l := by
  rw [tail_value]
  have hs : ∑ i : Fin 8192, o (ix2 i 0) = ∑ i : Fin 8192, Spec.rowLoss x l i :=
    Finset.sum_congr rfl fun i _ => ho i
  rw [hs]
  rfl

end Cert.KITail

end
-- ==== Proof.KI.Value.lean ====
/-
  The kernel's result. After the last point of each grid row the output block holds, row by row, the row loss
  computed from the three whole sums; the sixteen blocks written back tile the output array, so it ends holding
  the row losses of all 8192 rows; the host operations after the call sum them, divide by the row count and
  negate: the loss.
-/
import proofs.«119381_j32710470926983_2_alg».proof.Proof.KI.Row
import proofs.«119381_j32710470926983_2_alg».proof.Proof.KI.Step
import proofs.«119381_j32710470926983_2_alg».proof.Proof.KI.OutBlock
import proofs.«119381_j32710470926983_2_alg».proof.Proof.KI.Launch
import proofs.«119381_j32710470926983_2_alg».proof.Proof.KI.Body
import proofs.«119381_j32710470926983_2_alg».proof.Proof.KI.Tail

set_option maxRecDepth 16384

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.BlockChain

variable (m : (ℓ : Loc nD τ sig) → Buf (Elt Ideal) ℓ)

variable (ρ : Dev nD → PrngReg)

/-- The launched features and labels, by coordinates. -/
abbrev X (c : Dev nD) : Fin 8192 → Fin 256 → EReal := fun i k => m ((c : Thread nD τ).loc main_arg0) (ix2 i k)
abbrev L (c : Dev nD) : Fin 8192 → BitVec 32 := fun i => m ((c : Thread nD τ).loc main_arg1) (ix1 i)

/-- The summands of matrix row `R`: positive similarities, exponentials off the diagonal, positives. -/
def g0 (c : Dev nD) (R j : Fin 8192) : EReal := Cert.Spec.pos (L m c) R j * Cert.Spec.lg (X m c) R j
def g1 (c : Dev nD) (R j : Fin 8192) : EReal := Ideal.exp (Cert.Spec.lg (X m c) R j) * Cert.Spec.off R j
def g2 (c : Dev nD) (R j : Fin 8192) : EReal := Cert.Spec.pos (L m c) R j

/-- What the output array ends holding: the row losses. -/
def G (c : Dev nD) : Buf (Elt Ideal) ((c : Thread nD τ).loc main_v11) :=
  fun i => Cert.Spec.rowLoss (X m c) (L m c) ⟨(i 0).val, (i 0).isLt⟩

theorem G_apply (c : Dev nD) (R : Fin 8192) : G m c (ix2 R (0 : Fin 1)) = Cert.Spec.rowLoss (X m c) (L m c) R := rfl

set_option maxHeartbeats 1600000 in
/-- What the last point of a grid row writes back is its block of the row losses. -/
theorem flushed_eq (c : Dev nD) (t : Fin cfg0.N) (hf : (cfg0.win 4).flush t = true) :
    (dats m 0 c).flushed 4 t = ((cfg0.win 4).blk t).view.read (Elt Ideal) (G m c) := by
  have h15 : t.val % 16 = 15 := (flush0_4 t).mp hf
  obtain ⟨ht, hI, hJ⟩ := Cert.KernelIdeal.Found.coords_facts t
  show (cfg0.win 4).cut (grid0.coords t) ((dats m 0 c).after 4 t) = _
  rw [after0_4, out_last m c t h15]
  funext y
  obtain ⟨r, z, rfl⟩ : ∃ (r : Fin 512) (z : Fin 1), y = ix2 r z := ⟨y 0, y 1, eq_ix2 y⟩
  obtain rfl : z = 0 := Subsingleton.elim _ _
  have hRlt : 512 * (grid0.coords t (0 : Fin 2)).val + r.val < 8192 := by omega
  rw [View.read_apply, Cert.KernelIdeal.OutBlock.emb4 t r 0 ⟨_, hRlt⟩ rfl, G_apply]
  show k0_pay4 (F := Ideal) _ _ _ _ (ix2 r (0 : Fin 1)) = _
  rw [Cert.KernelIdeal.Pay.pay4_apply]
  obtain ⟨a0, a1, a2⟩ := Cert.KernelIdeal.Row.accs_last m c (g0 m c) (g1 m c) (g2 m c)
    (fun t r R hR hJ s => Cert.KernelIdeal.Step.acc0_step m c t r R hR s) (fun t r R hR hJ s => Cert.KernelIdeal.Step.acc1_step m c t r R hR s)
    (fun t r R hR hJ s => Cert.KernelIdeal.Step.acc2_step m c t r R hR s) t.val t.isLt h15 r ⟨_, hRlt⟩ (by dsimp only; omega)
  rw [a0, a1, a2]
  rfl

/-- The output array after the run: the row losses. -/
theorem final (c : Dev nD) : (dats m 0 c).arrAt 4 cfg0.N = G m c :=
  (dats m 0 c).arrAt_eq_of_cover 4 (G m c) (fun t hf => flushed_eq m c t hf) Cert.KernelIdeal.OutBlock.cover4

/-- The kernel's run: the result is the loss of the launched features and labels, the arguments unchanged. -/
theorem run : θ_run defs (onTc (τ := τ) (main (F := Ideal))) ⟨m, fun _ => 0, ρ⟩ fun r => ∀ c : Dev nD,
      r.2.mem ((c.tc : Thread nD τ).loc main_v14) = (fun _ => Cert.Spec.loss (X m c) (L m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
      rw [result_eq, final]
      exact Cert.KITail.tail_loss (G m c) (X m c) (L m c) (fun i => G_apply m c i)), (h c).2⟩)
    (run_main_of m ρ (dats m) (A_eq m) (fun _ => rfl) (fun _ _ => rfl) (fun c => (body_obligation m c).loose) (hin m) (hout m))

end Cert.KernelIdeal.Value

end
-- ==== Proof.KI.Finite.lean ====
import proofs.«119381_j32710470926983_2_alg».proof.Defs
import proofs.«119381_j32710470926983_2_alg».proof.Proof.Gen.Pre_finite_inputs
import Idealize.ShloMosaic.Lib.ReduceAll
import Idealize.ShloMosaic.Lib.Pipeline.Value
import Idealize.ShloMosaic.Lib.ValueIdx
import Idealize.ShloMosaic.Lib.WordArith

/-!
# From the precondition to real features

The precondition says that the conjunction, over all entries of the feature matrix, of the test
"the absolute value is below plus infinity" is true. A conjunction that is true has every conjunct
true; the absolute value of an extended real is the larger of it and its negation, which is below plus
infinity exactly when the extended real is neither infinity: a real number.
-/

noncomputable section

namespace Cert.KIFinite

open Idealize.ShloMosaic Idealize.SL.Sem Idealize.ShloMosaic.ValueIdx

/-- The pattern of plus infinity denotes plus infinity. -/
theorem ofBits_inf : Ideal.ofBits .f32 0x7F800000#32 = ⊤ := by
  simp [Ideal.ofBits, Ideal.ieee]

/-- An extended real whose absolute value is below plus infinity is a real number. -/
theorem real_of_abs_lt_top (a : EReal) (h : max a (-a) < ⊤) : ∃ r : ℝ, a = (r : EReal) := by
  induction a using EReal.rec with
  | bot => exact absurd h (by rw [EReal.neg_bot, max_eq_right bot_le]; exact lt_irrefl _)
  | top => exact absurd h (by rw [max_eq_left (le_top)]; exact lt_irrefl _)
  | coe r => exact ⟨r, rfl⟩

/-- The rank-zero index set has one element. -/
instance : Subsingleton Cert.Pre_finite_inputs.S_.Idx := ⟨fun _ _ => funext fun d => d.elim0⟩

/-- When the printed finiteness test of two argument arrays is true, every feature is a real number. -/
theorem real_of_fn [hP : Cert.Pre_finite_inputs.Facts]
    (x0 : FVec Ideal Cert.Pre_finite_inputs.S8192x256 .f32) (x1 : IVec Cert.Pre_finite_inputs.S8192 32)
    (h : Cert.Pre_finite_inputs.fn (F := Ideal) x0 x1 = fun _ => 1#1) :
    ∀ i, ∃ r : ℝ, x0 i = (r : EReal) := by
  intro i
  have h0 := congrFun h ix0
  dsimp only [Cert.Pre_finite_inputs.fn] at h0
  have hi := Host.reduce_andi_all _ _ _ _ _ h0 i
  rw [cmpf_apply, broadcastInDim_apply _ _ _ i ix0 (fun a => a.elim0)] at hi
  have hi' : Ideal.cmp .olt (max (x0 i) (-(x0 i))) (Ideal.ofBits .f32 0x7F800000#32) = 1#1 := hi
  rw [ofBits_inf] at hi'
  unfold Ideal.cmp at hi'
  have hlt : max (x0 i) (-(x0 i)) < ⊤ := of_decide_eq_true ((WordArith.ofBool_eq_one_iff _).mp hi')
  exact real_of_abs_lt_top _ hlt

/-- Under the precondition every feature of the kernel's first argument is a real number. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ,
      m ((c.tc : Thread Cert.KernelIdeal.nD Cert.KernelIdeal.τ).loc Cert.KernelIdeal.main_arg0) i = (r : EReal) :=
  real_of_fn _ _ (h c)

end Cert.KIFinite

end
-- ==== Proof.RefMask.lean ====
import proofs.«119381_j32710470926983_2_alg».proof.Proof.RefRead
import proofs.«119381_j32710470926983_2_alg».proof.Proof.RefFeat

/-!
# The reference's masks, index by index

A comparison's bit converted to a float is 1 or 0; two row numbers below 8192 are equal as 32-bit words
exactly when they are equal. So the label mask, the identity matrix, its complement and the positive-pair
mask read at (i, j) are the specification's.
-/

noncomputable section

namespace Cert.RefValue

open Cert Cert.ReferenceIdeal Cert.ReferenceIdeal.Read Idealize.ShloMosaic Idealize.ShloMosaic.ValueIdx

/-- The bit of an equality test, converted to a float, is 1 when the words are equal and 0 otherwise. -/
theorem uitofp_cmpi_eq {w : Nat} (a b : BitVec w) :
    FloatOps.uitofp (F := Ideal) .f32 (IntOp.cmpi .eq a b) = if a = b then 1 else 0 := by
  show (((BitVec.ofBool (a == b)).toNat : ℝ) : EReal) = _
  by_cases h : a = b
  · subst h
    simp
  · have hb : (a == b) = false := by simpa using h
    rw [hb, if_neg h]
    simp

/-- Row numbers below 8192, as 32-bit words (the first plus the zero word), are equal exactly when they are. -/
theorem rowWord_eq_iff (i j : Fin 8192) :
    IntOp.addi (BitVec.ofNat 32 i.val) 0#32 = BitVec.ofNat 32 j.val ↔ i = j := by
  unfold IntOp.addi
  rw [BitVec.add_zero]
  constructor
  · intro h
    have h' := congrArg BitVec.toNat h
    rw [BitVec.toNat_ofNat, BitVec.toNat_ofNat] at h'
    have hi := i.isLt
    have hj := j.isLt
    exact Fin.ext (by omega)
  · rintro rfl
    rfl

variable (x1 : (⟨S8192, .i32⟩ : BufTy).Contents (Elt Ideal))

/-- The label mask at (i, j). -/
theorem same_at (i j : Fin 8192) :
    val_main_v17 (F := Ideal) x1 (ix2 i j) = Spec.same (Lb x1) i j := by
  have e1 : idx_main_v12 (idx_main_v14 (ix2 i j)) = ix1 i :=
    funext fun a => by match a with | ⟨0, _⟩ => rfl
  have e2 : idx_main_v13 (idx_main_v15 (ix2 i j)) = ix1 j :=
    funext fun a => by match a with | ⟨0, _⟩ => rfl
  rw [val_main_v17_apply, val_main_v16_apply, val_main_v14_apply, val_main_v15_apply, val_main_v12_apply,
    val_main_v13_apply, e1, e2, uitofp_cmpi_eq]
  rfl

/-- The identity matrix at (i, j). -/
theorem eye_at (i j : Fin 8192) :
    val_main_v23 (F := Ideal) (ix2 i j) = if i = j then 1 else 0 := by
  rw [val_main_v23_apply, val_main_v22_apply, val_main_v21_apply, val_main_v18_apply, val_main_v20_apply,
    val_main_c_apply, val_main_v19_apply, uitofp_cmpi_eq]
  exact if_congr (rowWord_eq_iff i j) rfl rfl

/-- One minus the identity matrix at (i, j). -/
theorem off_at (i j : Fin 8192) :
    val_main_v25 (F := Ideal) (ix2 i j) = Spec.off i j := by
  rw [val_main_v25_apply, val_main_v24_apply, val_main_cst_2_apply, eye_at]
  rfl

/-- The positive-pair mask at (i, j). -/
theorem pos_at (i j : Fin 8192) :
    val_main_v26 (F := Ideal) x1 (ix2 i j) = Spec.pos (Lb x1) i j := by
  rw [val_main_v26_apply, same_at, off_at]
  rfl

end Cert.RefValue

end
-- ==== Proof.LibRealValued.lean ====
/-
  Real-valued extended reals. A quantity is real-valued when it is the image of a real number, that is,
  neither of the two infinities. The arithmetic of the extended reals restricted to real-valued
  quantities is the arithmetic of the real numbers, and the exponential and the division by a nonzero
  real keep a real-valued argument real-valued.
-/
import Mathlib
import Idealize.ShloMosaic.PureOps.Ideal
import Idealize.ShloMosaic.PureOps.Ideal.Laws

namespace Cert.RealValued

open Idealize.ShloMosaic

/-- An extended real is real-valued when it is (the image of) a real number. -/
def IsReal (x : EReal) : Prop := ∃ r : ℝ, x = (r : EReal)

/-- The image of a real number is real-valued. -/
theorem IsReal.coe (r : ℝ) : IsReal (r : EReal) := ⟨r, rfl⟩

/-- Zero is real-valued. -/
theorem IsReal.zero : IsReal (0 : EReal) := ⟨0, EReal.coe_zero.symm⟩

/-- One is real-valued. -/
theorem IsReal.one : IsReal (1 : EReal) := ⟨1, EReal.coe_one.symm⟩

/-- A real-valued quantity is neither infinity. -/
theorem IsReal.ne_top {x : EReal} (hx : IsReal x) : x ≠ ⊤ := by
  obtain ⟨a, rfl⟩ := hx; exact EReal.coe_ne_top a

/-- A real-valued quantity is neither infinity. -/
theorem IsReal.ne_bot {x : EReal} (hx : IsReal x) : x ≠ ⊥ := by
  obtain ⟨a, rfl⟩ := hx; exact EReal.coe_ne_bot a

/-- The sum of two real-valued quantities is real-valued. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real-valued quantities is real-valued. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real-valued quantities is real-valued. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real-valued quantity is real-valued. -/
theorem IsReal.neg {x : EReal} (hx : IsReal x) : IsReal (-x) := by
  obtain ⟨a, rfl⟩ := hx
  exact ⟨-a, (EReal.coe_neg a).symm⟩

/-- The maximum of two real numbers, taken in the extended reals, is the image of their maximum. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The maximum of two real-valued quantities is real-valued. -/
theorem IsReal.max {x y : EReal} (hx : IsReal x) (hy : IsReal y) : IsReal (max x y) := by
  obtain ⟨a, rfl⟩ := hx; obtain ⟨b, rfl⟩ := hy
  exact ⟨Max.max a b, coe_max a b⟩

/-- A finite sum of real-valued quantities is real-valued. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add
      (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The exponential of a real-valued quantity is a positive real number. -/
theorem exp_coe_pos (r : ℝ) : ∃ e : ℝ, 0 < e ∧ Ideal.exp (r : EReal) = (e : EReal) :=
  ⟨Real.exp r, Real.exp_pos r, Ideal.exp_coe r⟩

/-- The exponential of a real-valued quantity is real-valued. -/
theorem isReal_exp {x : EReal} (h : IsReal x) : IsReal (Ideal.exp x) := by
  obtain ⟨a, rfl⟩ := h
  exact ⟨Real.exp a, Ideal.exp_coe a⟩

/-- A real-valued quantity divided by a nonzero real number is real-valued. -/
theorem isReal_div_coe {x : EReal} (h : IsReal x) {y : ℝ} (hy : y ≠ 0) :
    IsReal (Ideal.div x (y : EReal)) := by
  rw [Ideal.div_coe hy x]
  exact h.mul (IsReal.coe _)

end Cert.RealValued
-- ==== Proof.RefLaw.lean ====
import proofs.«119381_j32710470926983_2_alg».proof.Proof.LibRealValued

/-!
# The one algebraic law between the two arrangements of a row

A weighted sum of differences from a common constant is the weighted sum minus the total weight
times the constant, as soon as every quantity is real-valued.
-/

namespace Cert.RefValue

open Cert.RealValued

/-- On real-valued data, the sum of p j * (g j - L) is the sum of p j * g j minus (the sum of p j) * L. -/
theorem sum_mul_sub {ι : Type*} [Fintype ι] (p g : ι → EReal) (L : EReal)
    (hp : ∀ j, IsReal (p j)) (hg : ∀ j, IsReal (g j)) (hL : IsReal L) :
    ∑ j, p j * (g j - L) = ∑ j, p j * g j - (∑ j, p j) * L := by
  choose p' hp' using hp
  choose g' hg' using hg
  obtain ⟨L', rfl⟩ := hL
  simp only [hp', hg']
  simp only [← EReal.coe_sub, ← EReal.coe_mul, ← coe_sum]
  congr 1
  rw [Finset.sum_mul, ← Finset.sum_sub_distrib]
  exact Finset.sum_congr rfl fun j _ => mul_sub _ _ _

end Cert.RefValue
-- ==== Proof.RefReal.lean ====
import proofs.«119381_j32710470926983_2_alg».proof.Proof.RefConsts
import proofs.«119381_j32710470926983_2_alg».proof.Proof.RefLaw

/-!
# Real-valuedness of the quantities of the loss, and the row law

When every feature is a real number, the floored norm of a row is a positive real, so the normalised
features, the similarities and their scaled forms are real; the exponentials are positive reals, the
masks take the values 0 and 1, the sum of exponentials plus the small constant is a positive real, and
its logarithm is real. The row law then follows from the law on real-valued data.
-/

noncomputable section

namespace Cert.RefValue

open Cert.RealValued Cert.Spec Idealize.ShloMosaic

variable (x : Fin 8192 → Fin 256 → EReal) (l : Fin 8192 → BitVec 32)

/-- The floored norm of a row of reals is a positive real. -/
theorem nrm_pos (hx : ∀ i k, IsReal (x i k)) (i : Fin 8192) :
    ∃ r : ℝ, 0 < r ∧ nrm x i = (r : EReal) := by
  obtain ⟨e, he, hE⟩ := epsN_pos
  choose x' hx' using hx
  have hs : zero + ∑ k : Fin 256, x i k * x i k = ((∑ k : Fin 256, x' i k * x' i k : ℝ) : EReal) := by
    rw [zero_eq, zero_add, coe_sum]
    exact Finset.sum_congr rfl fun k _ => by rw [hx', EReal.coe_mul]
  have hnn : 0 ≤ ∑ k : Fin 256, x' i k * x' i k := Finset.sum_nonneg fun k _ => mul_self_nonneg _
  refine ⟨max (Real.sqrt (∑ k : Fin 256, x' i k * x' i k)) e, lt_max_of_lt_right he, ?_⟩
  unfold nrm
  rw [hs, Ideal.sqrt_coe, if_neg (not_lt.mpr hnn), hE, coe_max]

/-- The normalised features are real. -/
theorem fn_real (hx : ∀ i k, IsReal (x i k)) (i : Fin 8192) (k : Fin 256) : IsReal (fn x i k) := by
  obtain ⟨r, hr, hn⟩ := nrm_pos x hx i
  unfold fn
  rw [hn]
  exact isReal_div_coe (hx i k) hr.ne'

/-- The similarities are real. -/
theorem dot_real (hx : ∀ i k, IsReal (x i k)) (i j : Fin 8192) : IsReal (dot x i j) :=
  IsReal.sum _ _ fun k _ => (fn_real x hx i k).mul (fn_real x hx j k)

/-- The scaled similarities are real. -/
theorem lg_real (hx : ∀ i k, IsReal (x i k)) (i j : Fin 8192) : IsReal (lg x i j) :=
  (dot_real x hx i j).mul (IsReal.coe _)

/-- Off the diagonal is 0 or 1: a nonnegative real. -/
theorem off_nonneg (i j : Fin 8192) : ∃ r : ℝ, 0 ≤ r ∧ off i j = (r : EReal) := by
  unfold off
  rw [one_eq]
  by_cases h : i = j
  · rw [if_pos h]
    exact ⟨0, le_refl _, by rw [← EReal.coe_one, ← EReal.coe_sub, sub_self]⟩
  · rw [if_neg h]
    exact ⟨1, zero_le_one, by rw [← EReal.coe_one, ← EReal.coe_zero, ← EReal.coe_sub, sub_zero]⟩

/-- The positive-pair mask is real. -/
theorem pos_real (i j : Fin 8192) : IsReal (pos l i j) := by
  obtain ⟨r, _, hr⟩ := off_nonneg i j
  unfold pos same
  rw [hr]
  by_cases h : l i = l j
  · rw [if_pos h]; exact IsReal.one.mul (IsReal.coe _)
  · rw [if_neg h]; exact IsReal.zero.mul (IsReal.coe _)

/-- The sum of exponentials over the other rows is a nonnegative real. -/
theorem den_nonneg (hx : ∀ i k, IsReal (x i k)) (i : Fin 8192) :
    ∃ r : ℝ, 0 ≤ r ∧ den x i = (r : EReal) := by
  choose g hg using fun j => lg_real x hx i j
  choose o ho ho' using fun j => off_nonneg i j
  refine ⟨∑ j : Fin 8192, Real.exp (g j) * o j,
    Finset.sum_nonneg fun j _ => mul_nonneg (Real.exp_pos _).le (ho j), ?_⟩
  unfold den
  rw [coe_sum]
  exact Finset.sum_congr rfl fun j _ => by rw [hg, ho', Ideal.exp_coe, EReal.coe_mul]

/-- The logarithm of the sum of exponentials plus the small constant is real. -/
theorem logden_real (hx : ∀ i k, IsReal (x i k)) (i : Fin 8192) :
    IsReal (Ideal.log (den x i + epsL)) := by
  obtain ⟨d, hd, hD⟩ := den_nonneg x hx i
  obtain ⟨e, he, hE⟩ := epsL_pos
  rw [hD, hE, ← EReal.coe_add, Ideal.log_coe, if_neg (by linarith)]
  exact IsReal.coe _

/-- The row law: the reference's sum of mask times log-probability is the sum of the positive
    similarities minus the number of positives times the logarithm. -/
theorem row_law (hx : ∀ i k, IsReal (x i k)) (i : Fin 8192) :
    zero + ∑ j : Fin 8192, pos l i j * (lg x i j - Ideal.log (den x i + epsL))
      = spos x l i - cnt l i * Ideal.log (den x i + epsL) := by
  rw [zero_eq, zero_add]
  exact sum_mul_sub _ _ _ (pos_real l i) (lg_real x hx i) (logden_real x hx i)

end Cert.RefValue

end
-- ==== Proof.RefValue.lean ====
import proofs.«119381_j32710470926983_2_alg».proof.Proof.RefMask
import proofs.«119381_j32710470926983_2_alg».proof.Proof.RefReal

/-!
# The reference is the loss

Row by row: the sum of exponentials over the other rows, the logarithm of that sum plus the small
constant, the log-probabilities, their sum over the positive pairs, the number of positives and its
floor at one. With real features the row law turns the reference's row into the specification's, and
the mean over the rows, negated, is the loss.
-/

noncomputable section

namespace Cert.RefValue

open Cert Cert.ReferenceIdeal Cert.ReferenceIdeal.Read Idealize.ShloMosaic Idealize.ShloMosaic.ValueIdx

variable (x0 : (⟨S8192x256, .f32⟩ : BufTy).Contents (Elt Ideal))
  (x1 : (⟨S8192, .i32⟩ : BufTy).Contents (Elt Ideal))

/-- The exponential of the scaled similarity, off the diagonal. -/
theorem expOff_at (i j : Fin 8192) :
    val_main_v28 (F := Ideal) x0 (ix2 i j) = Ideal.exp (Spec.lg (X x0) i j) * Spec.off i j := by
  rw [val_main_v28_apply, val_main_v27_apply, lg_at, off_at]
  rfl

/-- The sum of exponentials over the other rows. -/
theorem den_at (i : Fin 8192) :
    val_main_v29 (F := Ideal) x0 (ix1 i) = Spec.den (X x0) i := by
  rw [val_main_v29_apply, val_main_cst_3_apply]
  show Ideal.ofBits .f32 0x00000000#32 + _ = _
  rw [Ideal.ofBits_zero_f32, zero_add]
  unfold Spec.den
  refine Finset.sum_congr rfl fun k _ => ?_
  have e : idx_main_v29 (ix1 i) k = ix2 i k :=
    funext fun a => by match a with | ⟨0, _⟩ => rfl | ⟨1, _⟩ => rfl
  rw [e, expOff_at]

/-- The logarithm of the sum of exponentials plus the small constant, in its column form. -/
theorem logden_at (i : Fin 8192) (z : Fin 1) :
    val_main_v33 (F := Ideal) x0 (ix2 i z) = Ideal.log (Spec.den (X x0) i + Spec.epsL) := by
  have e : idx_main_v30 (ix2 i z) = ix1 i :=
    funext fun a => by match a with | ⟨0, _⟩ => rfl
  rw [val_main_v33_apply, val_main_v32_apply, val_main_v30_apply, val_main_v31_apply, val_main_cst_4_apply,
    e, den_at]
  rfl

/-- The log-probability at (i, j). -/
theorem logprob_at (i j : Fin 8192) :
    val_main_v35 (F := Ideal) x0 (ix2 i j)
      = Spec.lg (X x0) i j - Ideal.log (Spec.den (X x0) i + Spec.epsL) := by
  have e : idx_main_v34 (ix2 i j) = ix2 i (⟨0, Nat.one_pos⟩ : Fin 1) :=
    funext fun a => by match a with | ⟨0, _⟩ => rfl | ⟨1, _⟩ => rfl
  rw [val_main_v35_apply, val_main_v34_apply, lg_at, e, logden_at]
  rfl

/-- The sum over the positive pairs of the log-probabilities of row i, from the zero pattern. -/
theorem possum_at (i : Fin 8192) :
    val_main_v37 (F := Ideal) x0 x1 (ix1 i)
      = Spec.zero + ∑ j : Fin 8192, Spec.pos (Lb x1) i j
          * (Spec.lg (X x0) i j - Ideal.log (Spec.den (X x0) i + Spec.epsL)) := by
  rw [val_main_v37_apply, val_main_cst_5_apply]
  show Ideal.ofBits .f32 0x00000000#32 + _ = Ideal.ofBits .f32 0x00000000#32 + _
  refine congrArg (_ + ·) (Finset.sum_congr rfl fun k _ => ?_)
  have e : idx_main_v37 (ix1 i) k = ix2 i k :=
    funext fun a => by match a with | ⟨0, _⟩ => rfl | ⟨1, _⟩ => rfl
  rw [e, val_main_v36_apply, pos_at, logprob_at]
  rfl

/-- The number of positives of row i. -/
theorem cnt_at (i : Fin 8192) :
    val_main_v38 (F := Ideal) x1 (ix1 i) = Spec.cnt (Lb x1) i := by
  rw [val_main_v38_apply, val_main_cst_6_apply]
  show Ideal.ofBits .f32 0x00000000#32 + _ = _
  rw [Ideal.ofBits_zero_f32, zero_add]
  unfold Spec.cnt
  refine Finset.sum_congr rfl fun k _ => ?_
  have e : idx_main_v38 (ix1 i) k = ix2 i k :=
    funext fun a => by match a with | ⟨0, _⟩ => rfl | ⟨1, _⟩ => rfl
  rw [e, pos_at]

/-- The number of positives floored at one. -/
theorem clip_at (i : Fin 8192) :
    val_main_v39 (F := Ideal) x1 (ix1 i) = max Spec.one (Spec.cnt (Lb x1) i) := by
  rw [val_main_v39_apply, val_main_call0_v1_apply, val_main_call0_v0_apply, val_main_cst_7_apply, cnt_at]
  rfl

/-- With real features, the reference's row i is the specification's. -/
theorem row_at (hx : ∀ i k, Cert.RealValued.IsReal (X x0 i k)) (i : Fin 8192) :
    val_main_v40 (F := Ideal) x0 x1 (ix1 i) = Spec.rowLoss (X x0) (Lb x1) i := by
  rw [val_main_v40_apply, possum_at, clip_at, row_law (X x0) (Lb x1) hx i]
  rfl

/-- A rank-one index set of extent 8192 is its coordinate's range. -/
def idxEquiv1 : S8192.Idx ≃ Fin 8192 where
  toFun j := j 0
  invFun a := ix1 a
  left_inv j := (eq_ix1 j).symm
  right_inv _ := rfl

/-- THE REFERENCE IS THE LOSS: with real features, the reference's result is the specification's loss
    of the features by row and column and the labels by row. -/
theorem ref_eq_loss (hfin : ∀ i, ∃ r : ℝ, x0 i = (r : EReal)) :
    val_main_v43 (F := Ideal) x0 x1
      = fun _ => Spec.loss (fun i k => x0 (ix2 i k)) (fun i => x1 (ix1 i)) := by
  have hx : ∀ i k, Cert.RealValued.IsReal (X x0 i k) := fun i k => hfin (ix2 i k)
  funext u
  have hsum : ∑ j : S8192.Idx, val_main_v40 (F := Ideal) x0 x1 j
      = ∑ a : Fin 8192, Spec.rowLoss (X x0) (Lb x1) a :=
    (Equiv.sum_comp idxEquiv1.symm _).symm.trans
      (Finset.sum_congr rfl fun a _ => row_at x0 x1 hx a)
  rw [val_main_v43_apply, val_main_v42_apply, val_main_v41_apply, val_main_cst_8_apply,
    val_main_cst_9_apply, hsum]
  rfl

end Cert.RefValue

end
-- ==== Proof.lean ====
/-
  The supervised-contrastive loss kernel against its reference, on the extended reals.

  Both programs normalise the rows of the feature matrix by their (floored) Euclidean norms and compare labels.
  The reference forms the whole 8192 × 8192 similarity matrix, divides it by the temperature, and per row sums
  mask · (similarity − log-sum-exp). The kernel walks the matrix tile by tile (16 × 16 tiles of 512 × 512),
  multiplies by the reciprocal of the temperature — a constant NAMED as the exact reciprocal of the temperature's
  binary value, so that the product is the reference's quotient —, keeps three per-row accumulators across a row of
  tiles (positive-similarity sum, exponential sum off the diagonal, positive count) and finishes each row as
  (sum − count · log(exp-sum + ε)) / max(count, 1). The two agree because a sum over 8192 columns is the chain of
  its sixteen block sums, and because, every quantity being a real number when the features are finite,
  ∑ mask · (s − ℓ) = ∑ mask · s − (∑ mask) · ℓ.

  The frames: each program terminates, faults nowhere and leaves its arguments unchanged — for the kernel by the
  run of its body at every grid point in each of its three cases (first, middle, last point of a row of tiles),
  the first two input windows reading one array held in halves; for the reference by its run.
-/
import proofs.«119381_j32710470926983_2_alg».proof.Defs
import proofs.«119381_j32710470926983_2_alg».proof.Proof.K.Launch
import proofs.«119381_j32710470926983_2_alg».proof.Proof.K.Body
import proofs.«119381_j32710470926983_2_alg».proof.Proof.KI.Value
import proofs.«119381_j32710470926983_2_alg».proof.Proof.KI.Finite
import proofs.«119381_j32710470926983_2_alg».proof.Proof.RefValue
import proofs.«119381_j32710470926983_2_alg».proof.Proof.Gen.Kernel
import proofs.«119381_j32710470926983_2_alg».proof.Proof.Gen.KernelIdeal
import proofs.«119381_j32710470926983_2_alg».proof.Proof.Gen.ReferenceIdeal
import proofs.«119381_j32710470926983_2_alg».proof.Proof.Gen.ReferenceIdeal.Run
import proofs.«119381_j32710470926983_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs, and its arguments end unchanged. -/
theorem frame_k : Cert.frame_Kernel := fun m ρ _ =>
  (θ_run Cert.Kernel.defs _ _).mono (fun _ h c => (h c).2)
    (Cert.Kernel.Gen.run_main_of m ρ (Cert.Kernel.Gen.dats m) (Cert.Kernel.Gen.A_eq m) (fun _ => rfl) (fun _ _ => rfl)
      (fun c => (Cert.Kernel.Gen.body_obligation m c).loose) (Cert.Kernel.Gen.hin m) (Cert.Kernel.Gen.hout m))

/-- The idealized kernel runs, and its arguments end unchanged. -/
theorem frame_ki : Cert.frame_KernelIdeal := fun m ρ _ =>
  (θ_run Cert.KernelIdeal.defs _ _).mono (fun _ h c => (h c).2)
    (Cert.KernelIdeal.Gen.run_main_of m ρ (Cert.KernelIdeal.Gen.dats m) (Cert.KernelIdeal.Gen.A_eq m) (fun _ => rfl) (fun _ _ => rfl)
      (fun c => (Cert.KernelIdeal.Gen.body_obligation m c).loose) (Cert.KernelIdeal.Gen.hin m) (Cert.KernelIdeal.Gen.hout m))

/-- The reference runs, and its arguments end unchanged. -/
theorem frame_ri : Cert.frame_ReferenceIdeal := fun m ρ _ =>
  (θ_run Cert.ReferenceIdeal.defs _ _).mono (fun _ h c => (h c).2) (Cert.ReferenceIdeal.Value.run (F := Ideal) m ρ)

/-- The one named constant: the table gives the reciprocal of the temperature's binary value. -/
theorem preserves : Cert.preserves_Kernel_KernelIdeal :=
  IdealRules.named_const.statement Cert.KernelIdeal.κ "inv_temp" .f32 0x41649249#32 ((134217728 / 9395241 : ℝ) : EReal) rfl

/-- Both idealized programs end with the loss of the launched features and labels. -/
theorem algebraic : Cert.algebraic_KernelIdeal_ReferenceIdeal := by
  intro m ρ m' ρ' hpre hagree
  refine ⟨fun c => fun _ => Cert.Spec.loss (Cert.KernelIdeal.Value.X m c) (Cert.KernelIdeal.Value.L m c), Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, (hagree c).1, (hagree c).2,
    Cert.RefValue.ref_eq_loss _ _ (Cert.KIFinite.finite_of_pre m hpre c)]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
